-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x32x64 : Shape := ⟨4, ![8, 32, 32, 64]⟩
abbrev S64x64 : Shape := ⟨2, ![64, 64]⟩
abbrev S64 : Shape := ⟨1, ![64]⟩
abbrev S_ : Shape := ⟨0, ![]⟩

class Facts : Prop where
  bcast_S_S8x32x32x64 : S_.BroadcastsInDim S8x32x32x64 (![] : Fin 0 → Fin S8x32x32x64.rank)
  reducesTo_S8x32x32x64_S_d0_1_2_3 : S8x32x32x64.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S8x32x32x64 .f32) (main_arg1 : FVec F S64x64 .f32) (main_arg2 : FVec F S64 .f32) (main_arg3 : FVec F S64x64 .f32) (main_arg4 : FVec F S64 .f32) : IVec S_ 1 :=
  let main_v0 : FVec F S8x32x32x64 .f32 := Host.absf main_arg0
  let main_cst : FVec F S_ .f32 := constant S_ .f32 0x7F800000#32
  let main_v1 : FVec F S8x32x32x64 .f32 := broadcastInDim S8x32x32x64 ![] bcast_S_S8x32x32x64 main_cst
  let main_v2 : IVec S8x32x32x64 1 := cmpf .olt main_v0 main_v1
  let main_c : IVec S_ 1 := constantI S_ 1 1#1
  let main_v3 : IVec S_ 1 := (fun x v => Host.reduce IntOp.andi x v reducesTo_S8x32x32x64_S_d0_1_2_3 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S8x32x32x64 : Shape := ⟨4, ![8, 32, 32, 64]⟩
abbrev S64x64 : Shape := ⟨2, ![64, 64]⟩
abbrev S64 : Shape := ⟨1, ![64]⟩
abbrev S8192x64 : Shape := ⟨2, ![8192, 64]⟩
abbrev S1x64 : Shape := ⟨2, ![1, 64]⟩
abbrev S8192x1 : Shape := ⟨2, ![8192, 1]⟩
abbrev S512x1 : Shape := ⟨2, ![512, 1]⟩
abbrev S8192 : Shape := ⟨1, ![8192]⟩
abbrev S512x64 : Shape := ⟨2, ![512, 64]⟩
abbrev S512x8192 : Shape := ⟨2, ![512, 8192]⟩
abbrev S512 : Shape := ⟨1, ![512]⟩

abbrev nBuf : Space → Nat
  | .hbm => 14
  | .vmem => 34
  | .smem => 0
  | _ => 0

abbrev bufTy : (tb : Table) → Fin (tcTables nBuf tb) → BufTy
  | .hbm, ⟨0, _⟩ => ⟨S8x32x32x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S8192x64, .f32⟩
  | .hbm, ⟨6, _⟩ => ⟨S1x64, .f32⟩
  | .hbm, ⟨7, _⟩ => ⟨S1x64, .f32⟩
  | .hbm, ⟨8, _⟩ => ⟨S8192x64, .bf16⟩
  | .hbm, ⟨9, _⟩ => ⟨S8192x1, .f32⟩
  | .hbm, ⟨10, _⟩ => ⟨S8192x64, .f32⟩
  | .hbm, ⟨11, _⟩ => ⟨S8192x64, .bf16⟩
  | .hbm, ⟨12, _⟩ => ⟨S8192x64, .f32⟩
  | .hbm, ⟨13, _⟩ => ⟨S8x32x32x64, .f32⟩
  | .local _ .vmem, ⟨0, _⟩ => ⟨S8192x64, .f32⟩
  | .local _ .vmem, ⟨1, _⟩ => ⟨S64x64, .f32⟩
  | .local _ .vmem, ⟨2, _⟩ => ⟨S8192x64, .bf16⟩
  | .local _ .vmem, ⟨3, _⟩ => ⟨S512x1, .f32⟩
  | .local _ .vmem, ⟨4, _⟩ => ⟨S512x1, .f32⟩
  | .local _ .vmem, ⟨5, _⟩ => ⟨S8192x64, .f32⟩
  | .local _ .vmem, ⟨6, _⟩ => ⟨S8192x64, .bf16⟩
  | .local _ .vmem, ⟨7, _⟩ => ⟨S512x64, .bf16⟩
  | .local _ .vmem, ⟨8, _⟩ => ⟨S512x64, .bf16⟩
  | .local _ .vmem, ⟨9, _⟩ => ⟨S8192x64, .bf16⟩
  | .local _ .vmem, ⟨10, _⟩ => ⟨S8192x64, .f32⟩
  | .local _ .vmem, ⟨11, _⟩ => ⟨S8192x1, .f32⟩
  | .local _ .vmem, ⟨12, _⟩ => ⟨S512x1, .f32⟩
  | .local _ .vmem, ⟨13, _⟩ => ⟨S512x1, .f32⟩
  | .local _ .vmem, ⟨14, _⟩ => ⟨S512x64, .f32⟩
  | .local _ .vmem, ⟨15, _⟩ => ⟨S512x64, .f32⟩
  | .local _ .vmem, ⟨16, _⟩ => ⟨S1x64, .f32⟩
  | .local _ .vmem, ⟨17, _⟩ => ⟨S64x64, .f32⟩
  | .local _ .vmem, ⟨18, _⟩ => ⟨S512x64, .bf16⟩
  | .local _ .vmem, ⟨19, _⟩ => ⟨S512x64, .bf16⟩
  | .local _ .vmem, ⟨20, _⟩ => ⟨S8192x64, .bf16⟩
  | .local _ .vmem, ⟨21, _⟩ => ⟨S512x64, .bf16⟩
  | .local _ .vmem, ⟨22, _⟩ => ⟨S512x64, .bf16⟩
  | .local _ .vmem, ⟨23, _⟩ => ⟨S8192x64, .bf16⟩
  | .local _ .vmem, ⟨24, _⟩ => ⟨S8192x64, .bf16⟩
  | .local _ .vmem, ⟨25, _⟩ => ⟨S512x64, .bf16⟩
  | .local _ .vmem, ⟨26, _⟩ => ⟨S512x64, .bf16⟩
  | .local _ .vmem, ⟨27, _⟩ => ⟨S512x1, .f32⟩
  | .local _ .vmem, ⟨28, _⟩ => ⟨S512x1, .f32⟩
  | .local _ .vmem, ⟨29, _⟩ => ⟨S512x64, .f32⟩
  | .local _ .vmem, ⟨30, _⟩ => ⟨S512x64, .f32⟩
  | .local _ .vmem, ⟨31, _⟩ => ⟨S1x64, .f32⟩
  | .local _ .vmem, ⟨32, _⟩ => ⟨S512x64, .f32⟩
  | .local _ .vmem, ⟨33, _⟩ => ⟨S512x64, .f32⟩
  | _, _ => ⟨S8x32x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3_0 : Ref sig .tc := ⟨.hbm, 8, rfl⟩
abbrev main_call0_v3_1 : Ref sig .tc := ⟨.hbm, 9, rfl⟩
abbrev main_call0_v3_2 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg7_1 : Ref sig .tc := ⟨.vmem, 33, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem7_0 : DmaSem sig := 16
abbrev cc1_sem8_0 : DmaSem sig := 17
abbrev cc1_sem8_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem3_1 : DmaSem sig := 24
abbrev cc2_sem4_0 : DmaSem sig := 25
abbrev cc2_sem4_1 : DmaSem sig := 26
abbrev cc2_sem5_0 : DmaSem sig := 27
abbrev cc2_sem5_1 : DmaSem sig := 28
abbrev cc2_sem6_0 : DmaSem sig := 29
abbrev cc2_sem7_0 : DmaSem sig := 30
abbrev cc2_sem7_1 : DmaSem sig := 31

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c512_i32 : BitVec 32 := 512#32
  let v3 : BitVec 32 := Scalar.muli arg0 c512_i32
  let v4 : Index := Scalar.indexCast v3
  let c0 : Index := 0#32
  ![v4.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8192x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x64 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8192x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S512x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S8x32x32x64_S8192x64 : S8x32x32x64.ShapeCasts S8192x64
  shapeCasts_S64_S1x64 : S64.ShapeCasts S1x64
  shapeCasts_S8192x64_S8x32x32x64 : S8192x64.ShapeCasts S8x32x32x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  reduces_S8192x64_S8192 : S8192x64.Reduces [1] S8192
  shapeCasts_S8192_S8192x1 : S8192.ShapeCasts S8192x1
  broadcasts_S8192x1_S8192x64 : S8192x1.Broadcasts S8192x64
  bitsLt_bf16_f32 : FTy.bits .bf16 < FTy.bits .f32
  packedbf16_S8192x64_S8192x64_0_0 : (Rect.unit (s := S8192x64) ![0, 0] S8192x64.size inb_S8192x64_S8192x64_0_0).PackedRows (EltTy.packing .bf16)
  inb_S64x64_S64x64_0_0 : ∀ a, (![0, 0] : Fin 2 → Nat) a + S64x64.size a ≤ S64x64.size a
  h_S64x64 : 0 < S64x64.numel
  h_S512x64 : 0 < S512x64.numel
  natLt_1_32 : 1 < 32
  reduces_S512x8192_S512 : S512x8192.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  inb_S512x64_S512x64_0_0 : ∀ a, (![0, 0] : Fin 2 → Nat) a + S512x64.size a ≤ S512x64.size a
  shapeCasts_S512x64_S512x64 : S512x64.ShapeCasts S512x64
  shapeCasts_S512x1_S512x1 : S512x1.ShapeCasts S512x1
  broadcasts_S512x1_S512x64 : S512x1.Broadcasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  packedbf16_S512x64_S512x64_0_0 : (Rect.unit (s := S512x64) ![0, 0] S512x64.size inb_S512x64_S512x64_0_0).PackedRows (EltTy.packing .bf16)
  dot_S8192x64_S64x64_S8192x64_1_0_0_1_n_n_wf : DotDims.WF S8192x64 S64x64 S8192x64 [1] [0] [0] [1] [] []
  dot_S512x64_S8192x64_S512x8192_1_1_0_0_n_n_wf : DotDims.WF S512x64 S8192x64 S512x8192 [1] [1] [0] [0] [] []
  dot_S512x8192_S8192x64_S512x64_1_0_0_1_n_n_wf : DotDims.WF S512x8192 S8192x64 S512x64 [1] [0] [0] [1] [] []
  dot_S512x64_S64x64_S512x64_1_0_0_1_n_n_wf : DotDims.WF S512x64 S64x64 S512x64 [1] [0] [0] [1] [] []
  hrank0 : 0 < grid0.rank
  k0_off1_inb : ∀ i : grid0.Coords, ∀ a, (k0_off1 i) a + S512x64.size a ≤ S8192x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S8192x64.size a
  hwx0_0 : ∀ i : grid0.Coords, EltTy.bits .f32 = 32 ∨ (Rect.block (s := S8192x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S8192x64.size a
  hwx0_2 : ∀ i : grid0.Coords, EltTy.bits .bf16 = 32 ∨ (Rect.block (s := S8192x64) S8192x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8192x64.size a ≤ S8192x64.size a
  hwx0_4 : ∀ i : grid0.Coords, EltTy.bits .f32 = 32 ∨ (Rect.block (s := S8192x64) S8192x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x64.size a ≤ S8192x64.size a
  hwx1_0 : ∀ i : grid1.Coords, EltTy.bits .bf16 = 32 ∨ (Rect.block (s := S8192x64) S512x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .bf16 = 32 ∨ (Rect.block (s := S8192x64) S8192x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S8192x64.size a
  hwx1_2 : ∀ i : grid1.Coords, EltTy.bits .f32 = 32 ∨ (Rect.block (s := S8192x64) S8192x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x1.size a ≤ S8192x1.size a
  hwx1_3 : ∀ i : grid1.Coords, EltTy.bits .f32 = 32 ∨ (Rect.block (s := S8192x1) S8192x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S8192x1.size a
  hwx1_4 : ∀ i : grid1.Coords, EltTy.bits .f32 = 32 ∨ (Rect.block (s := S8192x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x64.size a ≤ S8192x64.size a
  hwx1_5 : ∀ i : grid1.Coords, EltTy.bits .f32 = 32 ∨ (Rect.block (s := S8192x64) S512x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x64.size a ≤ S8192x64.size a
  hwx1_8 : ∀ i : grid1.Coords, EltTy.bits .bf16 = 32 ∨ (Rect.block (s := S8192x64) S512x64.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x64.size a ≤ S8192x64.size a
  hwx2_0 : ∀ i : grid2.Coords, EltTy.bits .bf16 = 32 ∨ (Rect.block (s := S8192x64) S512x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S8192x64.size a
  hwx2_1 : ∀ i : grid2.Coords, EltTy.bits .bf16 = 32 ∨ (Rect.block (s := S8192x64) S8192x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8192x64.size a ≤ S8192x64.size a
  hwx2_2 : ∀ i : grid2.Coords, EltTy.bits .bf16 = 32 ∨ (Rect.block (s := S8192x64) S8192x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x64.size a ≤ S8192x64.size a
  hwx2_3 : ∀ i : grid2.Coords, EltTy.bits .bf16 = 32 ∨ (Rect.block (s := S8192x64) S512x64.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x1.size a ≤ S8192x1.size a
  hwx2_4 : ∀ i : grid2.Coords, EltTy.bits .f32 = 32 ∨ (Rect.block (s := S8192x1) S512x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x64.size a ≤ S8192x64.size a
  hwx2_5 : ∀ i : grid2.Coords, EltTy.bits .f32 = 32 ∨ (Rect.block (s := S8192x64) S512x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x64.size a ≤ S8192x64.size a
  hwx2_7 : ∀ i : grid2.Coords, EltTy.bits .f32 = 32 ∨ (Rect.block (s := S8192x64) S512x64.size (cc2_transform_7 i) (hinb2_7 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S512x64_S8192x64_S512x8192_1_1_0_0_n_n : DotDims S512x64 S8192x64 S512x8192 where
  lhsContracting := [1]
  rhsContracting := [1]
  lhsNonContracting := [0]
  rhsNonContracting := [0]
  lhsBatch := []
  rhsBatch := []
  wf := dot_S512x64_S8192x64_S512x8192_1_1_0_0_n_n_wf
def dot_S512x8192_S8192x64_S512x64_1_0_0_1_n_n : DotDims S512x8192 S8192x64 S512x64 where
  lhsContracting := [1]
  rhsContracting := [0]
  lhsNonContracting := [0]
  rhsNonContracting := [1]
  lhsBatch := []
  rhsBatch := []
  wf := dot_S512x8192_S8192x64_S512x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

abbrev win0_0 : Pipeline.Window sig grid0 :=
  Pipeline.Window.ofSpec (Memref.whole main_call0_v0) S8192x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3_0) S8192x64.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3_1) S512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3_2) S8192x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond1 i == 1#1) | 3 => fun _ => false | 4 => fun i => !(k0_cond1 i == 1#1) | ⟨_ + 5, h⟩ => absurd h (Nat.not_lt.2 (Nat.le_add_left _ _))

abbrev win1_0 : Pipeline.Window sig grid1 :=
  Pipeline.Window.ofSpec (Memref.whole main_call0_v3_0) S512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v3_0) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v3_2) S8192x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v3_1) S8192x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v3_1) S512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_call0_v3_2) S512x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_call0_v1) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg3) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_call0_v4) S512x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_call0_v3_0) S512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v3_0) S8192x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v4) S8192x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v4) S512x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_call0_v3_1) S512x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_call0_v0) S512x64.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_call0_v2) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_call0_v5) S512x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S8x32x32x64 : Shape := ⟨4, ![8, 32, 32, 64]⟩
abbrev S64x64 : Shape := ⟨2, ![64, 64]⟩
abbrev S64 : Shape := ⟨1, ![64]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S64x8192 : Shape := ⟨2, ![64, 8192]⟩
abbrev S8192x8192 : Shape := ⟨2, ![8192, 8192]⟩
abbrev S1x8192 : Shape := ⟨2, ![1, 8192]⟩
abbrev S1x64 : Shape := ⟨2, ![1, 64]⟩

abbrev nBuf : Space → Nat
  | .hbm => 94
  | .vmem => 0
  | .smem => 0
  | _ => 0

abbrev bufTy : (tb : Table) → Fin (tcTables nBuf tb) → BufTy
  | .hbm, ⟨0, _⟩ => ⟨S8x32x32x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S8192x64, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x64, .f32⟩
  | .hbm, ⟨15, _⟩ => ⟨S8192x64, .f32⟩
  | .hbm, ⟨16, _⟩ => ⟨S64x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .i1⟩
  | .hbm, ⟨21, _⟩ => ⟨S8192x8192, .f32⟩
  | .hbm, ⟨22, _⟩ => ⟨S8192x8192, .i32⟩
  | .hbm, ⟨23, _⟩ => ⟨S8192x8192, .i32⟩
  | .hbm, ⟨24, _⟩ => ⟨S_, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .i1⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192x1, .f32⟩
  | .hbm, ⟨43, _⟩ => ⟨S1x8192, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S8192x64, .f32⟩
  | .hbm, ⟨49, _⟩ => ⟨S8192x8192, .f32⟩
  | .hbm, ⟨50, _⟩ => ⟨S8192x64, .f32⟩
  | .hbm, ⟨51, _⟩ => ⟨S1x64, .f32⟩
  | .hbm, ⟨52, _⟩ => ⟨S8192x64, .f32⟩
  | .hbm, ⟨53, _⟩ => ⟨S8192x64, .f32⟩
  | .hbm, ⟨54, _⟩ => ⟨S_, .f32⟩
  | .hbm, ⟨55, _⟩ => ⟨S8192x64, .f32⟩
  | .hbm, ⟨56, _⟩ => ⟨S8192x64, .f32⟩
  | .hbm, ⟨57, _⟩ => ⟨S8192x8192, .i32⟩
  | .hbm, ⟨58, _⟩ => ⟨S8192x8192, .i32⟩
  | .hbm, ⟨59, _⟩ => ⟨S_, .i32⟩
  | .hbm, ⟨60, _⟩ => ⟨S8192x8192, .i32⟩
  | .hbm, ⟨61, _⟩ => ⟨S8192x8192, .i32⟩
  | .hbm, ⟨62, _⟩ => ⟨S8192x8192, .i1⟩
  | .hbm, ⟨63, _⟩ => ⟨S8192x8192, .f32⟩
  | .hbm, ⟨64, _⟩ => ⟨S8192x8192, .f32⟩
  | .hbm, ⟨65, _⟩ => ⟨S_, .f32⟩
  | .hbm, ⟨66, _⟩ => ⟨S8192, .f32⟩
  | .hbm, ⟨67, _⟩ => ⟨S_, .f32⟩
  | .hbm, ⟨68, _⟩ => ⟨S8192, .f32⟩
  | .hbm, ⟨69, _⟩ => ⟨S8192, .i1⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S_, .f32⟩
  | .hbm, ⟨74, _⟩ => ⟨S_, .f32⟩
  | .hbm, ⟨75, _⟩ => ⟨S8192, .f32⟩
  | .hbm, ⟨76, _⟩ => ⟨S8192, .f32⟩
  | .hbm, ⟨77, _⟩ => ⟨S8192x1, .f32⟩
  | .hbm, ⟨78, _⟩ => ⟨S1x8192, .f32⟩
  | .hbm, ⟨79, _⟩ => ⟨S8192x8192, .f32⟩
  | .hbm, ⟨80, _⟩ => ⟨S8192x8192, .f32⟩
  | .hbm, ⟨81, _⟩ => ⟨S8192x8192, .f32⟩
  | .hbm, ⟨82, _⟩ => ⟨S8192x8192, .f32⟩
  | .hbm, ⟨83, _⟩ => ⟨S8192x64, .f32⟩
  | .hbm, ⟨84, _⟩ => ⟨S8192x8192, .f32⟩
  | .hbm, ⟨85, _⟩ => ⟨S8192x64, .f32⟩
  | .hbm, ⟨86, _⟩ => ⟨S1x64, .f32⟩
  | .hbm, ⟨87, _⟩ => ⟨S8192x64, .f32⟩
  | .hbm, ⟨88, _⟩ => ⟨S8192x64, .f32⟩
  | .hbm, ⟨89, _⟩ => ⟨S8x32x32x64, .f32⟩
  | .hbm, ⟨90, _⟩ => ⟨S_, .f32⟩
  | .hbm, ⟨91, _⟩ => ⟨S8x32x32x64, .f32⟩
  | .hbm, ⟨92, _⟩ => ⟨S8x32x32x64, .f32⟩
  | .hbm, ⟨93, _⟩ => ⟨S8x32x32x64, .f32⟩
  | _, _ => ⟨S8x32x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call2_cst : Ref sig .tc := ⟨.hbm, 54, rfl⟩
abbrev main_call2_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_call3_v0 : Ref sig .tc := ⟨.hbm, 74, rfl⟩
abbrev main_call3_v1 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_10 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩

abbrev nD : Nat := 1
abbrev τ : Topo := Topo.v7x

variable {F : FTy → Type} [FloatOps F]

class Facts₀ : Prop where
  shapeCasts_S8x32x32x64_S8192x64 : S8x32x32x64.ShapeCasts S8192x64
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  transposes_S8192x64_S64x8192_1_0 : S8192x64.Transposes [1, 0] S64x8192
  bcast_S_S8192x8192 : S_.BroadcastsInDim S8192x8192 (![] : Fin 0 → Fin S8192x8192.rank)
  reducesTo_S8192x8192_S8192_d0 : S8192x8192.ReducesTo [0] S8192
  bcast_S_S8192 : S_.BroadcastsInDim S8192 (![] : Fin 0 → Fin S8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x8192_S8192x8192_1_0 : S8192x8192.Transposes [1, 0] S8192x8192
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  shapeCasts_S8192x64_S8x32x32x64 : S8192x64.ShapeCasts S8x32x32x64
  bcast_S_S8x32x32x64 : S_.BroadcastsInDim S8x32x32x64 (![] : Fin 0 → Fin S8x32x32x64.rank)
  dot_S8192x64_S64x8192_S8192x8192_1_0_0_1_n_n_wf : DotDims.WF S8192x64 S64x8192 S8192x8192 [1] [0] [0] [1] [] []
  dot_S8192x64_S64x64_S8192x64_1_0_0_1_n_n_wf : DotDims.WF S8192x64 S64x64 S8192x64 [1] [0] [0] [1] [] []
  dot_S8192x8192_S8192x64_S8192x64_1_0_0_1_n_n_wf : DotDims.WF S8192x8192 S8192x64 S8192x64 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.KRegion0.lean ====
import proofs.«135952_g51264729645358_cont_sun_m_1122_19_alg».proof.Proof.Gen.Kernel.Launch
import proofs.«135952_g51264729645358_cont_sun_m_1122_19_alg».proof.Proof.Gen.Kernel.Skeleton
import proofs.«135952_g51264729645358_cont_sun_m_1122_19_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The degree pass: normalised rows, first-layer features, and one 512-row block of degrees per grid point

At the first grid point the body reads all 8192 input rows and the first weight matrix, and stores the normalised rows
(into a scratch it keeps for every later point, and into the first result), and the first-layer features (into the third
result). At EVERY point it then reads 512 of the normalised rows and all of them back from the scratch and stores the
block's 512 degrees. The first and third results are written back once, after the last point. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's one condition, and where the windows are idle -/

/-- The body's `if`: the grid coordinate is zero. -/
abbrev cond0 (i : grid0.Coords) : Prop := k0_cond1 i = 1#1
/-- It holds at the first point only. -/
theorem hcond0 : ∀ t : Fin cfg0.N, cond0 (grid0.coords t) ↔ t.val = 0 :=
  (by decide +kernel : ∀ t : Fin grid0.N, cond0 (grid0.coords t) ↔ t.val = 0)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_3 : ∀ t : Fin cfg0.N, cfg0.idle 3 (grid0.coords t) = false := by decide +kernel
/-- The first and the third result are stored at the first point only: idle at every other. -/
theorem idle0_2_iff : ∀ t : Fin cfg0.N, cfg0.idle 2 (grid0.coords t) = decide (t.val ≠ 0) := by decide +kernel
theorem idle0_4_iff : ∀ t : Fin cfg0.N, cfg0.idle 4 (grid0.coords t) = decide (t.val ≠ 0) := by decide +kernel
/-- They are written back at the last point only. -/
theorem flush0_2_iff : ∀ t : Fin cfg0.N, (cfg0.win 2).flush t = decide (t.val = 15) := by decide +kernel
theorem flush0_4_iff : ∀ t : Fin cfg0.N, (cfg0.win 4).flush t = decide (t.val = 15) := by decide +kernel

/-! ## The staging buffers and the scratch, as the pipeline passes them -/

abbrev ms0_0 (t : Fin cfg0.N) : Memref sig .tc .vmem S8192x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8192x64 .f32 := win0_4.stage (cfg0.slots t 4)
abbrev hs0_4 (t : Fin cfg0.N) : (ms0_4 t).IsWhole := hstage0_4 ((cfg0.slots t 4).cast nbuf0_4)
/-- The scratch that keeps the normalised rows. -/
abbrev scM0 : Memref sig .tc .vmem S8192x64 .bf16 := Memref.whole cc0_scratch0
/-- One buffer of each result window and the scratch, as views through which their contents are stated. -/
abbrev VO0_2 : View sig .tc .vmem S8192x64 .bf16 := (Memref.whole cc0_stg2_0 : Memref sig .tc .vmem S8192x64 .bf16).view
abbrev VO0_3 : View sig .tc .vmem S512x1 .f32 := (Memref.whole cc0_stg3_0 : Memref sig .tc .vmem S512x1 .f32).view
abbrev VO0_4 : View sig .tc .vmem S8192x64 .f32 := (Memref.whole cc0_stg4_0 : Memref sig .tc .vmem S8192x64 .f32).view
abbrev VS0 : View sig .tc .vmem S8192x64 .bf16 := scM0.view

/-! ## The body, case by case -/

set_option maxHeartbeats 2000000 in
/-- THE FIRST POINT. On whole buffers — the two inputs' at known contents, the three results' and the scratch at
    anything — the body runs to the end leaving the inputs as they were and, in each result's buffer and in the scratch, the
    pieces it stored (found by running it). -/
noncomputable def kernelRun0_A (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : cond0 i)
    (x0 : Vec F S8192x64 .f32) (x1 : Vec F S64x64 .f32) :
    Σ' (L2 : List (View.Piece (Elt F) S8192x64 .bf16)) (L3 : List (View.Piece (Elt F) S512x1 .f32)) (L4 : List (View.Piece (Elt F) S8192x64 .f32)),
    { LS : List (View.Piece (Elt F) S8192x64 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__deg_body i arg1 harg1 arg2 harg2 arg3 harg3 arg4 harg4 arg5 harg5 arg6 harg6) K } := by
  refine ⟨?_, ?_, ?_, ?_, fun E K => ?run⟩
  case run =>
    simp only [cc0__deg_body_eq_skeleton]; unfold cc0__deg_body_skel
    unfold owns
    iintro ⟨⟨%f0, %hf0, H0⟩, ⟨%f1, %hf1, H1⟩, ⟨%d2, %f2, -, H2⟩, ⟨%d3, %f3, -, H3⟩, ⟨%d4, %f4, -, H4⟩, ⟨%ds, %fs, -, HS⟩, Hk⟩
    obtain rfl := harg1.eq_unread hf0; obtain rfl := harg2.eq_unread hf1
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; iexact HS

set_option maxHeartbeats 2000000 in
/-- EVERY LATER POINT. The scratch holds the normalised rows `xs`; the body reads them and stores the block's degrees;
    it touches nothing else. -/
noncomputable def kernelRun0_B (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : ¬cond0 i)
    (xs : Vec F S8192x64 .bf16) :
    { L3 : List (View.Piece (Elt F) S512x1 .f32) //
      ∀ (E : Set ℕ) (K : PUnit → sProp 𝕄),
        iprop((∃ d, owns (c : Thread nD τ) arg4 fullShare d) ∗ owns (c : Thread nD τ) arg6 fullShare xs
            ∗ (iprop((∃ f, arg4.view.loc (c : Thread nD τ) ↦[arg4.view.set]{fullShare} arg4.view.writes (Elt F) f L3)
                ∗ owns (c : Thread nD τ) arg6 fullShare xs) -∗ K ⟨⟩))
          ⊢ wp frame (wpE (defs₀ (F := F)) Variants.none c none) E (cc0__deg_body i arg1 harg1 arg2 harg2 arg3 harg3 arg4 harg4 arg5 harg5 arg6 harg6) K } := by
  refine ⟨?_, fun E K => ?run⟩
  case run =>
    simp only [cc0__deg_body_eq_skeleton]; unfold cc0__deg_body_skel
    unfold owns
    iintro ⟨⟨%d3, %f3, -, H3⟩, ⟨%fs, %hfs, HS⟩, Hk⟩
    obtain rfl := harg6.eq_unread hfs
    sl_exec (disch := first | exact hc)
    sl_step
    iapply Hk
    isplitl [H3]; · iexists _; iexact H3
    iexists _; isplitr; · ipureintro; exact harg6.read_unread _
    iexact HS

/-! ## What each case leaves -/

theorem cover0_A_2 (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : cond0 i) (x0 : Vec F S8192x64 .f32) (x1 : Vec F S64x64 .f32) (y : S8192x64.Idx) :
    ∃ pc ∈ (kernelRun0_A c i arg1 harg1 arg2 harg2 arg3 harg3 arg4 harg4 arg5 harg5 arg6 harg6 hc x0 x1).1, y ∈ pc.1.set :=
  View.cover_of_tiledL (kernelRun0_A c i arg1 harg1 arg2 harg2 arg3 harg3 arg4 harg4 arg5 harg5 arg6 harg6 hc x0 x1).1 S8192x64.size (by sl_kernel_rfl) y
theorem cover0_A_3 (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : cond0 i) (x0 : Vec F S8192x64 .f32) (x1 : Vec F S64x64 .f32) (y : S512x1.Idx) :
    ∃ pc ∈ (kernelRun0_A c i arg1 harg1 arg2 harg2 arg3 harg3 arg4 harg4 arg5 harg5 arg6 harg6 hc x0 x1).2.1, y ∈ pc.1.set :=
  View.cover_of_tiledL (kernelRun0_A c i arg1 harg1 arg2 harg2 arg3 harg3 arg4 harg4 arg5 harg5 arg6 harg6 hc x0 x1).2.1 S512x1.size (by sl_kernel_rfl) y
theorem cover0_A_4 (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : cond0 i) (x0 : Vec F S8192x64 .f32) (x1 : Vec F S64x64 .f32) (y : S8192x64.Idx) :
    ∃ pc ∈ (kernelRun0_A c i arg1 harg1 arg2 harg2 arg3 harg3 arg4 harg4 arg5 harg5 arg6 harg6 hc x0 x1).2.2.1, y ∈ pc.1.set :=
  View.cover_of_tiledL (kernelRun0_A c i arg1 harg1 arg2 harg2 arg3 harg3 arg4 harg4 arg5 harg5 arg6 harg6 hc x0 x1).2.2.1 S8192x64.size (by sl_kernel_rfl) y
theorem scover0_A (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : cond0 i) (x0 : Vec F S8192x64 .f32) (x1 : Vec F S64x64 .f32) (y : S8192x64.Idx) :
    ∃ pc ∈ (kernelRun0_A c i arg1 harg1 arg2 harg2 arg3 harg3 arg4 harg4 arg5 harg5 arg6 harg6 hc x0 x1).2.2.2.1, y ∈ pc.1.set :=
  View.cover_of_tiledL (kernelRun0_A c i arg1 harg1 arg2 harg2 arg3 harg3 arg4 harg4 arg5 harg5 arg6 harg6 hc x0 x1).2.2.2.1 S8192x64.size (by sl_kernel_rfl) y
theorem cover0_B_3 (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : ¬cond0 i) (xs : Vec F S8192x64 .bf16) (y : S512x1.Idx) :
    ∃ pc ∈ (kernelRun0_B c i arg1 harg1 arg2 harg2 arg3 harg3 arg4 harg4 arg5 harg5 arg6 harg6 hc xs).1, y ∈ pc.1.set :=
  View.cover_of_tiledL (kernelRun0_B c i arg1 harg1 arg2 harg2 arg3 harg3 arg4 harg4 arg5 harg5 arg6 harg6 hc xs).1 S512x1.size (by sl_kernel_rfl) y

/-- The first point's normalised rows (first result), degrees of block 0 (second), first-layer features (third) and the
    scratch's contents: the pieces the run stored, read back. -/
def out0_A_2 (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : cond0 i) (x0 : Vec F S8192x64 .f32) (x1 : Vec F S64x64 .f32) : Vec F S8192x64 .bf16 :=
  VO0_2.read (Elt F) (VO0_2.writes (Elt F) VO0_2.junk (kernelRun0_A c i arg1 harg1 arg2 harg2 arg3 harg3 arg4 harg4 arg5 harg5 arg6 harg6 hc x0 x1).1)
def out0_A_3 (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : cond0 i) (x0 : Vec F S8192x64 .f32) (x1 : Vec F S64x64 .f32) : Vec F S512x1 .f32 :=
  VO0_3.read (Elt F) (VO0_3.writes (Elt F) VO0_3.junk (kernelRun0_A c i arg1 harg1 arg2 harg2 arg3 harg3 arg4 harg4 arg5 harg5 arg6 harg6 hc x0 x1).2.1)
def out0_A_4 (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : cond0 i) (x0 : Vec F S8192x64 .f32) (x1 : Vec F S64x64 .f32) : Vec F S8192x64 .f32 :=
  VO0_4.read (Elt F) (VO0_4.writes (Elt F) VO0_4.junk (kernelRun0_A c i arg1 harg1 arg2 harg2 arg3 harg3 arg4 harg4 arg5 harg5 arg6 harg6 hc x0 x1).2.2.1)
def sout0_A (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : cond0 i) (x0 : Vec F S8192x64 .f32) (x1 : Vec F S64x64 .f32) : Vec F S8192x64 .bf16 :=
  VS0.read (Elt F) (VS0.writes (Elt F) VS0.junk (kernelRun0_A c i arg1 harg1 arg2 harg2 arg3 harg3 arg4 harg4 arg5 harg5 arg6 harg6 hc x0 x1).2.2.2.1)
/-- A later point's block of degrees, from the scratch's normalised rows. -/
def out0_B_3 (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : ¬cond0 i) (xs : Vec F S8192x64 .bf16) : Vec F S512x1 .f32 :=
  VO0_3.read (Elt F) (VO0_3.writes (Elt F) VO0_3.junk (kernelRun0_B c i arg1 harg1 arg2 harg2 arg3 harg3 arg4 harg4 arg5 harg5 arg6 harg6 hc xs).1)

/-! ## The contents, point by point -/

theorem hcA0 : cond0 (grid0.coords t0_0) := (hcond0 t0_0).mpr rfl

/-- What the first point leaves in the first result's buffer, the third's, and the scratch: they stay for the whole pass. -/
def O2 (c : Dev nD) : Vec F S8192x64 .bf16 := out0_A_2 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) scM0 (Memref.isWhole_whole _) hcA0 (iblk0 V c 0 t0_0) (iblk0 V c 1 t0_0)
def O4 (c : Dev nD) : Vec F S8192x64 .f32 := out0_A_4 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) scM0 (Memref.isWhole_whole _) hcA0 (iblk0 V c 0 t0_0) (iblk0 V c 1 t0_0)
def SC (c : Dev nD) : Vec F S8192x64 .bf16 := sout0_A c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) scM0 (Memref.isWhole_whole _) hcA0 (iblk0 V c 0 t0_0) (iblk0 V c 1 t0_0)
/-- The block of degrees point `t` leaves. -/
def O3 (c : Dev nD) (t : Fin cfg0.N) : Vec F S512x1 .f32 :=
  if h : t.val = 0 then out0_A_3 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) scM0 (Memref.isWhole_whole _) hcA0 (iblk0 V c 0 t0_0) (iblk0 V c 1 t0_0)
  else out0_B_3 c (grid0.coords t) (ms0_0 t) (hs0_0 t) (ms0_1 t) (hs0_1 t) (ms0_2 t) (hs0_2 t) (ms0_3 t) (hs0_3 t) (ms0_4 t) (hs0_4 t) scM0 (Memref.isWhole_whole _) (fun hh => h ((hcond0 t).mp hh)) (SC V c)

/-- The invariant before position `n`: before the first point the scratch holds anything; afterwards the normalised rows. -/
def Phi0 (c : Dev nD) : ℕ → sProp 𝕄
  | 0 => Pipeline.ΦA spec0 c
  | _ + 1 => iprop(iprop(owns (c : Thread nD τ) scM0 fullShare (SC V c) ∗ Pipeline.scopedRestBut (Ix := Unit) (Name := ℕ) (U := Pipeline.UD sig nD τ) (Lvl := ℕ) (Val := Elt F) spec0 c [cc0_scratch0]) ∗ (∃ r, prngReg c r))

theorem Phi0_pos (c : Dev nD) (n : ℕ) (h : n ≠ 0) :
    Phi0 V c n = iprop(iprop(owns (c : Thread nD τ) scM0 fullShare (SC V c) ∗ Pipeline.scopedRestBut (Ix := Unit) (Name := ℕ) (U := Pipeline.UD sig nD τ) (Lvl := ℕ) (Val := Elt F) spec0 c [cc0_scratch0]) ∗ (∃ r, prngReg c r)) := by
  cases n with
  | zero => exact absurd rfl h
  | succ n => rfl

theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := Pipeline.UD sig nD τ) (Lvl := ℕ) (Val := Elt F) spec0 c [cc0_scratch0]) ∗ (∃ r, prngReg c r)) := by
  unfold Pipeline.ΦA; rw [scopedRest0_split]; simp only [scM0, owns_whole]; try rfl

/-- The proof data of the degree pass on core `c`. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => O2 V c
    | ⟨3, _⟩ => O3 V c t
    | ⟨4, _⟩ => O4 V c
  Φ t := Phi0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = O2 V c := by dsimp only [dat0]
theorem after0_3 (c : Dev nD) (t : Fin cfg0.N) : (dat0 V c).after 3 t = O3 V c t := by dsimp only [dat0]
theorem after0_4 (c : Dev nD) (t : Fin cfg0.N) : (dat0 V c).after 4 t = O4 V c := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- After the first point the first result's buffer holds what the first point left, through every idle point. -/
theorem before0_2_pos (c : Dev nD) (d) : ∀ (n : ℕ) (hn : n < cfg0.N), n ≠ 0 → (dat0 V c).before 2 ⟨n, hn⟩ d = O2 V c := by
  intro n
  induction n with
  | zero => intro _ h; exact absurd rfl h
  | succ k ih =>
    intro hn _
    have hN : k + 1 < 16 := lt_of_lt_of_eq hn N_0
    rw [Dat.before_of_pos (dat0 V c) 2 ⟨k + 1, hn⟩ (Nat.succ_ne_zero k) ((cfg0.win 2).fetch_out rfl _)]
    have e : (⟨(⟨k + 1, hn⟩ : Fin cfg0.N).val - 1, Nat.lt_of_le_of_lt (Nat.sub_le _ _) (⟨k + 1, hn⟩ : Fin cfg0.N).isLt⟩ : Fin cfg0.N) = ⟨k, Nat.lt_of_succ_lt hn⟩ := Fin.ext (by show k + 1 - 1 = k; omega)
    rw [e, flush0_2_iff, show decide ((⟨k, Nat.lt_of_succ_lt hn⟩ : Fin cfg0.N).val = 15) = false from decide_eq_false (by dsimp only; omega), if_neg Bool.false_ne_true]
    unfold Dat.left
    rw [idle0_2_iff]
    by_cases hk : k = 0
    · subst hk
      rw [show decide ((⟨0, Nat.lt_of_succ_lt hn⟩ : Fin cfg0.N).val ≠ 0) = false from decide_eq_false (by dsimp only; omega)]
      show (dat0 V c).kept 2 ⟨0, _⟩ d = _
      unfold Dat.kept
      rw [after0_2]
      rfl
    · rw [show decide ((⟨k, Nat.lt_of_succ_lt hn⟩ : Fin cfg0.N).val ≠ 0) = true from decide_eq_true (by dsimp only; exact hk)]
      exact ih _ hk

theorem before0_4_pos (c : Dev nD) (d) : ∀ (n : ℕ) (hn : n < cfg0.N), n ≠ 0 → (dat0 V c).before 4 ⟨n, hn⟩ d = O4 V c := by
  intro n
  induction n with
  | zero => intro _ h; exact absurd rfl h
  | succ k ih =>
    intro hn _
    have hN : k + 1 < 16 := lt_of_lt_of_eq hn N_0
    rw [Dat.before_of_pos (dat0 V c) 4 ⟨k + 1, hn⟩ (Nat.succ_ne_zero k) ((cfg0.win 4).fetch_out rfl _)]
    have e : (⟨(⟨k + 1, hn⟩ : Fin cfg0.N).val - 1, Nat.lt_of_le_of_lt (Nat.sub_le _ _) (⟨k + 1, hn⟩ : Fin cfg0.N).isLt⟩ : Fin cfg0.N) = ⟨k, Nat.lt_of_succ_lt hn⟩ := Fin.ext (by show k + 1 - 1 = k; omega)
    rw [e, flush0_4_iff, show decide ((⟨k, Nat.lt_of_succ_lt hn⟩ : Fin cfg0.N).val = 15) = false from decide_eq_false (by dsimp only; omega), if_neg Bool.false_ne_true]
    unfold Dat.left
    rw [idle0_4_iff]
    by_cases hk : k = 0
    · subst hk
      rw [show decide ((⟨0, Nat.lt_of_succ_lt hn⟩ : Fin cfg0.N).val ≠ 0) = false from decide_eq_false (by dsimp only; omega)]
      show (dat0 V c).kept 4 ⟨0, _⟩ d = _
      unfold Dat.kept
      rw [after0_4]
      rfl
    · rw [show decide ((⟨k, Nat.lt_of_succ_lt hn⟩ : Fin cfg0.N).val ≠ 0) = true from decide_eq_true (by dsimp only; exact hk)]
      exact ih _ hk

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

theorem Phi_castSucc0 (c : Dev nD) (t : Fin cfg0.N) : (dat0 V c).Φ t.castSucc = Phi0 V c t.val := by
  dsimp only [dat0]; simp only [Fin.coe_castSucc]
theorem Phi_succ0 (c : Dev nD) (t : Fin cfg0.N) : (dat0 V c).Φ t.succ = Phi0 V c (t.val + 1) := by
  dsimp only [dat0]; simp only [Fin.val_succ]

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [Phi_castSucc0, Phi_succ0, Phi0_pos V c (t.val + 1) (Nat.succ_ne_zero _)]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 3 t = owns (c : Thread nD τ) (ms0_3 t) fullShare ((dat0 V c).after 3 t) from by
    unfold Dat.leavesExact; rw [liveAt0_3 t], after0_3]
  have hN : t.val < 16 := lt_of_lt_of_eq t.isLt N_0
  by_cases h0 : t.val = 0
  · -- the first point
    have ht : t = t0_0 := Fin.ext h0
    subst ht
    rw [show (dat0 V c).leavesExact 2 t0_0 = owns (c : Thread nD τ) (ms0_2 t0_0) fullShare ((dat0 V c).after 2 t0_0) from by
      unfold Dat.leavesExact; rw [idle0_2_iff t0_0]; rfl, after0_2]
    rw [show (dat0 V c).leavesExact 4 t0_0 = owns (c : Thread nD τ) (ms0_4 t0_0) fullShare ((dat0 V c).after 4 t0_0) from by
      unfold Dat.leavesExact; rw [idle0_4_iff t0_0]; rfl, after0_4]
    rw [show Phi0 V c (t0_0 : Fin cfg0.N).val = Pipeline.ΦA spec0 c from rfl, PhiA0_eq]
    unfold O2 O4 SC
    rw [show O3 V c t0_0 = out0_A_3 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) scM0 (Memref.isWhole_whole _) hcA0 (iblk0 V c 0 t0_0) (iblk0 V c 1 t0_0) from dif_pos rfl]
    unfold out0_A_2 out0_A_3 out0_A_4 sout0_A
    iintro ⟨⟨⟨HS, HB⟩, Hg⟩, Ho, ⟨%d0, H0⟩, ⟨%d1, H1⟩, ⟨%d2, H2⟩, ⟨%d3, H3⟩, ⟨%d4, H4⟩⟩
    iapply ((kernelRun0_A c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) scM0 (Memref.isWhole_whole _) hcA0 (iblk0 V c 0 t0_0) (iblk0 V c 1 t0_0)).2.2.2.2 Set.univ _)
    isplitl [H0]; · iexact H0
    isplitl [H1]; · iexact H1
    isplitl [H2]; · iexists _; iexact H2
    isplitl [H3]; · iexists _; iexact H3
    isplitl [H4]; · iexists _; iexact H4
    isplitl [HS]; · iexact HS
    iintro ⟨H0, H1, ⟨%e2, H2⟩, ⟨%e3, H3⟩, ⟨%e4, H4⟩, ⟨%es, HS⟩⟩
    isplitl [HS HB Hg]
    · isplitl [HS HB]
      · isplitl [HS]
        · unfold owns; iexists _; isplitr
          swap; · iexact HS
          ipureintro; exact View.read_writes_of_cover _ _ _ _ _ (scover0_A c _ _ _ _ _ _ _ _ _ _ _ _ _ _ _ _)
        iexact HB
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _ _)
  · -- a later point
    have hcB : ¬cond0 (grid0.coords t) := fun hh => h0 ((hcond0 t).mp hh)
    rw [Phi0_pos V c t.val h0]
    rw [show O3 V c t = out0_B_3 c (grid0.coords t) (ms0_0 t) (hs0_0 t) (ms0_1 t) (hs0_1 t) (ms0_2 t) (hs0_2 t) (ms0_3 t) (hs0_3 t) (ms0_4 t) (hs0_4 t) scM0 (Memref.isWhole_whole _) (fun hh => h0 ((hcond0 t).mp hh)) (SC V c) from dif_neg h0]
    unfold out0_B_3
    have hb2 : ∀ d, (dat0 V c).before 2 t d = O2 V c := fun d => before0_2_pos V c d t.val t.isLt h0
    have hb4 : ∀ d, (dat0 V c).before 4 t d = O4 V c := fun d => before0_4_pos V c d t.val t.isLt h0
    by_cases hl : t.val = 15
    · -- the last point: the two whole results are written back, at what the first point left
      rw [show (dat0 V c).leavesExact 2 t = owns (c : Thread nD τ) (ms0_2 t) fullShare ((dat0 V c).after 2 t) from by
        unfold Dat.leavesExact; rw [idle0_2_iff t, flush0_2_iff t, decide_eq_true h0, decide_eq_true hl], after0_2]
      rw [show (dat0 V c).leavesExact 4 t = owns (c : Thread nD τ) (ms0_4 t) fullShare ((dat0 V c).after 4 t) from by
        unfold Dat.leavesExact; rw [idle0_4_iff t, flush0_4_iff t, decide_eq_true h0, decide_eq_true hl], after0_4]
      simp only [hb2, hb4]
      iintro ⟨⟨⟨HS, HB⟩, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0 (Memref.isWhole_whole _) (fun hh => h0 ((hcond0 t).mp hh)) (SC V c)).2 Set.univ _)
      isplitl [H3]; · iexists _; iexact H3
      isplitl [HS]; · iexact HS
      iintro ⟨⟨%e3, H3⟩, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _)
      iexact H4
    · -- a point between: the two whole results' buffers are handed back as found
      rw [Dat.leavesExact_idle (dat0 V c) 2 t (by rw [idle0_2_iff t]; exact decide_eq_true h0) (by rw [flush0_2_iff t]; exact decide_eq_false hl)]
      rw [Dat.leavesExact_idle (dat0 V c) 4 t (by rw [idle0_4_iff t]; exact decide_eq_true h0) (by rw [flush0_4_iff t]; exact decide_eq_false hl)]
      iintro ⟨⟨⟨HS, HB⟩, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0 (Memref.isWhole_whole _) (fun hh => h0 ((hcond0 t).mp hh)) (SC V c)).2 Set.univ _)
      isplitl [H3]; · iexists _; iexact H3
      isplitl [HS]; · iexact HS
      iintro ⟨⟨%e3, H3⟩, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexists _; iexact H2
      isplitl [H3]
      · unfold owns; iexists _; isplitr
        swap; · iexact H3
        ipureintro; exact View.read_writes_of_cover _ _ _ _ _ (cover0_B_3 c _ _ _ _ _ _ _ _ _ _ _ _ _ _ _)
      iexists _; iexact H4

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := Idealize.SL.BI.Entails.refl _
theorem hout0 (c : Dev nD) : (dat0 V c).Φ (Fin.last cfg0.N) ⊢ Pipeline.ΦA spec0 c := by
  rw [show (dat0 V c).Φ (Fin.last cfg0.N) = Phi0 V c cfg0.N from rfl, Phi0_pos V c cfg0.N (by rw [show cfg0.N = 16 from N_0]; decide), PhiA0_eq]
  iintro ⟨⟨HS, HB⟩, Hg⟩
  isplitl [HS HB]
  · isplitl [HS]; · iexists _; iexact HS
    iexact HB
  iexact Hg

end Cert.Kernel.Hand

end
-- ==== Proof.KRegion1.lean ====
import proofs.«135952_g51264729645358_cont_sun_m_1122_19_alg».proof.Proof.Gen.Kernel.Launch
import proofs.«135952_g51264729645358_cont_sun_m_1122_19_alg».proof.Proof.Gen.Kernel.Skeleton
import proofs.«135952_g51264729645358_cont_sun_m_1122_19_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The first convolution pass: one 512-row block of scaled second-layer features per grid point

At the first grid point the body reads all degrees and all first-layer features and stores their scaled product into a
scratch it keeps for every later point. At EVERY point it reads the block's normalised rows, all normalised rows, the
scratch, the block's degrees and first-layer features, the bias row and the second weight matrix, and stores the block's
512 rows of scaled second-layer features. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (Pipeline.UD sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- The body's `if`: the grid coordinate is zero. -/
abbrev cond1 (i : grid1.Coords) : Prop := (Scalar.cmpi .ne (Scalar.extui (Scalar.cmpi .eq (BitVec.ofNat 32 (i 0).val) 0#32)) 0#32) = 1#1
theorem hcond1 : ∀ t : Fin cfg1.N, cond1 (grid1.coords t) ↔ t.val = 0 :=
  (by decide +kernel : ∀ t : Fin grid1.N, cond1 (grid1.coords t) ↔ t.val = 0)

abbrev ms1_0 (t : Fin cfg1.N) : Memref sig .tc .vmem S512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64x64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x64 .bf16 := win1_8.stage (cfg1.slots t 8)
abbrev hs1_8 (t : Fin cfg1.N) : (ms1_8 t).IsWhole := hstage1_8 ((cfg1.slots t 8).cast nbuf1_8)
/-- The scratch that keeps the scaled first-layer features. -/
abbrev scM1 : Memref sig .tc .vmem S8192x64 .bf16 := Memref.whole cc1_scratch0
abbrev VO1_8 : View sig .tc .vmem S512x64 .bf16 := (Memref.whole cc1_stg8_0 : Memref sig .tc .vmem S512x64 .bf16).view
abbrev VS1 : View sig .tc .vmem S8192x64 .bf16 := scM1.view

set_option maxHeartbeats 4000000 in
/-- THE FIRST POINT: the scratch at anything; the body fills it, then computes the block. -/
noncomputable def kernelRun1_A (c : Dev nD) (i : grid1.Coords) (arg1 : Memref sig .tc .vmem S512x64 .bf16) (harg1 : arg1.IsWhole) (arg2 : Memref sig .tc .vmem S8192x64 .bf16) (harg2 : arg2.IsWhole) (arg3 : Memref sig .tc .vmem S8192x64 .f32) (harg3 : arg3.IsWhole) (arg4 : Memref sig .tc .vmem S8192x1 .f32) (harg4 : arg4.IsWhole) (arg5 : Memref sig .tc .vmem S512x1 .f32) (harg5 : arg5.IsWhole) (arg6 : Memref sig .tc .vmem S512x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S512x64 .bf16) (harg9 : arg9.IsWhole) (arg10 : Memref sig .tc .vmem S8192x64 .bf16) (harg10 : arg10.IsWhole) (hc : cond1 i) (x0 : Vec F S512x64 .bf16) (x1 : Vec F S8192x64 .bf16) (x2 : Vec F S8192x64 .f32) (x3 : Vec F S8192x1 .f32) (x4 : Vec F S512x1 .f32) (x5 : Vec F S512x64 .f32) (x6 : Vec F S1x64 .f32) (x7 : Vec F S64x64 .f32) :
    Σ' (L8 : List (View.Piece (Elt F) S512x64 .bf16)), { LS : List (View.Piece (Elt F) S8192x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f LS)) -∗ K ⟨⟩))
          ⊢ wp frame (wpE (defs₀ (F := F)) Variants.none c none) E (cc1__conv1_body i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc1__conv1_body_eq_skeleton]; unfold cc1__conv1_body_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; iexact HS

set_option maxHeartbeats 4000000 in
/-- EVERY LATER POINT: the scratch holds `xs`; the body reads it and computes the block. -/
noncomputable def kernelRun1_B (c : Dev nD) (i : grid1.Coords) (arg1 : Memref sig .tc .vmem S512x64 .bf16) (harg1 : arg1.IsWhole) (arg2 : Memref sig .tc .vmem S8192x64 .bf16) (harg2 : arg2.IsWhole) (arg3 : Memref sig .tc .vmem S8192x64 .f32) (harg3 : arg3.IsWhole) (arg4 : Memref sig .tc .vmem S8192x1 .f32) (harg4 : arg4.IsWhole) (arg5 : Memref sig .tc .vmem S512x1 .f32) (harg5 : arg5.IsWhole) (arg6 : Memref sig .tc .vmem S512x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S512x64 .bf16) (harg9 : arg9.IsWhole) (arg10 : Memref sig .tc .vmem S8192x64 .bf16) (harg10 : arg10.IsWhole) (hc : ¬cond1 i) (x0 : Vec F S512x64 .bf16) (x1 : Vec F S8192x64 .bf16) (x2 : Vec F S8192x64 .f32) (x3 : Vec F S8192x1 .f32) (x4 : Vec F S512x1 .f32) (x5 : Vec F S512x64 .f32) (x6 : Vec F S1x64 .f32) (x7 : Vec F S64x64 .f32) (xs : Vec F S8192x64 .bf16) :
    { L8 : List (View.Piece (Elt F) S512x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L8)
                ∗ owns (c : Thread nD τ) arg10 fullShare xs) -∗ K ⟨⟩))
          ⊢ wp frame (wpE (defs₀ (F := F)) Variants.none c none) E (cc1__conv1_body i arg1 harg1 arg2 harg2 arg3 harg3 arg4 harg4 arg5 harg5 arg6 harg6 arg7 harg7 arg8 harg8 arg9 harg9 arg10 harg10) K } := by
  refine ⟨?_, fun E K => ?run⟩
  case run =>
    simp only [cc1__conv1_body_eq_skeleton]; unfold cc1__conv1_body_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    obtain rfl := harg10.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; isplitr; · ipureintro; exact harg10.read_unread _
    iexact HS

/-! ## What each case leaves -/

theorem cover1_A_8 (c : Dev nD) (i : grid1.Coords) (arg1 : Memref sig .tc .vmem S512x64 .bf16) (harg1 : arg1.IsWhole) (arg2 : Memref sig .tc .vmem S8192x64 .bf16) (harg2 : arg2.IsWhole) (arg3 : Memref sig .tc .vmem S8192x64 .f32) (harg3 : arg3.IsWhole) (arg4 : Memref sig .tc .vmem S8192x1 .f32) (harg4 : arg4.IsWhole) (arg5 : Memref sig .tc .vmem S512x1 .f32) (harg5 : arg5.IsWhole) (arg6 : Memref sig .tc .vmem S512x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S512x64 .bf16) (harg9 : arg9.IsWhole) (arg10 : Memref sig .tc .vmem S8192x64 .bf16) (harg10 : arg10.IsWhole) (hc : cond1 i) (x0 : Vec F S512x64 .bf16) (x1 : Vec F S8192x64 .bf16) (x2 : Vec F S8192x64 .f32) (x3 : Vec F S8192x1 .f32) (x4 : Vec F S512x1 .f32) (x5 : Vec F S512x64 .f32) (x6 : Vec F S1x64 .f32) (x7 : Vec F S64x64 .f32) (y : S512x64.Idx) :
    ∃ pc ∈ (kernelRun1_A c i arg1 harg1 arg2 harg2 arg3 harg3 arg4 harg4 arg5 harg5 arg6 harg6 arg7 harg7 arg8 harg8 arg9 harg9 arg10 harg10 hc x0 x1 x2 x3 x4 x5 x6 x7).1, y ∈ pc.1.set :=
  View.cover_of_tiledL (kernelRun1_A c i arg1 harg1 arg2 harg2 arg3 harg3 arg4 harg4 arg5 harg5 arg6 harg6 arg7 harg7 arg8 harg8 arg9 harg9 arg10 harg10 hc x0 x1 x2 x3 x4 x5 x6 x7).1 S512x64.size (by sl_kernel_rfl) y
theorem scover1_A (c : Dev nD) (i : grid1.Coords) (arg1 : Memref sig .tc .vmem S512x64 .bf16) (harg1 : arg1.IsWhole) (arg2 : Memref sig .tc .vmem S8192x64 .bf16) (harg2 : arg2.IsWhole) (arg3 : Memref sig .tc .vmem S8192x64 .f32) (harg3 : arg3.IsWhole) (arg4 : Memref sig .tc .vmem S8192x1 .f32) (harg4 : arg4.IsWhole) (arg5 : Memref sig .tc .vmem S512x1 .f32) (harg5 : arg5.IsWhole) (arg6 : Memref sig .tc .vmem S512x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S512x64 .bf16) (harg9 : arg9.IsWhole) (arg10 : Memref sig .tc .vmem S8192x64 .bf16) (harg10 : arg10.IsWhole) (hc : cond1 i) (x0 : Vec F S512x64 .bf16) (x1 : Vec F S8192x64 .bf16) (x2 : Vec F S8192x64 .f32) (x3 : Vec F S8192x1 .f32) (x4 : Vec F S512x1 .f32) (x5 : Vec F S512x64 .f32) (x6 : Vec F S1x64 .f32) (x7 : Vec F S64x64 .f32) (y : S8192x64.Idx) :
    ∃ pc ∈ (kernelRun1_A c i arg1 harg1 arg2 harg2 arg3 harg3 arg4 harg4 arg5 harg5 arg6 harg6 arg7 harg7 arg8 harg8 arg9 harg9 arg10 harg10 hc x0 x1 x2 x3 x4 x5 x6 x7).2.1, y ∈ pc.1.set :=
  View.cover_of_tiledL (kernelRun1_A c i arg1 harg1 arg2 harg2 arg3 harg3 arg4 harg4 arg5 harg5 arg6 harg6 arg7 harg7 arg8 harg8 arg9 harg9 arg10 harg10 hc x0 x1 x2 x3 x4 x5 x6 x7).2.1 S8192x64.size (by sl_kernel_rfl) y
theorem cover1_B_8 (c : Dev nD) (i : grid1.Coords) (arg1 : Memref sig .tc .vmem S512x64 .bf16) (harg1 : arg1.IsWhole) (arg2 : Memref sig .tc .vmem S8192x64 .bf16) (harg2 : arg2.IsWhole) (arg3 : Memref sig .tc .vmem S8192x64 .f32) (harg3 : arg3.IsWhole) (arg4 : Memref sig .tc .vmem S8192x1 .f32) (harg4 : arg4.IsWhole) (arg5 : Memref sig .tc .vmem S512x1 .f32) (harg5 : arg5.IsWhole) (arg6 : Memref sig .tc .vmem S512x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S512x64 .bf16) (harg9 : arg9.IsWhole) (arg10 : Memref sig .tc .vmem S8192x64 .bf16) (harg10 : arg10.IsWhole) (hc : ¬cond1 i) (x0 : Vec F S512x64 .bf16) (x1 : Vec F S8192x64 .bf16) (x2 : Vec F S8192x64 .f32) (x3 : Vec F S8192x1 .f32) (x4 : Vec F S512x1 .f32) (x5 : Vec F S512x64 .f32) (x6 : Vec F S1x64 .f32) (x7 : Vec F S64x64 .f32) (xs : Vec F S8192x64 .bf16) (y : S512x64.Idx) :
    ∃ pc ∈ (kernelRun1_B c i arg1 harg1 arg2 harg2 arg3 harg3 arg4 harg4 arg5 harg5 arg6 harg6 arg7 harg7 arg8 harg8 arg9 harg9 arg10 harg10 hc x0 x1 x2 x3 x4 x5 x6 x7 xs).1, y ∈ pc.1.set :=
  View.cover_of_tiledL (kernelRun1_B c i arg1 harg1 arg2 harg2 arg3 harg3 arg4 harg4 arg5 harg5 arg6 harg6 arg7 harg7 arg8 harg8 arg9 harg9 arg10 harg10 hc x0 x1 x2 x3 x4 x5 x6 x7 xs).1 S512x64.size (by sl_kernel_rfl) y

def out1_A_8 (c : Dev nD) (i : grid1.Coords) (arg1 : Memref sig .tc .vmem S512x64 .bf16) (harg1 : arg1.IsWhole) (arg2 : Memref sig .tc .vmem S8192x64 .bf16) (harg2 : arg2.IsWhole) (arg3 : Memref sig .tc .vmem S8192x64 .f32) (harg3 : arg3.IsWhole) (arg4 : Memref sig .tc .vmem S8192x1 .f32) (harg4 : arg4.IsWhole) (arg5 : Memref sig .tc .vmem S512x1 .f32) (harg5 : arg5.IsWhole) (arg6 : Memref sig .tc .vmem S512x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S512x64 .bf16) (harg9 : arg9.IsWhole) (arg10 : Memref sig .tc .vmem S8192x64 .bf16) (harg10 : arg10.IsWhole) (hc : cond1 i) (x0 : Vec F S512x64 .bf16) (x1 : Vec F S8192x64 .bf16) (x2 : Vec F S8192x64 .f32) (x3 : Vec F S8192x1 .f32) (x4 : Vec F S512x1 .f32) (x5 : Vec F S512x64 .f32) (x6 : Vec F S1x64 .f32) (x7 : Vec F S64x64 .f32) : Vec F S512x64 .bf16 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 hc x0 x1 x2 x3 x4 x5 x6 x7).1)
def sout1_A (c : Dev nD) (i : grid1.Coords) (arg1 : Memref sig .tc .vmem S512x64 .bf16) (harg1 : arg1.IsWhole) (arg2 : Memref sig .tc .vmem S8192x64 .bf16) (harg2 : arg2.IsWhole) (arg3 : Memref sig .tc .vmem S8192x64 .f32) (harg3 : arg3.IsWhole) (arg4 : Memref sig .tc .vmem S8192x1 .f32) (harg4 : arg4.IsWhole) (arg5 : Memref sig .tc .vmem S512x1 .f32) (harg5 : arg5.IsWhole) (arg6 : Memref sig .tc .vmem S512x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S512x64 .bf16) (harg9 : arg9.IsWhole) (arg10 : Memref sig .tc .vmem S8192x64 .bf16) (harg10 : arg10.IsWhole) (hc : cond1 i) (x0 : Vec F S512x64 .bf16) (x1 : Vec F S8192x64 .bf16) (x2 : Vec F S8192x64 .f32) (x3 : Vec F S8192x1 .f32) (x4 : Vec F S512x1 .f32) (x5 : Vec F S512x64 .f32) (x6 : Vec F S1x64 .f32) (x7 : Vec F S64x64 .f32) : Vec F S8192x64 .bf16 :=
  VS1.read (Elt F) (VS1.writes (Elt F) VS1.junk (kernelRun1_A c i arg1 harg1 arg2 harg2 arg3 harg3 arg4 harg4 arg5 harg5 arg6 harg6 arg7 harg7 arg8 harg8 arg9 harg9 arg10 harg10 hc x0 x1 x2 x3 x4 x5 x6 x7).2.1)
def out1_B_8 (c : Dev nD) (i : grid1.Coords) (arg1 : Memref sig .tc .vmem S512x64 .bf16) (harg1 : arg1.IsWhole) (arg2 : Memref sig .tc .vmem S8192x64 .bf16) (harg2 : arg2.IsWhole) (arg3 : Memref sig .tc .vmem S8192x64 .f32) (harg3 : arg3.IsWhole) (arg4 : Memref sig .tc .vmem S8192x1 .f32) (harg4 : arg4.IsWhole) (arg5 : Memref sig .tc .vmem S512x1 .f32) (harg5 : arg5.IsWhole) (arg6 : Memref sig .tc .vmem S512x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S512x64 .bf16) (harg9 : arg9.IsWhole) (arg10 : Memref sig .tc .vmem S8192x64 .bf16) (harg10 : arg10.IsWhole) (hc : ¬cond1 i) (x0 : Vec F S512x64 .bf16) (x1 : Vec F S8192x64 .bf16) (x2 : Vec F S8192x64 .f32) (x3 : Vec F S8192x1 .f32) (x4 : Vec F S512x1 .f32) (x5 : Vec F S512x64 .f32) (x6 : Vec F S1x64 .f32) (x7 : Vec F S64x64 .f32) (xs : Vec F S8192x64 .bf16) : Vec F S512x64 .bf16 :=
  VO1_8.read (Elt F) (VO1_8.writes (Elt F) VO1_8.junk (kernelRun1_B c i arg1 harg1 arg2 harg2 arg3 harg3 arg4 harg4 arg5 harg5 arg6 harg6 arg7 harg7 arg8 harg8 arg9 harg9 arg10 harg10 hc x0 x1 x2 x3 x4 x5 x6 x7 xs).1)

theorem hcA1 : cond1 (grid1.coords t1_0) := (hcond1 t1_0).mpr rfl

/-- What the first point leaves in the scratch: the scaled first-layer features; they stay for the whole pass. -/
def SC1 (c : Dev nD) : Vec F S8192x64 .bf16 := sout1_A c (grid1.coords t1_0) (ms1_0 t1_0) (hs1_0 t1_0) (ms1_1 t1_0) (hs1_1 t1_0) (ms1_2 t1_0) (hs1_2 t1_0) (ms1_3 t1_0) (hs1_3 t1_0) (ms1_4 t1_0) (hs1_4 t1_0) (ms1_5 t1_0) (hs1_5 t1_0) (ms1_6 t1_0) (hs1_6 t1_0) (ms1_7 t1_0) (hs1_7 t1_0) (ms1_8 t1_0) (hs1_8 t1_0) scM1 (Memref.isWhole_whole _) hcA1 (iblk1 V c 0 t1_0) (iblk1 V c 1 t1_0) (iblk1 V c 2 t1_0) (iblk1 V c 3 t1_0) (iblk1 V c 4 t1_0) (iblk1 V c 5 t1_0) (iblk1 V c 6 t1_0) (iblk1 V c 7 t1_0)
/-- The block point `t` leaves in the result window's buffer. -/
def O8 (c : Dev nD) (t : Fin cfg1.N) : Vec F S512x64 .bf16 :=
  if h : t.val = 0 then out1_A_8 c (grid1.coords t1_0) (ms1_0 t1_0) (hs1_0 t1_0) (ms1_1 t1_0) (hs1_1 t1_0) (ms1_2 t1_0) (hs1_2 t1_0) (ms1_3 t1_0) (hs1_3 t1_0) (ms1_4 t1_0) (hs1_4 t1_0) (ms1_5 t1_0) (hs1_5 t1_0) (ms1_6 t1_0) (hs1_6 t1_0) (ms1_7 t1_0) (hs1_7 t1_0) (ms1_8 t1_0) (hs1_8 t1_0) scM1 (Memref.isWhole_whole _) hcA1 (iblk1 V c 0 t1_0) (iblk1 V c 1 t1_0) (iblk1 V c 2 t1_0) (iblk1 V c 3 t1_0) (iblk1 V c 4 t1_0) (iblk1 V c 5 t1_0) (iblk1 V c 6 t1_0) (iblk1 V c 7 t1_0)
  else out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun hh => h ((hcond1 t).mp hh)) (iblk1 V c 0 t) (iblk1 V c 1 t) (iblk1 V c 2 t) (iblk1 V c 3 t) (iblk1 V c 4 t) (iblk1 V c 5 t) (iblk1 V c 6 t) (iblk1 V c 7 t) (SC1 V c)

theorem scopedRest1_split (c : Dev nD) :
    (Pipeline.scopedRest (Ix := Unit) (Name := ℕ) (U := Pipeline.UD sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ Pipeline.scopedRestBut (Ix := Unit) (Name := ℕ) (U := Pipeline.UD sig nD τ) (Lvl := ℕ) (Val := Elt F) spec1 c [cc1_scratch0]) :=
  Pipeline.scopedRest_split_of_list spec1 c [cc1_scratch0] (by decide) (by decide)

def Phi1 (c : Dev nD) : ℕ → sProp 𝕄
  | 0 => Pipeline.ΦA spec1 c
  | _ + 1 => iprop(iprop(owns (c : Thread nD τ) scM1 fullShare (SC1 V c) ∗ Pipeline.scopedRestBut (Ix := Unit) (Name := ℕ) (U := Pipeline.UD sig nD τ) (Lvl := ℕ) (Val := Elt F) spec1 c [cc1_scratch0]) ∗ (∃ r, prngReg c r))

theorem Phi1_pos (c : Dev nD) (n : ℕ) (h : n ≠ 0) :
    Phi1 V c n = iprop(iprop(owns (c : Thread nD τ) scM1 fullShare (SC1 V c) ∗ Pipeline.scopedRestBut (Ix := Unit) (Name := ℕ) (U := Pipeline.UD sig nD τ) (Lvl := ℕ) (Val := Elt F) spec1 c [cc1_scratch0]) ∗ (∃ r, prngReg c r)) := by
  cases n with
  | zero => exact absurd rfl h
  | succ n => rfl

theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := Pipeline.UD sig nD τ) (Lvl := ℕ) (Val := Elt F) spec1 c [cc1_scratch0]) ∗ (∃ r, prngReg c r)) := by
  unfold Pipeline.ΦA; rw [scopedRest1_split]; simp only [scM1, owns_whole]; try rfl

/-- The proof data of the first convolution pass on core `c`: the normalised rows, the first-layer features and the
    degrees are each read through two windows, which hold one half of the array each. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => O8 V c t
  Φ t := Phi1 V c t.val
  q w := match w with
    | ⟨0, _⟩ => fullShare.left
    | ⟨1, _⟩ => fullShare.right
    | ⟨2, _⟩ => fullShare.left
    | ⟨3, _⟩ => fullShare.left
    | ⟨4, _⟩ => fullShare.right
    | ⟨5, _⟩ => fullShare.right
    | _ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = O8 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

theorem Phi_castSucc1 (c : Dev nD) (t : Fin cfg1.N) : (dat1 V c).Φ t.castSucc = Phi1 V c t.val := by
  dsimp only [dat1]; simp only [Fin.coe_castSucc]
theorem Phi_succ1 (c : Dev nD) (t : Fin cfg1.N) : (dat1 V c).Φ t.succ = Phi1 V c (t.val + 1) := by
  dsimp only [dat1]; simp only [Fin.val_succ]

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [Phi_castSucc1, Phi_succ1, Phi1_pos V c (t.val + 1) (Nat.succ_ne_zero _)]
  rw [after1_0, after1_1, after1_2, after1_3, after1_4, after1_5, after1_6, after1_7, after1_8]
  by_cases h0 : t.val = 0
  · have ht : t = t1_0 := Fin.ext h0
    subst ht
    rw [show Phi1 V c (t1_0 : Fin cfg1.N).val = Pipeline.ΦA spec1 c from rfl, PhiA1_eq]
    unfold SC1
    rw [show O8 V c t1_0 = out1_A_8 c (grid1.coords t1_0) (ms1_0 t1_0) (hs1_0 t1_0) (ms1_1 t1_0) (hs1_1 t1_0) (ms1_2 t1_0) (hs1_2 t1_0) (ms1_3 t1_0) (hs1_3 t1_0) (ms1_4 t1_0) (hs1_4 t1_0) (ms1_5 t1_0) (hs1_5 t1_0) (ms1_6 t1_0) (hs1_6 t1_0) (ms1_7 t1_0) (hs1_7 t1_0) (ms1_8 t1_0) (hs1_8 t1_0) scM1 (Memref.isWhole_whole _) hcA1 (iblk1 V c 0 t1_0) (iblk1 V c 1 t1_0) (iblk1 V c 2 t1_0) (iblk1 V c 3 t1_0) (iblk1 V c 4 t1_0) (iblk1 V c 5 t1_0) (iblk1 V c 6 t1_0) (iblk1 V c 7 t1_0) from dif_pos rfl]
    unfold out1_A_8 sout1_A
    iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_A c (grid1.coords t1_0) (ms1_0 t1_0) (hs1_0 t1_0) (ms1_1 t1_0) (hs1_1 t1_0) (ms1_2 t1_0) (hs1_2 t1_0) (ms1_3 t1_0) (hs1_3 t1_0) (ms1_4 t1_0) (hs1_4 t1_0) (ms1_5 t1_0) (hs1_5 t1_0) (ms1_6 t1_0) (hs1_6 t1_0) (ms1_7 t1_0) (hs1_7 t1_0) (ms1_8 t1_0) (hs1_8 t1_0) scM1 (Memref.isWhole_whole _) hcA1 (iblk1 V c 0 t1_0) (iblk1 V c 1 t1_0) (iblk1 V c 2 t1_0) (iblk1 V c 3 t1_0) (iblk1 V c 4 t1_0) (iblk1 V c 5 t1_0) (iblk1 V c 6 t1_0) (iblk1 V c 7 t1_0)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, ⟨%e8, H8⟩, ⟨%es, HS⟩⟩
    isplitl [HS HB Hg]
    · isplitl [HS HB]
      · isplitl [HS]
        · unfold owns; iexists _; isplitr
          swap; · iexact HS
          ipureintro; exact View.read_writes_of_cover _ _ _ _ _ (scover1_A c _ _ _ _ _ _ _ _ _ _ _ _ _ _ _ _ _ _ _ _ _ _ _ _ _ _ _ _ _ _)
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover1_A_8 c _ _ _ _ _ _ _ _ _ _ _ _ _ _ _ _ _ _ _ _ _ _ _ _ _ _ _ _ _ _)
  · rw [Phi1_pos V c t.val h0]
    rw [show O8 V c t = out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun hh => h0 ((hcond1 t).mp hh)) (iblk1 V c 0 t) (iblk1 V c 1 t) (iblk1 V c 2 t) (iblk1 V c 3 t) (iblk1 V c 4 t) (iblk1 V c 5 t) (iblk1 V c 6 t) (iblk1 V c 7 t) (SC1 V c) from dif_neg h0]
    unfold out1_B_8
    iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun hh => h0 ((hcond1 t).mp hh)) (iblk1 V c 0 t) (iblk1 V c 1 t) (iblk1 V c 2 t) (iblk1 V c 3 t) (iblk1 V c 4 t) (iblk1 V c 5 t) (iblk1 V c 6 t) (iblk1 V c 7 t) (SC1 V c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, ⟨%e8, H8⟩, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover1_B_8 c _ _ _ _ _ _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

/-! ## Entering and leaving the region -/

theorem arrBufs1_eq (c : Dev nD) (Vc : (b : Ref sig .tc) → Buf (Elt F) ((c : Thread nD τ).loc b)) :
    (Pipeline.arrBufs (Ix := Unit) (Name := ℕ) (U := Pipeline.UD sig nD τ) (Lvl := ℕ) (Val := Elt F) spec1 c Vc : sProp 𝕄)
      = iprop((((c : Thread nD τ).loc main_call0_v3_0) ↦{fullShare} Vc main_call0_v3_0) ∗ (((c : Thread nD τ).loc main_call0_v3_2) ↦{fullShare} Vc main_call0_v3_2) ∗ (((c : Thread nD τ).loc main_call0_v3_1) ↦{fullShare} Vc main_call0_v3_1) ∗ (((c : Thread nD τ).loc main_call0_v1) ↦{fullShare} Vc main_call0_v1) ∗ (((c : Thread nD τ).loc main_arg3) ↦{fullShare} Vc main_arg3) ∗ (((c : Thread nD τ).loc main_call0_v4) ↦{fullShare} Vc main_call0_v4)) := by
  unfold Pipeline.arrBufs
  exact BI.bigSep_eq_bigSepL_of_eq [main_call0_v3_0, main_call0_v3_2, main_call0_v3_1, main_call0_v1, main_arg3, main_call0_v4] (by decide) (by decide) _

theorem entry1 (c : Dev nD) :
    (unscopedBufs c (V c) : sProp 𝕄) ⊢ iprop((dat1 V c).arrays ((dat1 V c).arrAt · 0) ∗ Pipeline.unscopedRest (Ix := Unit) (Name := ℕ) (U := Pipeline.UD sig nD τ) (Lvl := ℕ) spec1 c (V c)) := by
  rw [show (unscopedBufs c (V c) : sProp 𝕄) = iprop(Pipeline.arrBufs (Ix := Unit) (Name := ℕ) (U := Pipeline.UD sig nD τ) (Lvl := ℕ) (Val := Elt F) spec1 c (V c) ∗ Pipeline.unscopedRest (Ix := Unit) (Name := ℕ) (U := Pipeline.UD sig nD τ) (Lvl := ℕ) spec1 c (V c))
      from Pipeline.unscopedBufs_split₀ cfgs 1 winFacts₀1.arr_unscoped c (V c), arrBufs1_eq]
  unfold Dat.arrays; rw [bigSep_W1]
  simp only [(arr_whole1 0).set_eq_univ, (arr_whole1 1).set_eq_univ, (arr_whole1 2).set_eq_univ, (arr_whole1 3).set_eq_univ, (arr_whole1 4).set_eq_univ, (arr_whole1 5).set_eq_univ, (arr_whole1 6).set_eq_univ, (arr_whole1 7).set_eq_univ, (arr_whole1 8).set_eq_univ]
  iintro ⟨⟨Hxn, Hxw, Hdeg, Hb1, Hw2, Hout⟩, Hrest⟩
  ihave Hs := (pointsTo_share (PosShare.mem_left_op_right fullShare)).1 $$ Hxn
  icases Hs with ⟨Hxa, Hxb⟩
  ihave Hs := (pointsTo_share (PosShare.mem_left_op_right fullShare)).1 $$ Hxw
  icases Hs with ⟨Hwa, Hwb⟩
  ihave Hs := (pointsTo_share (PosShare.mem_left_op_right fullShare)).1 $$ Hdeg
  icases Hs with ⟨Hda, Hdb⟩
  isplitr [Hrest]
  · isplitl [Hxa]; · iexact Hxa
    isplitl [Hxb]; · iexact Hxb
    isplitl [Hwa]; · iexact Hwa
    isplitl [Hda]; · iexact Hda
    isplitl [Hdb]; · iexact Hdb
    isplitl [Hwb]; · iexact Hwb
    isplitl [Hb1]; · iexact Hb1
    isplitl [Hw2]; · iexact Hw2
    iexact Hout
  iexact Hrest

set_option maxHeartbeats 2000000 in
theorem exit1 (c : Dev nD) (V' : (b : Ref sig .tc) → Buf (Elt F) ((c : Thread nD τ).loc b))
    (h8 : V' main_call0_v4 = (dat1 V c).arrAt 8 cfg1.N) (hne : ∀ b, b ≠ main_call0_v4 → V' b = V c b) :
    iprop((dat1 V c).arrays ((dat1 V c).arrAt · cfg1.N) ∗ Pipeline.unscopedRest (Ix := Unit) (Name := ℕ) (U := Pipeline.UD sig nD τ) (Lvl := ℕ) spec1 c (V c)) ⊢ (unscopedBufs c V' : sProp 𝕄) := by
  rw [show (unscopedBufs c V' : sProp 𝕄) = iprop(Pipeline.arrBufs (Ix := Unit) (Name := ℕ) (U := Pipeline.UD sig nD τ) (Lvl := ℕ) (Val := Elt F) spec1 c V' ∗ Pipeline.unscopedRest (Ix := Unit) (Name := ℕ) (U := Pipeline.UD sig nD τ) (Lvl := ℕ) spec1 c V')
      from Pipeline.unscopedBufs_split₀ cfgs 1 winFacts₀1.arr_unscoped c V', arrBufs1_eq, unscopedRest1_eq c V', unscopedRest1_eq c (V c)]
  rw [h8, hne main_call0_v3_0 (by decide), hne main_call0_v3_2 (by decide), hne main_call0_v3_1 (by decide), hne main_call0_v1 (by decide), hne main_arg3 (by decide), hne main_arg0 (by decide), hne main_arg1 (by decide), hne main_arg2 (by decide), hne main_arg4 (by decide), hne main_call0_v0 (by decide), hne main_call0_v2 (by decide), hne main_call0_v5 (by decide), hne main_v0 (by decide)]
  have hF : ((dat1 V c).arrAt · cfg1.N) = fun w => if hw : (cfg1.win w).isOut = false then (dat1 V c).A w else (dat1 V c).arrAt w cfg1.N :=
    funext fun w => by
      by_cases hw : (cfg1.win w).isOut = false
      · rw [dif_pos hw]; exact (dat1 V c).arrAt_in w hw _
      · rw [dif_neg hw]
  rw [hF]
  unfold Dat.arrays; rw [bigSep_W1]
  simp only [(arr_whole1 0).set_eq_univ, (arr_whole1 1).set_eq_univ, (arr_whole1 2).set_eq_univ, (arr_whole1 3).set_eq_univ, (arr_whole1 4).set_eq_univ, (arr_whole1 5).set_eq_univ, (arr_whole1 6).set_eq_univ, (arr_whole1 7).set_eq_univ, (arr_whole1 8).set_eq_univ]
  iintro ⟨⟨H0, H1, H2, H3, H4, H5, H6, H7, H8⟩, Hrest⟩
  ihave Hxn := (pointsTo_share (ℓ := (c : Thread nD τ).loc main_call0_v3_0) (I := Finset.univ) (f := V c main_call0_v3_0) (PosShare.mem_left_op_right fullShare)).2 $$ [H0 H1]
  · isplitl [H0]; · iexact H0
    iexact H1
  ihave Hxw := (pointsTo_share (ℓ := (c : Thread nD τ).loc main_call0_v3_2) (I := Finset.univ) (f := V c main_call0_v3_2) (PosShare.mem_left_op_right fullShare)).2 $$ [H2 H5]
  · isplitl [H2]; · iexact H2
    iexact H5
  ihave Hdeg := (pointsTo_share (ℓ := (c : Thread nD τ).loc main_call0_v3_1) (I := Finset.univ) (f := V c main_call0_v3_1) (PosShare.mem_left_op_right fullShare)).2 $$ [H3 H4]
  · isplitl [H3]; · iexact H3
    iexact H4
  isplitr [Hrest]
  · isplitl [Hxn]; · iexact Hxn
    isplitl [Hxw]; · iexact Hxw
    isplitl [Hdeg]; · iexact Hdeg
    isplitl [H6]; · iexact H6
    isplitl [H7]; · iexact H7
    iexact H8
  iexact Hrest

theorem hin1 (c : Dev nD) : Pipeline.ΦA spec1 c ⊢ (dat1 V c).Φ 0 := Idealize.SL.BI.Entails.refl _
theorem hout1 (c : Dev nD) : (dat1 V c).Φ (Fin.last cfg1.N) ⊢ Pipeline.ΦA spec1 c := by
  rw [show (dat1 V c).Φ (Fin.last cfg1.N) = Phi1 V c cfg1.N from rfl, Phi1_pos V c cfg1.N (by rw [show cfg1.N = 16 from N_1]; decide), PhiA1_eq]
  iintro ⟨⟨HS, HB⟩, Hg⟩
  isplitl [HS HB]
  · isplitl [HS]; · iexists _; iexact HS
    iexact HB
  iexact Hg

end Cert.Kernel.Hand

end
-- ==== Proof.KRegion2.lean ====
import proofs.«135952_g51264729645358_cont_sun_m_1122_19_alg».proof.Proof.Gen.Kernel.Launch
import proofs.«135952_g51264729645358_cont_sun_m_1122_19_alg».proof.Proof.Gen.Kernel.Skeleton
import proofs.«135952_g51264729645358_cont_sun_m_1122_19_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The second convolution pass: one 512-row block of the result per grid point

At grid point `t` the body reads the block of 512 normalised rows, all 8192 normalised rows, all 8192 rows of the
scaled second-layer features, their block, the block of degrees, the block of input rows and the bias row, and writes
one block of 512 result rows: a pure function of what it read, stored whole. Nothing is kept between points. -/

-- the buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole of a 512×64 buffer, of an 8192×64 buffer, of a 512×1 column and of a 1×64 row. -/
abbrev rBlk : Rect S512x64 := Rect.unit (s := S512x64) ![0, 0] S512x64.size inb_S512x64_S512x64_0_0
abbrev rAll : Rect S8192x64 := Rect.unit (s := S8192x64) ![0, 0] S8192x64.size inb_S8192x64_S8192x64_0_0
abbrev rCol : Rect S512x1 := Rect.unit (s := S512x1) ![0, 0] S512x1.size inb_S512x1_S512x1_0_0
abbrev rRow : Rect S1x64 := Rect.unit (s := S1x64) ![0, 0] S1x64.size inb_S1x64_S1x64_0_0

/-- What the body leaves in the result window's buffer: its one store, of the block's 512 result rows computed from the
    seven inputs. -/
def out2_7 (x0 : Vec F S512x64 .bf16) (x1 : Vec F S8192x64 .bf16) (x2 : Vec F S8192x64 .bf16) (x3 : Vec F S512x64 .bf16)
    (x4 : Vec F S512x1 .f32) (x5 : Vec F S512x64 .f32) (x6 : Vec F S1x64 .f32) : Vec F S512x64 .f32 :=
  View.canon [⟨rBlk, k2_pay1 (View.ld x0 rBlk) (View.ld x1 rAll) (View.ld x2 rAll) (View.ld x4 rCol) (View.ld x3 rBlk) (View.ld x5 rBlk) (View.ld x6 rRow)⟩]

/-- The one store covers the buffer. -/
theorem cover2_7 (p0 : Vec F S512x64 .f32) (y : S512x64.Idx) :
    ∃ pc ∈ ([⟨rBlk, p0⟩] : List (View.Piece (Elt F) S512x64 .f32)), y ∈ pc.1.set :=
  View.cover_of_tiled [⟨rBlk, p0⟩] S512x64.size (by rfl) y

set_option maxHeartbeats 1000000 in
/-- The body on whole staging buffers — the inputs' at known contents, the result's at anything — runs to the end leaving
    the inputs as they were and the result's buffer at `out2_7` of them. -/
theorem sound_kernel2 (c : Dev nD) (E : Set ℕ) (i : grid2.Coords)
    (arg1 : Memref sig .tc .vmem S512x64 .bf16) (harg1 : arg1.IsWhole) (arg2 : Memref sig .tc .vmem S8192x64 .bf16) (harg2 : arg2.IsWhole)
    (arg3 : Memref sig .tc .vmem S8192x64 .bf16) (harg3 : arg3.IsWhole) (arg4 : Memref sig .tc .vmem S512x64 .bf16) (harg4 : arg4.IsWhole)
    (arg5 : Memref sig .tc .vmem S512x1 .f32) (harg5 : arg5.IsWhole) (arg6 : Memref sig .tc .vmem S512x64 .f32) (harg6 : arg6.IsWhole)
    (arg7 : Memref sig .tc .vmem S1x64 .f32) (harg7 : arg7.IsWhole) (arg8 : Memref sig .tc .vmem S512x64 .f32) (harg8 : arg8.IsWhole)
    (x0 : Vec F S512x64 .bf16) (x1 : Vec F S8192x64 .bf16) (x2 : Vec F S8192x64 .bf16) (x3 : Vec F S512x64 .bf16)
    (x4 : Vec F S512x1 .f32) (x5 : Vec F S512x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__conv2_body i arg1 harg1 arg2 harg2 arg3 harg3 arg4 harg4 arg5 harg5 arg6 harg6 arg7 harg7 arg8 harg8) K := by
  simp only [cc2__conv2_body_eq_skeleton]; unfold cc2__conv2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## Each input window's buffer holds its block at every point -/

theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (Pipeline.UD sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The proof data -/

/-- The proof data of this pass on core `c`: the arrays as the region finds them; after the body each input's buffer at
    its block and the result's at `out2_7` of the blocks; nothing carried between points; the normalised rows and the
    scaled features are each read through two windows, which hold one half of the array each. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q w := match w with
    | ⟨0, _⟩ => fullShare.left
    | ⟨1, _⟩ => fullShare.right
    | ⟨2, _⟩ => fullShare.left
    | ⟨3, _⟩ => fullShare.right
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

/-! ## Entering and leaving the region

The windows' arrays are taken out of the core's unscoped buffers on entry — an array two windows read is split into
its two halves — and put back on exit, the result's array at what the write-backs left. -/

theorem arrBufs2_eq (c : Dev nD) (Vc : (b : Ref sig .tc) → Buf (Elt F) ((c : Thread nD τ).loc b)) :
    (Pipeline.arrBufs (Ix := Unit) (Name := ℕ) (U := Pipeline.UD sig nD τ) (Lvl := ℕ) (Val := Elt F) spec2 c Vc : sProp 𝕄)
      = iprop((((c : Thread nD τ).loc main_call0_v3_0) ↦{fullShare} Vc main_call0_v3_0) ∗ (((c : Thread nD τ).loc main_call0_v4) ↦{fullShare} Vc main_call0_v4) ∗ (((c : Thread nD τ).loc main_call0_v3_1) ↦{fullShare} Vc main_call0_v3_1) ∗ (((c : Thread nD τ).loc main_call0_v0) ↦{fullShare} Vc main_call0_v0) ∗ (((c : Thread nD τ).loc main_call0_v2) ↦{fullShare} Vc main_call0_v2) ∗ (((c : Thread nD τ).loc main_call0_v5) ↦{fullShare} Vc main_call0_v5)) := by
  unfold Pipeline.arrBufs
  exact BI.bigSep_eq_bigSepL_of_eq [main_call0_v3_0, main_call0_v4, main_call0_v3_1, main_call0_v0, main_call0_v2, main_call0_v5] (by decide) (by decide) _

theorem entry2 (c : Dev nD) :
    (unscopedBufs c (V c) : sProp 𝕄) ⊢ iprop((dat2 V c).arrays ((dat2 V c).arrAt · 0) ∗ Pipeline.unscopedRest (Ix := Unit) (Name := ℕ) (U := Pipeline.UD sig nD τ) (Lvl := ℕ)  spec2 c (V c)) := by
  rw [show (unscopedBufs c (V c) : sProp 𝕄) = iprop(Pipeline.arrBufs (Ix := Unit) (Name := ℕ) (U := Pipeline.UD sig nD τ) (Lvl := ℕ) (Val := Elt F) spec2 c (V c) ∗ Pipeline.unscopedRest (Ix := Unit) (Name := ℕ) (U := Pipeline.UD sig nD τ) (Lvl := ℕ) spec2 c (V c))
      from Pipeline.unscopedBufs_split₀ cfgs 2 winFacts₀2.arr_unscoped c (V c), arrBufs2_eq]
  unfold Dat.arrays; rw [bigSep_W2]
  simp only [(arr_whole2 0).set_eq_univ, (arr_whole2 1).set_eq_univ, (arr_whole2 2).set_eq_univ, (arr_whole2 3).set_eq_univ, (arr_whole2 4).set_eq_univ, (arr_whole2 5).set_eq_univ, (arr_whole2 6).set_eq_univ, (arr_whole2 7).set_eq_univ]
  iintro ⟨⟨Hxn, Hy2, Hdeg, Hxf, Hb2, Hout⟩, Hrest⟩
  ihave Hs := (pointsTo_share (PosShare.mem_left_op_right fullShare)).1 $$ Hxn
  icases Hs with ⟨Hxa, Hxb⟩
  ihave Hs := (pointsTo_share (PosShare.mem_left_op_right fullShare)).1 $$ Hy2
  icases Hs with ⟨Hya, Hyb⟩
  isplitr [Hrest]
  · isplitl [Hxa]; · iexact Hxa
    isplitl [Hxb]; · iexact Hxb
    isplitl [Hya]; · iexact Hya
    isplitl [Hyb]; · iexact Hyb
    isplitl [Hdeg]; · iexact Hdeg
    isplitl [Hxf]; · iexact Hxf
    isplitl [Hb2]; · iexact Hb2
    iexact Hout
  iexact Hrest

set_option maxHeartbeats 2000000 in
theorem exit2 (c : Dev nD) (V' : (b : Ref sig .tc) → Buf (Elt F) ((c : Thread nD τ).loc b))
    (h5 : V' main_call0_v5 = (dat2 V c).arrAt 7 cfg2.N) (hne : ∀ b, b ≠ main_call0_v5 → V' b = V c b) :
    iprop((dat2 V c).arrays ((dat2 V c).arrAt · cfg2.N) ∗ Pipeline.unscopedRest (Ix := Unit) (Name := ℕ) (U := Pipeline.UD sig nD τ) (Lvl := ℕ)  spec2 c (V c)) ⊢ (unscopedBufs c V' : sProp 𝕄) := by
  rw [show (unscopedBufs c V' : sProp 𝕄) = iprop(Pipeline.arrBufs (Ix := Unit) (Name := ℕ) (U := Pipeline.UD sig nD τ) (Lvl := ℕ) (Val := Elt F) spec2 c V' ∗ Pipeline.unscopedRest (Ix := Unit) (Name := ℕ) (U := Pipeline.UD sig nD τ) (Lvl := ℕ) spec2 c V')
      from Pipeline.unscopedBufs_split₀ cfgs 2 winFacts₀2.arr_unscoped c V', arrBufs2_eq, unscopedRest2_eq c V', unscopedRest2_eq c (V c)]
  rw [h5, hne main_call0_v3_0 (by decide), hne main_call0_v4 (by decide), hne main_call0_v3_1 (by decide), hne main_call0_v0 (by decide), hne main_call0_v2 (by decide), hne main_arg0 (by decide), hne main_arg1 (by decide), hne main_arg2 (by decide), hne main_arg3 (by decide), hne main_arg4 (by decide), hne main_call0_v1 (by decide), hne main_call0_v3_2 (by decide), hne main_v0 (by decide)]
  have hF : ((dat2 V c).arrAt · cfg2.N) = fun w => if hw : (cfg2.win w).isOut = false then (dat2 V c).A w else (dat2 V c).arrAt w cfg2.N :=
    funext fun w => by
      by_cases hw : (cfg2.win w).isOut = false
      · rw [dif_pos hw]; exact (dat2 V c).arrAt_in w hw _
      · rw [dif_neg hw]
  rw [hF]
  unfold Dat.arrays; rw [bigSep_W2]
  simp only [(arr_whole2 0).set_eq_univ, (arr_whole2 1).set_eq_univ, (arr_whole2 2).set_eq_univ, (arr_whole2 3).set_eq_univ, (arr_whole2 4).set_eq_univ, (arr_whole2 5).set_eq_univ, (arr_whole2 6).set_eq_univ, (arr_whole2 7).set_eq_univ]
  iintro ⟨⟨H0, H1, H2, H3, H4, H5, H6, H7⟩, Hrest⟩
  ihave Hxn := (pointsTo_share (ℓ := (c : Thread nD τ).loc main_call0_v3_0) (I := Finset.univ) (f := V c main_call0_v3_0) (PosShare.mem_left_op_right fullShare)).2 $$ [H0 H1]
  · isplitl [H0]; · iexact H0
    iexact H1
  ihave Hy2 := (pointsTo_share (ℓ := (c : Thread nD τ).loc main_call0_v4) (I := Finset.univ) (f := V c main_call0_v4) (PosShare.mem_left_op_right fullShare)).2 $$ [H2 H3]
  · isplitl [H2]; · iexact H2
    iexact H3
  isplitr [Hrest]
  · isplitl [Hxn]; · iexact Hxn
    isplitl [Hy2]; · iexact Hy2
    isplitl [H4]; · iexact H4
    isplitl [H5]; · iexact H5
    isplitl [H6]; · iexact H6
    iexact H7
  iexact Hrest

/-- What the launch hands the region is the invariant at every point, and comes back. -/
theorem hin2 (c : Dev nD) : Pipeline.ΦA spec2 c ⊢ (dat2 V c).Φ 0 := Idealize.SL.BI.Entails.refl _
theorem hout2 (c : Dev nD) : (dat2 V c).Φ (Fin.last cfg2.N) ⊢ Pipeline.ΦA spec2 c := Idealize.SL.BI.Entails.refl _

end Cert.Kernel.Hand

end
-- ==== Proof.KRun.lean ====
import proofs.«135952_g51264729645358_cont_sun_m_1122_19_alg».proof.Proof.KRegion0
import proofs.«135952_g51264729645358_cont_sun_m_1122_19_alg».proof.Proof.KRegion1
import proofs.«135952_g51264729645358_cont_sun_m_1122_19_alg».proof.Proof.KRegion2
import proofs.«135952_g51264729645358_cont_sun_m_1122_19_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! # The run: three reshapes, the three passes, one reshape

## The buffer contents at each boundary -/

/-- Core `c`'s buffers at launch. -/
abbrev W0 : Dev nD → Valuation τ sig (Elt F) := fun c b => m ((c : Dev nD), b)
/-- After the three reshapes (the rows flattened, the two bias rows). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the degree pass: its three results at what the write-backs left. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the first convolution pass: the scaled second-layer features at what the write-backs left. -/
def W3 (c : Dev nD) : Valuation τ sig (Elt F) :=
  Function.update (W2 m c) (Proc.devRef .tc main_call0_v4) ((dat1 (V2 m) c).arrAt 8 cfg1.N)
abbrev V3 : (c : Dev nD) → (b : Ref sig .tc) → Buf (Elt F) ((c : Thread nD τ).loc b) := fun c b => W3 m c b
theorem V3_v4 (c : Dev nD) : V3 m c main_call0_v4 = (dat1 (V2 m) c).arrAt 8 cfg1.N := by
  show W3 m c (Proc.devRef .tc main_call0_v4) = _; unfold W3; exact Function.update_self ..
theorem V3_of_ne (c : Dev nD) (b : Ref sig .tc) (hb : b ≠ main_call0_v4) : V3 m c b = V2 m c b := by
  show W3 m c (Proc.devRef .tc b) = _; unfold W3
  exact Function.update_of_ne (StableHlo.devRef_ne_of_ne hb) ..
/-- After the second convolution pass: the flat result at what the write-backs left. -/
def W4 (c : Dev nD) : Valuation τ sig (Elt F) :=
  Function.update (W3 m c) (Proc.devRef .tc main_call0_v5) ((dat2 (V3 m) c).arrAt 7 cfg2.N)
abbrev V4 : (c : Dev nD) → (b : Ref sig .tc) → Buf (Elt F) ((c : Thread nD τ).loc b) := fun c b => W4 m c b
theorem V4_v5 (c : Dev nD) : V4 m c main_call0_v5 = (dat2 (V3 m) c).arrAt 7 cfg2.N := by
  show W4 m c (Proc.devRef .tc main_call0_v5) = _; unfold W4; exact Function.update_self ..
theorem V4_of_ne (c : Dev nD) (b : Ref sig .tc) (hb : b ≠ main_call0_v5) : V4 m c b = V3 m c b := by
  show W4 m c (Proc.devRef .tc b) = _; unfold W4
  exact Function.update_of_ne (StableHlo.devRef_ne_of_ne hb) ..
/-- After the last reshape. -/
abbrev W5 : Dev nD → Valuation τ sig (Elt F) := fun c => StableHlo.after hostOps3 (W4 m c)

/-! ## The proof data family and the thread state -/

abbrev adm : (p : Fin 3) → (pcfgs (F := F) p).Adm := fun p => (cfgs p).toPCfg_adm
def pdats : (p : Fin 3) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The degree pass, entered from the buffers after the reshapes, left with its three results written. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The first convolution pass: three of its arrays are each read through two windows. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m c)
  hentry c := by
    rw [Pipeline.ownSems0_none]
    have hsplit := entry1 (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := exit1 (V2 m) c (V3 m c) (V3_v4 m c) (fun b hb => V3_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The second convolution pass: two of its arrays are each read through two windows. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (V3 m c)
  hentry c := by
    rw [Pipeline.ownSems0_none]
    have hsplit := entry2 (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V3 m) c)
    unfold Pipeline.ΦA
    iintro ⟨Hp, -, Hr⟩
    isplitl [Hr]; · iexact Hr
    iexact Hp
  hout c := by
    rw [Pipeline.ownSems0_none]
    refine (hout2 (V3 m) c).trans ?_
    unfold Pipeline.ΦA
    iintro ⟨Hr, Hp⟩
    isplitl [Hp]; · iexact Hp
    isplitr; · iempintro
    iexact Hr
  hexit c := by
    have hjoin := exit2 (V3 m) c (V4 m c) (V4_v5 m c) (fun b hb => V4_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh' (W0 m)),
    .region (reg0 m),
    .region (reg1 m),
    .region (reg2 m),
    .host (hseg hostOps3 hostOps3_sub hostOps3_fresh' (W4 m)) ]
theorem main_run (c : Dev nD) : main (F := F) c = Pipeline.Seg.run (segs m) := (main_chain c).trans (by chain_rfl)

set_option backward.isDefEq.respectTransparency.types false in
/-- From any memory with zero counters every weakly fair execution of @main terminates, nothing faulting, and every
    final memory holds, at each unscoped buffer of each core, the contents after the last reshape. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (StableHlo.after hostOps3 (W4 m c)) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- info: 'Cert.Kernel.Hand.run_all' depends on axioms: [propext, Classical.choice, Quot.sound] -/
#guard_msgs in #print axioms run_all

/-! ## The arguments end as launched -/

theorem W5_of_ne (c : Dev nD) (b : Ref sig .tc) (h3 : b ∉ hostOps3_W) (h5 : b ≠ main_call0_v5) (h4 : b ≠ main_call0_v4) :
    W5 m c (Proc.devRef .tc b) = W2 m c (Proc.devRef .tc b) :=
  (StableHlo.after_of_writes_sub hostOps3 _ hostOps3_writes h3).trans ((V4_of_ne m c b h5).trans (V3_of_ne m c b h4))
theorem W1_of_ne (c : Dev nD) (b : Ref sig .tc) (h0 : b ∉ hostOps0_W) :
    W1 m c (Proc.devRef .tc b) = m ((c : Thread nD τ).loc b) :=
  StableHlo.after_of_writes_sub hostOps0 _ hostOps0_writes h0

theorem W5_main_arg0 (c : Dev nD) : W5 m c (Proc.devRef .tc main_arg0) = m ((c : Thread nD τ).loc main_arg0) :=
  (W5_of_ne m c main_arg0 (by decide) (by decide) (by decide)).trans ((W2_of_ne m c main_arg0 (by decide)).trans (W1_of_ne m c main_arg0 (by decide)))
theorem W5_main_arg1 (c : Dev nD) : W5 m c (Proc.devRef .tc main_arg1) = m ((c : Thread nD τ).loc main_arg1) :=
  (W5_of_ne m c main_arg1 (by decide) (by decide) (by decide)).trans ((W2_arr m c 1).trans (((dat0 (V1 m) c).arrAt_in 1 rfl _).trans
    ((A_eq0 (V1 m) c 1).trans (W1_of_ne m c main_arg1 (by decide)))))
theorem W5_main_arg2 (c : Dev nD) : W5 m c (Proc.devRef .tc main_arg2) = m ((c : Thread nD τ).loc main_arg2) :=
  (W5_of_ne m c main_arg2 (by decide) (by decide) (by decide)).trans ((W2_of_ne m c main_arg2 (by decide)).trans (W1_of_ne m c main_arg2 (by decide)))
theorem W5_main_arg3 (c : Dev nD) : W5 m c (Proc.devRef .tc main_arg3) = m ((c : Thread nD τ).loc main_arg3) :=
  (W5_of_ne m c main_arg3 (by decide) (by decide) (by decide)).trans ((W2_of_ne m c main_arg3 (by decide)).trans (W1_of_ne m c main_arg3 (by decide)))
theorem W5_main_arg4 (c : Dev nD) : W5 m c (Proc.devRef .tc main_arg4) = m ((c : Thread nD τ).loc main_arg4) :=
  (W5_of_ne m c main_arg4 (by decide) (by decide) (by decide)).trans ((W2_of_ne m c main_arg4 (by decide)).trans (W1_of_ne m c main_arg4 (by decide)))

/-- The run with the result buffer named and every argument as launched. -/
theorem run_value : θ_run defs (onTc (τ := τ) (main (F := F))) ⟨m, fun _ => 0, ρ⟩ (fun r => ∀ c : Dev nD,
      r.2.mem ((c.tc : Thread nD τ).loc main_v0) = W5 m c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v0 (by decide)),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_value m ρ)

end Cert.Kernel.Hand

end
-- ==== Proof.KIRegion0.lean ====
import proofs.«135952_g51264729645358_cont_sun_m_1122_19_alg».proof.Proof.Gen.KernelIdeal.Launch
import proofs.«135952_g51264729645358_cont_sun_m_1122_19_alg».proof.Proof.Gen.KernelIdeal.Skeleton
import proofs.«135952_g51264729645358_cont_sun_m_1122_19_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The degree pass: normalised rows, first-layer features, and one 512-row block of degrees per grid point

At the first grid point the body reads all 8192 input rows and the first weight matrix, and stores the normalised rows
(into a scratch it keeps for every later point, and into the first result), and the first-layer features (into the third
result). At EVERY point it then reads 512 of the normalised rows and all of them back from the scratch and stores the
block's 512 degrees. The first and third results are written back once, after the last point. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's one condition, and where the windows are idle -/

/-- The body's `if`: the grid coordinate is zero. -/
abbrev cond0 (i : grid0.Coords) : Prop := k0_cond1 i = 1#1
/-- It holds at the first point only. -/
theorem hcond0 : ∀ t : Fin cfg0.N, cond0 (grid0.coords t) ↔ t.val = 0 :=
  (by decide +kernel : ∀ t : Fin grid0.N, cond0 (grid0.coords t) ↔ t.val = 0)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_3 : ∀ t : Fin cfg0.N, cfg0.idle 3 (grid0.coords t) = false := by decide +kernel
/-- The first and the third result are stored at the first point only: idle at every other. -/
theorem idle0_2_iff : ∀ t : Fin cfg0.N, cfg0.idle 2 (grid0.coords t) = decide (t.val ≠ 0) := by decide +kernel
theorem idle0_4_iff : ∀ t : Fin cfg0.N, cfg0.idle 4 (grid0.coords t) = decide (t.val ≠ 0) := by decide +kernel
/-- They are written back at the last point only. -/
theorem flush0_2_iff : ∀ t : Fin cfg0.N, (cfg0.win 2).flush t = decide (t.val = 15) := by decide +kernel
theorem flush0_4_iff : ∀ t : Fin cfg0.N, (cfg0.win 4).flush t = decide (t.val = 15) := by decide +kernel

/-! ## The staging buffers and the scratch, as the pipeline passes them -/

abbrev ms0_0 (t : Fin cfg0.N) : Memref sig .tc .vmem S8192x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8192x64 .f32 := win0_4.stage (cfg0.slots t 4)
abbrev hs0_4 (t : Fin cfg0.N) : (ms0_4 t).IsWhole := hstage0_4 ((cfg0.slots t 4).cast nbuf0_4)
/-- The scratch that keeps the normalised rows. -/
abbrev scM0 : Memref sig .tc .vmem S8192x64 .bf16 := Memref.whole cc0_scratch0
/-- One buffer of each result window and the scratch, as views through which their contents are stated. -/
abbrev VO0_2 : View sig .tc .vmem S8192x64 .bf16 := (Memref.whole cc0_stg2_0 : Memref sig .tc .vmem S8192x64 .bf16).view
abbrev VO0_3 : View sig .tc .vmem S512x1 .f32 := (Memref.whole cc0_stg3_0 : Memref sig .tc .vmem S512x1 .f32).view
abbrev VO0_4 : View sig .tc .vmem S8192x64 .f32 := (Memref.whole cc0_stg4_0 : Memref sig .tc .vmem S8192x64 .f32).view
abbrev VS0 : View sig .tc .vmem S8192x64 .bf16 := scM0.view

/-! ## The body, case by case -/

set_option maxHeartbeats 2000000 in
/-- THE FIRST POINT. On whole buffers — the two inputs' at known contents, the three results' and the scratch at
    anything — the body runs to the end leaving the inputs as they were and, in each result's buffer and in the scratch, the
    pieces it stored (found by running it). -/
noncomputable def kernelRun0_A (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : cond0 i)
    (x0 : Vec F S8192x64 .f32) (x1 : Vec F S64x64 .f32) :
    Σ' (L2 : List (View.Piece (Elt F) S8192x64 .bf16)) (L3 : List (View.Piece (Elt F) S512x1 .f32)) (L4 : List (View.Piece (Elt F) S8192x64 .f32)),
    { LS : List (View.Piece (Elt F) S8192x64 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__deg_body i arg1 harg1 arg2 harg2 arg3 harg3 arg4 harg4 arg5 harg5 arg6 harg6) K } := by
  refine ⟨?_, ?_, ?_, ?_, fun E K => ?run⟩
  case run =>
    simp only [cc0__deg_body_eq_skeleton]; unfold cc0__deg_body_skel
    unfold owns
    iintro ⟨⟨%f0, %hf0, H0⟩, ⟨%f1, %hf1, H1⟩, ⟨%d2, %f2, -, H2⟩, ⟨%d3, %f3, -, H3⟩, ⟨%d4, %f4, -, H4⟩, ⟨%ds, %fs, -, HS⟩, Hk⟩
    obtain rfl := harg1.eq_unread hf0; obtain rfl := harg2.eq_unread hf1
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; iexact HS

set_option maxHeartbeats 2000000 in
/-- EVERY LATER POINT. The scratch holds the normalised rows `xs`; the body reads them and stores the block's degrees;
    it touches nothing else. -/
noncomputable def kernelRun0_B (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : ¬cond0 i)
    (xs : Vec F S8192x64 .bf16) :
    { L3 : List (View.Piece (Elt F) S512x1 .f32) //
      ∀ (E : Set ℕ) (K : PUnit → sProp 𝕄),
        iprop((∃ d, owns (c : Thread nD τ) arg4 fullShare d) ∗ owns (c : Thread nD τ) arg6 fullShare xs
            ∗ (iprop((∃ f, arg4.view.loc (c : Thread nD τ) ↦[arg4.view.set]{fullShare} arg4.view.writes (Elt F) f L3)
                ∗ owns (c : Thread nD τ) arg6 fullShare xs) -∗ K ⟨⟩))
          ⊢ wp frame (wpE (defs₀ (F := F)) Variants.none c none) E (cc0__deg_body i arg1 harg1 arg2 harg2 arg3 harg3 arg4 harg4 arg5 harg5 arg6 harg6) K } := by
  refine ⟨?_, fun E K => ?run⟩
  case run =>
    simp only [cc0__deg_body_eq_skeleton]; unfold cc0__deg_body_skel
    unfold owns
    iintro ⟨⟨%d3, %f3, -, H3⟩, ⟨%fs, %hfs, HS⟩, Hk⟩
    obtain rfl := harg6.eq_unread hfs
    sl_exec (disch := first | exact hc)
    sl_step
    iapply Hk
    isplitl [H3]; · iexists _; iexact H3
    iexists _; isplitr; · ipureintro; exact harg6.read_unread _
    iexact HS

/-! ## What each case leaves -/

theorem cover0_A_2 (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : cond0 i) (x0 : Vec F S8192x64 .f32) (x1 : Vec F S64x64 .f32) (y : S8192x64.Idx) :
    ∃ pc ∈ (kernelRun0_A c i arg1 harg1 arg2 harg2 arg3 harg3 arg4 harg4 arg5 harg5 arg6 harg6 hc x0 x1).1, y ∈ pc.1.set :=
  View.cover_of_tiledL (kernelRun0_A c i arg1 harg1 arg2 harg2 arg3 harg3 arg4 harg4 arg5 harg5 arg6 harg6 hc x0 x1).1 S8192x64.size (by sl_kernel_rfl) y
theorem cover0_A_3 (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : cond0 i) (x0 : Vec F S8192x64 .f32) (x1 : Vec F S64x64 .f32) (y : S512x1.Idx) :
    ∃ pc ∈ (kernelRun0_A c i arg1 harg1 arg2 harg2 arg3 harg3 arg4 harg4 arg5 harg5 arg6 harg6 hc x0 x1).2.1, y ∈ pc.1.set :=
  View.cover_of_tiledL (kernelRun0_A c i arg1 harg1 arg2 harg2 arg3 harg3 arg4 harg4 arg5 harg5 arg6 harg6 hc x0 x1).2.1 S512x1.size (by sl_kernel_rfl) y
theorem cover0_A_4 (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : cond0 i) (x0 : Vec F S8192x64 .f32) (x1 : Vec F S64x64 .f32) (y : S8192x64.Idx) :
    ∃ pc ∈ (kernelRun0_A c i arg1 harg1 arg2 harg2 arg3 harg3 arg4 harg4 arg5 harg5 arg6 harg6 hc x0 x1).2.2.1, y ∈ pc.1.set :=
  View.cover_of_tiledL (kernelRun0_A c i arg1 harg1 arg2 harg2 arg3 harg3 arg4 harg4 arg5 harg5 arg6 harg6 hc x0 x1).2.2.1 S8192x64.size (by sl_kernel_rfl) y
theorem scover0_A (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : cond0 i) (x0 : Vec F S8192x64 .f32) (x1 : Vec F S64x64 .f32) (y : S8192x64.Idx) :
    ∃ pc ∈ (kernelRun0_A c i arg1 harg1 arg2 harg2 arg3 harg3 arg4 harg4 arg5 harg5 arg6 harg6 hc x0 x1).2.2.2.1, y ∈ pc.1.set :=
  View.cover_of_tiledL (kernelRun0_A c i arg1 harg1 arg2 harg2 arg3 harg3 arg4 harg4 arg5 harg5 arg6 harg6 hc x0 x1).2.2.2.1 S8192x64.size (by sl_kernel_rfl) y
theorem cover0_B_3 (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : ¬cond0 i) (xs : Vec F S8192x64 .bf16) (y : S512x1.Idx) :
    ∃ pc ∈ (kernelRun0_B c i arg1 harg1 arg2 harg2 arg3 harg3 arg4 harg4 arg5 harg5 arg6 harg6 hc xs).1, y ∈ pc.1.set :=
  View.cover_of_tiledL (kernelRun0_B c i arg1 harg1 arg2 harg2 arg3 harg3 arg4 harg4 arg5 harg5 arg6 harg6 hc xs).1 S512x1.size (by sl_kernel_rfl) y

/-- The first point's normalised rows (first result), degrees of block 0 (second), first-layer features (third) and the
    scratch's contents: the pieces the run stored, read back. -/
def out0_A_2 (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : cond0 i) (x0 : Vec F S8192x64 .f32) (x1 : Vec F S64x64 .f32) : Vec F S8192x64 .bf16 :=
  VO0_2.read (Elt F) (VO0_2.writes (Elt F) VO0_2.junk (kernelRun0_A c i arg1 harg1 arg2 harg2 arg3 harg3 arg4 harg4 arg5 harg5 arg6 harg6 hc x0 x1).1)
def out0_A_3 (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : cond0 i) (x0 : Vec F S8192x64 .f32) (x1 : Vec F S64x64 .f32) : Vec F S512x1 .f32 :=
  VO0_3.read (Elt F) (VO0_3.writes (Elt F) VO0_3.junk (kernelRun0_A c i arg1 harg1 arg2 harg2 arg3 harg3 arg4 harg4 arg5 harg5 arg6 harg6 hc x0 x1).2.1)
def out0_A_4 (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : cond0 i) (x0 : Vec F S8192x64 .f32) (x1 : Vec F S64x64 .f32) : Vec F S8192x64 .f32 :=
  VO0_4.read (Elt F) (VO0_4.writes (Elt F) VO0_4.junk (kernelRun0_A c i arg1 harg1 arg2 harg2 arg3 harg3 arg4 harg4 arg5 harg5 arg6 harg6 hc x0 x1).2.2.1)
def sout0_A (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : cond0 i) (x0 : Vec F S8192x64 .f32) (x1 : Vec F S64x64 .f32) : Vec F S8192x64 .bf16 :=
  VS0.read (Elt F) (VS0.writes (Elt F) VS0.junk (kernelRun0_A c i arg1 harg1 arg2 harg2 arg3 harg3 arg4 harg4 arg5 harg5 arg6 harg6 hc x0 x1).2.2.2.1)
/-- A later point's block of degrees, from the scratch's normalised rows. -/
def out0_B_3 (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : ¬cond0 i) (xs : Vec F S8192x64 .bf16) : Vec F S512x1 .f32 :=
  VO0_3.read (Elt F) (VO0_3.writes (Elt F) VO0_3.junk (kernelRun0_B c i arg1 harg1 arg2 harg2 arg3 harg3 arg4 harg4 arg5 harg5 arg6 harg6 hc xs).1)

/-! ## The contents, point by point -/

theorem hcA0 : cond0 (grid0.coords t0_0) := (hcond0 t0_0).mpr rfl

/-- What the first point leaves in the first result's buffer, the third's, and the scratch: they stay for the whole pass. -/
def O2 (c : Dev nD) : Vec F S8192x64 .bf16 := out0_A_2 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) scM0 (Memref.isWhole_whole _) hcA0 (iblk0 V c 0 t0_0) (iblk0 V c 1 t0_0)
def O4 (c : Dev nD) : Vec F S8192x64 .f32 := out0_A_4 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) scM0 (Memref.isWhole_whole _) hcA0 (iblk0 V c 0 t0_0) (iblk0 V c 1 t0_0)
def SC (c : Dev nD) : Vec F S8192x64 .bf16 := sout0_A c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) scM0 (Memref.isWhole_whole _) hcA0 (iblk0 V c 0 t0_0) (iblk0 V c 1 t0_0)
/-- The block of degrees point `t` leaves. -/
def O3 (c : Dev nD) (t : Fin cfg0.N) : Vec F S512x1 .f32 :=
  if h : t.val = 0 then out0_A_3 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) scM0 (Memref.isWhole_whole _) hcA0 (iblk0 V c 0 t0_0) (iblk0 V c 1 t0_0)
  else out0_B_3 c (grid0.coords t) (ms0_0 t) (hs0_0 t) (ms0_1 t) (hs0_1 t) (ms0_2 t) (hs0_2 t) (ms0_3 t) (hs0_3 t) (ms0_4 t) (hs0_4 t) scM0 (Memref.isWhole_whole _) (fun hh => h ((hcond0 t).mp hh)) (SC V c)

/-- The invariant before position `n`: before the first point the scratch holds anything; afterwards the normalised rows. -/
def Phi0 (c : Dev nD) : ℕ → sProp 𝕄
  | 0 => Pipeline.ΦA spec0 c
  | _ + 1 => iprop(iprop(owns (c : Thread nD τ) scM0 fullShare (SC V c) ∗ Pipeline.scopedRestBut (Ix := Unit) (Name := ℕ) (U := Pipeline.UD sig nD τ) (Lvl := ℕ) (Val := Elt F) spec0 c [cc0_scratch0]) ∗ (∃ r, prngReg c r))

theorem Phi0_pos (c : Dev nD) (n : ℕ) (h : n ≠ 0) :
    Phi0 V c n = iprop(iprop(owns (c : Thread nD τ) scM0 fullShare (SC V c) ∗ Pipeline.scopedRestBut (Ix := Unit) (Name := ℕ) (U := Pipeline.UD sig nD τ) (Lvl := ℕ) (Val := Elt F) spec0 c [cc0_scratch0]) ∗ (∃ r, prngReg c r)) := by
  cases n with
  | zero => exact absurd rfl h
  | succ n => rfl

theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := Pipeline.UD sig nD τ) (Lvl := ℕ) (Val := Elt F) spec0 c [cc0_scratch0]) ∗ (∃ r, prngReg c r)) := by
  unfold Pipeline.ΦA; rw [scopedRest0_split]; simp only [scM0, owns_whole]; try rfl

/-- The proof data of the degree pass on core `c`. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => O2 V c
    | ⟨3, _⟩ => O3 V c t
    | ⟨4, _⟩ => O4 V c
  Φ t := Phi0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = O2 V c := by dsimp only [dat0]
theorem after0_3 (c : Dev nD) (t : Fin cfg0.N) : (dat0 V c).after 3 t = O3 V c t := by dsimp only [dat0]
theorem after0_4 (c : Dev nD) (t : Fin cfg0.N) : (dat0 V c).after 4 t = O4 V c := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- After the first point the first result's buffer holds what the first point left, through every idle point. -/
theorem before0_2_pos (c : Dev nD) (d) : ∀ (n : ℕ) (hn : n < cfg0.N), n ≠ 0 → (dat0 V c).before 2 ⟨n, hn⟩ d = O2 V c := by
  intro n
  induction n with
  | zero => intro _ h; exact absurd rfl h
  | succ k ih =>
    intro hn _
    have hN : k + 1 < 16 := lt_of_lt_of_eq hn N_0
    rw [Dat.before_of_pos (dat0 V c) 2 ⟨k + 1, hn⟩ (Nat.succ_ne_zero k) ((cfg0.win 2).fetch_out rfl _)]
    have e : (⟨(⟨k + 1, hn⟩ : Fin cfg0.N).val - 1, Nat.lt_of_le_of_lt (Nat.sub_le _ _) (⟨k + 1, hn⟩ : Fin cfg0.N).isLt⟩ : Fin cfg0.N) = ⟨k, Nat.lt_of_succ_lt hn⟩ := Fin.ext (by show k + 1 - 1 = k; omega)
    rw [e, flush0_2_iff, show decide ((⟨k, Nat.lt_of_succ_lt hn⟩ : Fin cfg0.N).val = 15) = false from decide_eq_false (by dsimp only; omega), if_neg Bool.false_ne_true]
    unfold Dat.left
    rw [idle0_2_iff]
    by_cases hk : k = 0
    · subst hk
      rw [show decide ((⟨0, Nat.lt_of_succ_lt hn⟩ : Fin cfg0.N).val ≠ 0) = false from decide_eq_false (by dsimp only; omega)]
      show (dat0 V c).kept 2 ⟨0, _⟩ d = _
      unfold Dat.kept
      rw [after0_2]
      rfl
    · rw [show decide ((⟨k, Nat.lt_of_succ_lt hn⟩ : Fin cfg0.N).val ≠ 0) = true from decide_eq_true (by dsimp only; exact hk)]
      exact ih _ hk

theorem before0_4_pos (c : Dev nD) (d) : ∀ (n : ℕ) (hn : n < cfg0.N), n ≠ 0 → (dat0 V c).before 4 ⟨n, hn⟩ d = O4 V c := by
  intro n
  induction n with
  | zero => intro _ h; exact absurd rfl h
  | succ k ih =>
    intro hn _
    have hN : k + 1 < 16 := lt_of_lt_of_eq hn N_0
    rw [Dat.before_of_pos (dat0 V c) 4 ⟨k + 1, hn⟩ (Nat.succ_ne_zero k) ((cfg0.win 4).fetch_out rfl _)]
    have e : (⟨(⟨k + 1, hn⟩ : Fin cfg0.N).val - 1, Nat.lt_of_le_of_lt (Nat.sub_le _ _) (⟨k + 1, hn⟩ : Fin cfg0.N).isLt⟩ : Fin cfg0.N) = ⟨k, Nat.lt_of_succ_lt hn⟩ := Fin.ext (by show k + 1 - 1 = k; omega)
    rw [e, flush0_4_iff, show decide ((⟨k, Nat.lt_of_succ_lt hn⟩ : Fin cfg0.N).val = 15) = false from decide_eq_false (by dsimp only; omega), if_neg Bool.false_ne_true]
    unfold Dat.left
    rw [idle0_4_iff]
    by_cases hk : k = 0
    · subst hk
      rw [show decide ((⟨0, Nat.lt_of_succ_lt hn⟩ : Fin cfg0.N).val ≠ 0) = false from decide_eq_false (by dsimp only; omega)]
      show (dat0 V c).kept 4 ⟨0, _⟩ d = _
      unfold Dat.kept
      rw [after0_4]
      rfl
    · rw [show decide ((⟨k, Nat.lt_of_succ_lt hn⟩ : Fin cfg0.N).val ≠ 0) = true from decide_eq_true (by dsimp only; exact hk)]
      exact ih _ hk

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

theorem Phi_castSucc0 (c : Dev nD) (t : Fin cfg0.N) : (dat0 V c).Φ t.castSucc = Phi0 V c t.val := by
  dsimp only [dat0]; simp only [Fin.coe_castSucc]
theorem Phi_succ0 (c : Dev nD) (t : Fin cfg0.N) : (dat0 V c).Φ t.succ = Phi0 V c (t.val + 1) := by
  dsimp only [dat0]; simp only [Fin.val_succ]

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [Phi_castSucc0, Phi_succ0, Phi0_pos V c (t.val + 1) (Nat.succ_ne_zero _)]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 3 t = owns (c : Thread nD τ) (ms0_3 t) fullShare ((dat0 V c).after 3 t) from by
    unfold Dat.leavesExact; rw [liveAt0_3 t], after0_3]
  have hN : t.val < 16 := lt_of_lt_of_eq t.isLt N_0
  by_cases h0 : t.val = 0
  · -- the first point
    have ht : t = t0_0 := Fin.ext h0
    subst ht
    rw [show (dat0 V c).leavesExact 2 t0_0 = owns (c : Thread nD τ) (ms0_2 t0_0) fullShare ((dat0 V c).after 2 t0_0) from by
      unfold Dat.leavesExact; rw [idle0_2_iff t0_0]; rfl, after0_2]
    rw [show (dat0 V c).leavesExact 4 t0_0 = owns (c : Thread nD τ) (ms0_4 t0_0) fullShare ((dat0 V c).after 4 t0_0) from by
      unfold Dat.leavesExact; rw [idle0_4_iff t0_0]; rfl, after0_4]
    rw [show Phi0 V c (t0_0 : Fin cfg0.N).val = Pipeline.ΦA spec0 c from rfl, PhiA0_eq]
    unfold O2 O4 SC
    rw [show O3 V c t0_0 = out0_A_3 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) scM0 (Memref.isWhole_whole _) hcA0 (iblk0 V c 0 t0_0) (iblk0 V c 1 t0_0) from dif_pos rfl]
    unfold out0_A_2 out0_A_3 out0_A_4 sout0_A
    iintro ⟨⟨⟨HS, HB⟩, Hg⟩, Ho, ⟨%d0, H0⟩, ⟨%d1, H1⟩, ⟨%d2, H2⟩, ⟨%d3, H3⟩, ⟨%d4, H4⟩⟩
    iapply ((kernelRun0_A c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) scM0 (Memref.isWhole_whole _) hcA0 (iblk0 V c 0 t0_0) (iblk0 V c 1 t0_0)).2.2.2.2 Set.univ _)
    isplitl [H0]; · iexact H0
    isplitl [H1]; · iexact H1
    isplitl [H2]; · iexists _; iexact H2
    isplitl [H3]; · iexists _; iexact H3
    isplitl [H4]; · iexists _; iexact H4
    isplitl [HS]; · iexact HS
    iintro ⟨H0, H1, ⟨%e2, H2⟩, ⟨%e3, H3⟩, ⟨%e4, H4⟩, ⟨%es, HS⟩⟩
    isplitl [HS HB Hg]
    · isplitl [HS HB]
      · isplitl [HS]
        · unfold owns; iexists _; isplitr
          swap; · iexact HS
          ipureintro; exact View.read_writes_of_cover _ _ _ _ _ (scover0_A c _ _ _ _ _ _ _ _ _ _ _ _ _ _ _ _)
        iexact HB
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _ _)
  · -- a later point
    have hcB : ¬cond0 (grid0.coords t) := fun hh => h0 ((hcond0 t).mp hh)
    rw [Phi0_pos V c t.val h0]
    rw [show O3 V c t = out0_B_3 c (grid0.coords t) (ms0_0 t) (hs0_0 t) (ms0_1 t) (hs0_1 t) (ms0_2 t) (hs0_2 t) (ms0_3 t) (hs0_3 t) (ms0_4 t) (hs0_4 t) scM0 (Memref.isWhole_whole _) (fun hh => h0 ((hcond0 t).mp hh)) (SC V c) from dif_neg h0]
    unfold out0_B_3
    have hb2 : ∀ d, (dat0 V c).before 2 t d = O2 V c := fun d => before0_2_pos V c d t.val t.isLt h0
    have hb4 : ∀ d, (dat0 V c).before 4 t d = O4 V c := fun d => before0_4_pos V c d t.val t.isLt h0
    by_cases hl : t.val = 15
    · -- the last point: the two whole results are written back, at what the first point left
      rw [show (dat0 V c).leavesExact 2 t = owns (c : Thread nD τ) (ms0_2 t) fullShare ((dat0 V c).after 2 t) from by
        unfold Dat.leavesExact; rw [idle0_2_iff t, flush0_2_iff t, decide_eq_true h0, decide_eq_true hl], after0_2]
      rw [show (dat0 V c).leavesExact 4 t = owns (c : Thread nD τ) (ms0_4 t) fullShare ((dat0 V c).after 4 t) from by
        unfold Dat.leavesExact; rw [idle0_4_iff t, flush0_4_iff t, decide_eq_true h0, decide_eq_true hl], after0_4]
      simp only [hb2, hb4]
      iintro ⟨⟨⟨HS, HB⟩, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0 (Memref.isWhole_whole _) (fun hh => h0 ((hcond0 t).mp hh)) (SC V c)).2 Set.univ _)
      isplitl [H3]; · iexists _; iexact H3
      isplitl [HS]; · iexact HS
      iintro ⟨⟨%e3, H3⟩, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _)
      iexact H4
    · -- a point between: the two whole results' buffers are handed back as found
      rw [Dat.leavesExact_idle (dat0 V c) 2 t (by rw [idle0_2_iff t]; exact decide_eq_true h0) (by rw [flush0_2_iff t]; exact decide_eq_false hl)]
      rw [Dat.leavesExact_idle (dat0 V c) 4 t (by rw [idle0_4_iff t]; exact decide_eq_true h0) (by rw [flush0_4_iff t]; exact decide_eq_false hl)]
      iintro ⟨⟨⟨HS, HB⟩, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0 (Memref.isWhole_whole _) (fun hh => h0 ((hcond0 t).mp hh)) (SC V c)).2 Set.univ _)
      isplitl [H3]; · iexists _; iexact H3
      isplitl [HS]; · iexact HS
      iintro ⟨⟨%e3, H3⟩, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexists _; iexact H2
      isplitl [H3]
      · unfold owns; iexists _; isplitr
        swap; · iexact H3
        ipureintro; exact View.read_writes_of_cover _ _ _ _ _ (cover0_B_3 c _ _ _ _ _ _ _ _ _ _ _ _ _ _ _)
      iexists _; iexact H4

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := Idealize.SL.BI.Entails.refl _
theorem hout0 (c : Dev nD) : (dat0 V c).Φ (Fin.last cfg0.N) ⊢ Pipeline.ΦA spec0 c := by
  rw [show (dat0 V c).Φ (Fin.last cfg0.N) = Phi0 V c cfg0.N from rfl, Phi0_pos V c cfg0.N (by rw [show cfg0.N = 16 from N_0]; decide), PhiA0_eq]
  iintro ⟨⟨HS, HB⟩, Hg⟩
  isplitl [HS HB]
  · isplitl [HS]; · iexists _; iexact HS
    iexact HB
  iexact Hg

end Cert.KernelIdeal.Hand

end
-- ==== Proof.KIRegion1.lean ====
import proofs.«135952_g51264729645358_cont_sun_m_1122_19_alg».proof.Proof.Gen.KernelIdeal.Launch
import proofs.«135952_g51264729645358_cont_sun_m_1122_19_alg».proof.Proof.Gen.KernelIdeal.Skeleton
import proofs.«135952_g51264729645358_cont_sun_m_1122_19_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The first convolution pass: one 512-row block of scaled second-layer features per grid point

At the first grid point the body reads all degrees and all first-layer features and stores their scaled product into a
scratch it keeps for every later point. At EVERY point it reads the block's normalised rows, all normalised rows, the
scratch, the block's degrees and first-layer features, the bias row and the second weight matrix, and stores the block's
512 rows of scaled second-layer features. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (Pipeline.UD sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- The body's `if`: the grid coordinate is zero. -/
abbrev cond1 (i : grid1.Coords) : Prop := (Scalar.cmpi .ne (Scalar.extui (Scalar.cmpi .eq (BitVec.ofNat 32 (i 0).val) 0#32)) 0#32) = 1#1
theorem hcond1 : ∀ t : Fin cfg1.N, cond1 (grid1.coords t) ↔ t.val = 0 :=
  (by decide +kernel : ∀ t : Fin grid1.N, cond1 (grid1.coords t) ↔ t.val = 0)

abbrev ms1_0 (t : Fin cfg1.N) : Memref sig .tc .vmem S512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64x64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x64 .bf16 := win1_8.stage (cfg1.slots t 8)
abbrev hs1_8 (t : Fin cfg1.N) : (ms1_8 t).IsWhole := hstage1_8 ((cfg1.slots t 8).cast nbuf1_8)
/-- The scratch that keeps the scaled first-layer features. -/
abbrev scM1 : Memref sig .tc .vmem S8192x64 .bf16 := Memref.whole cc1_scratch0
abbrev VO1_8 : View sig .tc .vmem S512x64 .bf16 := (Memref.whole cc1_stg8_0 : Memref sig .tc .vmem S512x64 .bf16).view
abbrev VS1 : View sig .tc .vmem S8192x64 .bf16 := scM1.view

set_option maxHeartbeats 4000000 in
/-- THE FIRST POINT: the scratch at anything; the body fills it, then computes the block. -/
noncomputable def kernelRun1_A (c : Dev nD) (i : grid1.Coords) (arg1 : Memref sig .tc .vmem S512x64 .bf16) (harg1 : arg1.IsWhole) (arg2 : Memref sig .tc .vmem S8192x64 .bf16) (harg2 : arg2.IsWhole) (arg3 : Memref sig .tc .vmem S8192x64 .f32) (harg3 : arg3.IsWhole) (arg4 : Memref sig .tc .vmem S8192x1 .f32) (harg4 : arg4.IsWhole) (arg5 : Memref sig .tc .vmem S512x1 .f32) (harg5 : arg5.IsWhole) (arg6 : Memref sig .tc .vmem S512x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S512x64 .bf16) (harg9 : arg9.IsWhole) (arg10 : Memref sig .tc .vmem S8192x64 .bf16) (harg10 : arg10.IsWhole) (hc : cond1 i) (x0 : Vec F S512x64 .bf16) (x1 : Vec F S8192x64 .bf16) (x2 : Vec F S8192x64 .f32) (x3 : Vec F S8192x1 .f32) (x4 : Vec F S512x1 .f32) (x5 : Vec F S512x64 .f32) (x6 : Vec F S1x64 .f32) (x7 : Vec F S64x64 .f32) :
    Σ' (L8 : List (View.Piece (Elt F) S512x64 .bf16)), { LS : List (View.Piece (Elt F) S8192x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f LS)) -∗ K ⟨⟩))
          ⊢ wp frame (wpE (defs₀ (F := F)) Variants.none c none) E (cc1__conv1_body i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc1__conv1_body_eq_skeleton]; unfold cc1__conv1_body_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; iexact HS

set_option maxHeartbeats 4000000 in
/-- EVERY LATER POINT: the scratch holds `xs`; the body reads it and computes the block. -/
noncomputable def kernelRun1_B (c : Dev nD) (i : grid1.Coords) (arg1 : Memref sig .tc .vmem S512x64 .bf16) (harg1 : arg1.IsWhole) (arg2 : Memref sig .tc .vmem S8192x64 .bf16) (harg2 : arg2.IsWhole) (arg3 : Memref sig .tc .vmem S8192x64 .f32) (harg3 : arg3.IsWhole) (arg4 : Memref sig .tc .vmem S8192x1 .f32) (harg4 : arg4.IsWhole) (arg5 : Memref sig .tc .vmem S512x1 .f32) (harg5 : arg5.IsWhole) (arg6 : Memref sig .tc .vmem S512x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S512x64 .bf16) (harg9 : arg9.IsWhole) (arg10 : Memref sig .tc .vmem S8192x64 .bf16) (harg10 : arg10.IsWhole) (hc : ¬cond1 i) (x0 : Vec F S512x64 .bf16) (x1 : Vec F S8192x64 .bf16) (x2 : Vec F S8192x64 .f32) (x3 : Vec F S8192x1 .f32) (x4 : Vec F S512x1 .f32) (x5 : Vec F S512x64 .f32) (x6 : Vec F S1x64 .f32) (x7 : Vec F S64x64 .f32) (xs : Vec F S8192x64 .bf16) :
    { L8 : List (View.Piece (Elt F) S512x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L8)
                ∗ owns (c : Thread nD τ) arg10 fullShare xs) -∗ K ⟨⟩))
          ⊢ wp frame (wpE (defs₀ (F := F)) Variants.none c none) E (cc1__conv1_body i arg1 harg1 arg2 harg2 arg3 harg3 arg4 harg4 arg5 harg5 arg6 harg6 arg7 harg7 arg8 harg8 arg9 harg9 arg10 harg10) K } := by
  refine ⟨?_, fun E K => ?run⟩
  case run =>
    simp only [cc1__conv1_body_eq_skeleton]; unfold cc1__conv1_body_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    obtain rfl := harg10.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; isplitr; · ipureintro; exact harg10.read_unread _
    iexact HS

/-! ## What each case leaves -/

theorem cover1_A_8 (c : Dev nD) (i : grid1.Coords) (arg1 : Memref sig .tc .vmem S512x64 .bf16) (harg1 : arg1.IsWhole) (arg2 : Memref sig .tc .vmem S8192x64 .bf16) (harg2 : arg2.IsWhole) (arg3 : Memref sig .tc .vmem S8192x64 .f32) (harg3 : arg3.IsWhole) (arg4 : Memref sig .tc .vmem S8192x1 .f32) (harg4 : arg4.IsWhole) (arg5 : Memref sig .tc .vmem S512x1 .f32) (harg5 : arg5.IsWhole) (arg6 : Memref sig .tc .vmem S512x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S512x64 .bf16) (harg9 : arg9.IsWhole) (arg10 : Memref sig .tc .vmem S8192x64 .bf16) (harg10 : arg10.IsWhole) (hc : cond1 i) (x0 : Vec F S512x64 .bf16) (x1 : Vec F S8192x64 .bf16) (x2 : Vec F S8192x64 .f32) (x3 : Vec F S8192x1 .f32) (x4 : Vec F S512x1 .f32) (x5 : Vec F S512x64 .f32) (x6 : Vec F S1x64 .f32) (x7 : Vec F S64x64 .f32) (y : S512x64.Idx) :
    ∃ pc ∈ (kernelRun1_A c i arg1 harg1 arg2 harg2 arg3 harg3 arg4 harg4 arg5 harg5 arg6 harg6 arg7 harg7 arg8 harg8 arg9 harg9 arg10 harg10 hc x0 x1 x2 x3 x4 x5 x6 x7).1, y ∈ pc.1.set :=
  View.cover_of_tiledL (kernelRun1_A c i arg1 harg1 arg2 harg2 arg3 harg3 arg4 harg4 arg5 harg5 arg6 harg6 arg7 harg7 arg8 harg8 arg9 harg9 arg10 harg10 hc x0 x1 x2 x3 x4 x5 x6 x7).1 S512x64.size (by sl_kernel_rfl) y
theorem scover1_A (c : Dev nD) (i : grid1.Coords) (arg1 : Memref sig .tc .vmem S512x64 .bf16) (harg1 : arg1.IsWhole) (arg2 : Memref sig .tc .vmem S8192x64 .bf16) (harg2 : arg2.IsWhole) (arg3 : Memref sig .tc .vmem S8192x64 .f32) (harg3 : arg3.IsWhole) (arg4 : Memref sig .tc .vmem S8192x1 .f32) (harg4 : arg4.IsWhole) (arg5 : Memref sig .tc .vmem S512x1 .f32) (harg5 : arg5.IsWhole) (arg6 : Memref sig .tc .vmem S512x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S512x64 .bf16) (harg9 : arg9.IsWhole) (arg10 : Memref sig .tc .vmem S8192x64 .bf16) (harg10 : arg10.IsWhole) (hc : cond1 i) (x0 : Vec F S512x64 .bf16) (x1 : Vec F S8192x64 .bf16) (x2 : Vec F S8192x64 .f32) (x3 : Vec F S8192x1 .f32) (x4 : Vec F S512x1 .f32) (x5 : Vec F S512x64 .f32) (x6 : Vec F S1x64 .f32) (x7 : Vec F S64x64 .f32) (y : S8192x64.Idx) :
    ∃ pc ∈ (kernelRun1_A c i arg1 harg1 arg2 harg2 arg3 harg3 arg4 harg4 arg5 harg5 arg6 harg6 arg7 harg7 arg8 harg8 arg9 harg9 arg10 harg10 hc x0 x1 x2 x3 x4 x5 x6 x7).2.1, y ∈ pc.1.set :=
  View.cover_of_tiledL (kernelRun1_A c i arg1 harg1 arg2 harg2 arg3 harg3 arg4 harg4 arg5 harg5 arg6 harg6 arg7 harg7 arg8 harg8 arg9 harg9 arg10 harg10 hc x0 x1 x2 x3 x4 x5 x6 x7).2.1 S8192x64.size (by sl_kernel_rfl) y
theorem cover1_B_8 (c : Dev nD) (i : grid1.Coords) (arg1 : Memref sig .tc .vmem S512x64 .bf16) (harg1 : arg1.IsWhole) (arg2 : Memref sig .tc .vmem S8192x64 .bf16) (harg2 : arg2.IsWhole) (arg3 : Memref sig .tc .vmem S8192x64 .f32) (harg3 : arg3.IsWhole) (arg4 : Memref sig .tc .vmem S8192x1 .f32) (harg4 : arg4.IsWhole) (arg5 : Memref sig .tc .vmem S512x1 .f32) (harg5 : arg5.IsWhole) (arg6 : Memref sig .tc .vmem S512x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S512x64 .bf16) (harg9 : arg9.IsWhole) (arg10 : Memref sig .tc .vmem S8192x64 .bf16) (harg10 : arg10.IsWhole) (hc : ¬cond1 i) (x0 : Vec F S512x64 .bf16) (x1 : Vec F S8192x64 .bf16) (x2 : Vec F S8192x64 .f32) (x3 : Vec F S8192x1 .f32) (x4 : Vec F S512x1 .f32) (x5 : Vec F S512x64 .f32) (x6 : Vec F S1x64 .f32) (x7 : Vec F S64x64 .f32) (xs : Vec F S8192x64 .bf16) (y : S512x64.Idx) :
    ∃ pc ∈ (kernelRun1_B c i arg1 harg1 arg2 harg2 arg3 harg3 arg4 harg4 arg5 harg5 arg6 harg6 arg7 harg7 arg8 harg8 arg9 harg9 arg10 harg10 hc x0 x1 x2 x3 x4 x5 x6 x7 xs).1, y ∈ pc.1.set :=
  View.cover_of_tiledL (kernelRun1_B c i arg1 harg1 arg2 harg2 arg3 harg3 arg4 harg4 arg5 harg5 arg6 harg6 arg7 harg7 arg8 harg8 arg9 harg9 arg10 harg10 hc x0 x1 x2 x3 x4 x5 x6 x7 xs).1 S512x64.size (by sl_kernel_rfl) y

def out1_A_8 (c : Dev nD) (i : grid1.Coords) (arg1 : Memref sig .tc .vmem S512x64 .bf16) (harg1 : arg1.IsWhole) (arg2 : Memref sig .tc .vmem S8192x64 .bf16) (harg2 : arg2.IsWhole) (arg3 : Memref sig .tc .vmem S8192x64 .f32) (harg3 : arg3.IsWhole) (arg4 : Memref sig .tc .vmem S8192x1 .f32) (harg4 : arg4.IsWhole) (arg5 : Memref sig .tc .vmem S512x1 .f32) (harg5 : arg5.IsWhole) (arg6 : Memref sig .tc .vmem S512x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S512x64 .bf16) (harg9 : arg9.IsWhole) (arg10 : Memref sig .tc .vmem S8192x64 .bf16) (harg10 : arg10.IsWhole) (hc : cond1 i) (x0 : Vec F S512x64 .bf16) (x1 : Vec F S8192x64 .bf16) (x2 : Vec F S8192x64 .f32) (x3 : Vec F S8192x1 .f32) (x4 : Vec F S512x1 .f32) (x5 : Vec F S512x64 .f32) (x6 : Vec F S1x64 .f32) (x7 : Vec F S64x64 .f32) : Vec F S512x64 .bf16 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 hc x0 x1 x2 x3 x4 x5 x6 x7).1)
def sout1_A (c : Dev nD) (i : grid1.Coords) (arg1 : Memref sig .tc .vmem S512x64 .bf16) (harg1 : arg1.IsWhole) (arg2 : Memref sig .tc .vmem S8192x64 .bf16) (harg2 : arg2.IsWhole) (arg3 : Memref sig .tc .vmem S8192x64 .f32) (harg3 : arg3.IsWhole) (arg4 : Memref sig .tc .vmem S8192x1 .f32) (harg4 : arg4.IsWhole) (arg5 : Memref sig .tc .vmem S512x1 .f32) (harg5 : arg5.IsWhole) (arg6 : Memref sig .tc .vmem S512x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S512x64 .bf16) (harg9 : arg9.IsWhole) (arg10 : Memref sig .tc .vmem S8192x64 .bf16) (harg10 : arg10.IsWhole) (hc : cond1 i) (x0 : Vec F S512x64 .bf16) (x1 : Vec F S8192x64 .bf16) (x2 : Vec F S8192x64 .f32) (x3 : Vec F S8192x1 .f32) (x4 : Vec F S512x1 .f32) (x5 : Vec F S512x64 .f32) (x6 : Vec F S1x64 .f32) (x7 : Vec F S64x64 .f32) : Vec F S8192x64 .bf16 :=
  VS1.read (Elt F) (VS1.writes (Elt F) VS1.junk (kernelRun1_A c i arg1 harg1 arg2 harg2 arg3 harg3 arg4 harg4 arg5 harg5 arg6 harg6 arg7 harg7 arg8 harg8 arg9 harg9 arg10 harg10 hc x0 x1 x2 x3 x4 x5 x6 x7).2.1)
def out1_B_8 (c : Dev nD) (i : grid1.Coords) (arg1 : Memref sig .tc .vmem S512x64 .bf16) (harg1 : arg1.IsWhole) (arg2 : Memref sig .tc .vmem S8192x64 .bf16) (harg2 : arg2.IsWhole) (arg3 : Memref sig .tc .vmem S8192x64 .f32) (harg3 : arg3.IsWhole) (arg4 : Memref sig .tc .vmem S8192x1 .f32) (harg4 : arg4.IsWhole) (arg5 : Memref sig .tc .vmem S512x1 .f32) (harg5 : arg5.IsWhole) (arg6 : Memref sig .tc .vmem S512x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S512x64 .bf16) (harg9 : arg9.IsWhole) (arg10 : Memref sig .tc .vmem S8192x64 .bf16) (harg10 : arg10.IsWhole) (hc : ¬cond1 i) (x0 : Vec F S512x64 .bf16) (x1 : Vec F S8192x64 .bf16) (x2 : Vec F S8192x64 .f32) (x3 : Vec F S8192x1 .f32) (x4 : Vec F S512x1 .f32) (x5 : Vec F S512x64 .f32) (x6 : Vec F S1x64 .f32) (x7 : Vec F S64x64 .f32) (xs : Vec F S8192x64 .bf16) : Vec F S512x64 .bf16 :=
  VO1_8.read (Elt F) (VO1_8.writes (Elt F) VO1_8.junk (kernelRun1_B c i arg1 harg1 arg2 harg2 arg3 harg3 arg4 harg4 arg5 harg5 arg6 harg6 arg7 harg7 arg8 harg8 arg9 harg9 arg10 harg10 hc x0 x1 x2 x3 x4 x5 x6 x7 xs).1)

theorem hcA1 : cond1 (grid1.coords t1_0) := (hcond1 t1_0).mpr rfl

/-- What the first point leaves in the scratch: the scaled first-layer features; they stay for the whole pass. -/
def SC1 (c : Dev nD) : Vec F S8192x64 .bf16 := sout1_A c (grid1.coords t1_0) (ms1_0 t1_0) (hs1_0 t1_0) (ms1_1 t1_0) (hs1_1 t1_0) (ms1_2 t1_0) (hs1_2 t1_0) (ms1_3 t1_0) (hs1_3 t1_0) (ms1_4 t1_0) (hs1_4 t1_0) (ms1_5 t1_0) (hs1_5 t1_0) (ms1_6 t1_0) (hs1_6 t1_0) (ms1_7 t1_0) (hs1_7 t1_0) (ms1_8 t1_0) (hs1_8 t1_0) scM1 (Memref.isWhole_whole _) hcA1 (iblk1 V c 0 t1_0) (iblk1 V c 1 t1_0) (iblk1 V c 2 t1_0) (iblk1 V c 3 t1_0) (iblk1 V c 4 t1_0) (iblk1 V c 5 t1_0) (iblk1 V c 6 t1_0) (iblk1 V c 7 t1_0)
/-- The block point `t` leaves in the result window's buffer. -/
def O8 (c : Dev nD) (t : Fin cfg1.N) : Vec F S512x64 .bf16 :=
  if h : t.val = 0 then out1_A_8 c (grid1.coords t1_0) (ms1_0 t1_0) (hs1_0 t1_0) (ms1_1 t1_0) (hs1_1 t1_0) (ms1_2 t1_0) (hs1_2 t1_0) (ms1_3 t1_0) (hs1_3 t1_0) (ms1_4 t1_0) (hs1_4 t1_0) (ms1_5 t1_0) (hs1_5 t1_0) (ms1_6 t1_0) (hs1_6 t1_0) (ms1_7 t1_0) (hs1_7 t1_0) (ms1_8 t1_0) (hs1_8 t1_0) scM1 (Memref.isWhole_whole _) hcA1 (iblk1 V c 0 t1_0) (iblk1 V c 1 t1_0) (iblk1 V c 2 t1_0) (iblk1 V c 3 t1_0) (iblk1 V c 4 t1_0) (iblk1 V c 5 t1_0) (iblk1 V c 6 t1_0) (iblk1 V c 7 t1_0)
  else out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun hh => h ((hcond1 t).mp hh)) (iblk1 V c 0 t) (iblk1 V c 1 t) (iblk1 V c 2 t) (iblk1 V c 3 t) (iblk1 V c 4 t) (iblk1 V c 5 t) (iblk1 V c 6 t) (iblk1 V c 7 t) (SC1 V c)

theorem scopedRest1_split (c : Dev nD) :
    (Pipeline.scopedRest (Ix := Unit) (Name := ℕ) (U := Pipeline.UD sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ Pipeline.scopedRestBut (Ix := Unit) (Name := ℕ) (U := Pipeline.UD sig nD τ) (Lvl := ℕ) (Val := Elt F) spec1 c [cc1_scratch0]) :=
  Pipeline.scopedRest_split_of_list spec1 c [cc1_scratch0] (by decide) (by decide)

def Phi1 (c : Dev nD) : ℕ → sProp 𝕄
  | 0 => Pipeline.ΦA spec1 c
  | _ + 1 => iprop(iprop(owns (c : Thread nD τ) scM1 fullShare (SC1 V c) ∗ Pipeline.scopedRestBut (Ix := Unit) (Name := ℕ) (U := Pipeline.UD sig nD τ) (Lvl := ℕ) (Val := Elt F) spec1 c [cc1_scratch0]) ∗ (∃ r, prngReg c r))

theorem Phi1_pos (c : Dev nD) (n : ℕ) (h : n ≠ 0) :
    Phi1 V c n = iprop(iprop(owns (c : Thread nD τ) scM1 fullShare (SC1 V c) ∗ Pipeline.scopedRestBut (Ix := Unit) (Name := ℕ) (U := Pipeline.UD sig nD τ) (Lvl := ℕ) (Val := Elt F) spec1 c [cc1_scratch0]) ∗ (∃ r, prngReg c r)) := by
  cases n with
  | zero => exact absurd rfl h
  | succ n => rfl

theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := Pipeline.UD sig nD τ) (Lvl := ℕ) (Val := Elt F) spec1 c [cc1_scratch0]) ∗ (∃ r, prngReg c r)) := by
  unfold Pipeline.ΦA; rw [scopedRest1_split]; simp only [scM1, owns_whole]; try rfl

/-- The proof data of the first convolution pass on core `c`: the normalised rows, the first-layer features and the
    degrees are each read through two windows, which hold one half of the array each. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => O8 V c t
  Φ t := Phi1 V c t.val
  q w := match w with
    | ⟨0, _⟩ => fullShare.left
    | ⟨1, _⟩ => fullShare.right
    | ⟨2, _⟩ => fullShare.left
    | ⟨3, _⟩ => fullShare.left
    | ⟨4, _⟩ => fullShare.right
    | ⟨5, _⟩ => fullShare.right
    | _ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = O8 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

theorem Phi_castSucc1 (c : Dev nD) (t : Fin cfg1.N) : (dat1 V c).Φ t.castSucc = Phi1 V c t.val := by
  dsimp only [dat1]; simp only [Fin.coe_castSucc]
theorem Phi_succ1 (c : Dev nD) (t : Fin cfg1.N) : (dat1 V c).Φ t.succ = Phi1 V c (t.val + 1) := by
  dsimp only [dat1]; simp only [Fin.val_succ]

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [Phi_castSucc1, Phi_succ1, Phi1_pos V c (t.val + 1) (Nat.succ_ne_zero _)]
  rw [after1_0, after1_1, after1_2, after1_3, after1_4, after1_5, after1_6, after1_7, after1_8]
  by_cases h0 : t.val = 0
  · have ht : t = t1_0 := Fin.ext h0
    subst ht
    rw [show Phi1 V c (t1_0 : Fin cfg1.N).val = Pipeline.ΦA spec1 c from rfl, PhiA1_eq]
    unfold SC1
    rw [show O8 V c t1_0 = out1_A_8 c (grid1.coords t1_0) (ms1_0 t1_0) (hs1_0 t1_0) (ms1_1 t1_0) (hs1_1 t1_0) (ms1_2 t1_0) (hs1_2 t1_0) (ms1_3 t1_0) (hs1_3 t1_0) (ms1_4 t1_0) (hs1_4 t1_0) (ms1_5 t1_0) (hs1_5 t1_0) (ms1_6 t1_0) (hs1_6 t1_0) (ms1_7 t1_0) (hs1_7 t1_0) (ms1_8 t1_0) (hs1_8 t1_0) scM1 (Memref.isWhole_whole _) hcA1 (iblk1 V c 0 t1_0) (iblk1 V c 1 t1_0) (iblk1 V c 2 t1_0) (iblk1 V c 3 t1_0) (iblk1 V c 4 t1_0) (iblk1 V c 5 t1_0) (iblk1 V c 6 t1_0) (iblk1 V c 7 t1_0) from dif_pos rfl]
    unfold out1_A_8 sout1_A
    iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_A c (grid1.coords t1_0) (ms1_0 t1_0) (hs1_0 t1_0) (ms1_1 t1_0) (hs1_1 t1_0) (ms1_2 t1_0) (hs1_2 t1_0) (ms1_3 t1_0) (hs1_3 t1_0) (ms1_4 t1_0) (hs1_4 t1_0) (ms1_5 t1_0) (hs1_5 t1_0) (ms1_6 t1_0) (hs1_6 t1_0) (ms1_7 t1_0) (hs1_7 t1_0) (ms1_8 t1_0) (hs1_8 t1_0) scM1 (Memref.isWhole_whole _) hcA1 (iblk1 V c 0 t1_0) (iblk1 V c 1 t1_0) (iblk1 V c 2 t1_0) (iblk1 V c 3 t1_0) (iblk1 V c 4 t1_0) (iblk1 V c 5 t1_0) (iblk1 V c 6 t1_0) (iblk1 V c 7 t1_0)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, ⟨%e8, H8⟩, ⟨%es, HS⟩⟩
    isplitl [HS HB Hg]
    · isplitl [HS HB]
      · isplitl [HS]
        · unfold owns; iexists _; isplitr
          swap; · iexact HS
          ipureintro; exact View.read_writes_of_cover _ _ _ _ _ (scover1_A c _ _ _ _ _ _ _ _ _ _ _ _ _ _ _ _ _ _ _ _ _ _ _ _ _ _ _ _ _ _)
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover1_A_8 c _ _ _ _ _ _ _ _ _ _ _ _ _ _ _ _ _ _ _ _ _ _ _ _ _ _ _ _ _ _)
  · rw [Phi1_pos V c t.val h0]
    rw [show O8 V c t = out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun hh => h0 ((hcond1 t).mp hh)) (iblk1 V c 0 t) (iblk1 V c 1 t) (iblk1 V c 2 t) (iblk1 V c 3 t) (iblk1 V c 4 t) (iblk1 V c 5 t) (iblk1 V c 6 t) (iblk1 V c 7 t) (SC1 V c) from dif_neg h0]
    unfold out1_B_8
    iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun hh => h0 ((hcond1 t).mp hh)) (iblk1 V c 0 t) (iblk1 V c 1 t) (iblk1 V c 2 t) (iblk1 V c 3 t) (iblk1 V c 4 t) (iblk1 V c 5 t) (iblk1 V c 6 t) (iblk1 V c 7 t) (SC1 V c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, ⟨%e8, H8⟩, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover1_B_8 c _ _ _ _ _ _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

/-! ## Entering and leaving the region -/

theorem arrBufs1_eq (c : Dev nD) (Vc : (b : Ref sig .tc) → Buf (Elt F) ((c : Thread nD τ).loc b)) :
    (Pipeline.arrBufs (Ix := Unit) (Name := ℕ) (U := Pipeline.UD sig nD τ) (Lvl := ℕ) (Val := Elt F) spec1 c Vc : sProp 𝕄)
      = iprop((((c : Thread nD τ).loc main_call0_v3_0) ↦{fullShare} Vc main_call0_v3_0) ∗ (((c : Thread nD τ).loc main_call0_v3_2) ↦{fullShare} Vc main_call0_v3_2) ∗ (((c : Thread nD τ).loc main_call0_v3_1) ↦{fullShare} Vc main_call0_v3_1) ∗ (((c : Thread nD τ).loc main_call0_v1) ↦{fullShare} Vc main_call0_v1) ∗ (((c : Thread nD τ).loc main_arg3) ↦{fullShare} Vc main_arg3) ∗ (((c : Thread nD τ).loc main_call0_v4) ↦{fullShare} Vc main_call0_v4)) := by
  unfold Pipeline.arrBufs
  exact BI.bigSep_eq_bigSepL_of_eq [main_call0_v3_0, main_call0_v3_2, main_call0_v3_1, main_call0_v1, main_arg3, main_call0_v4] (by decide) (by decide) _

theorem entry1 (c : Dev nD) :
    (unscopedBufs c (V c) : sProp 𝕄) ⊢ iprop((dat1 V c).arrays ((dat1 V c).arrAt · 0) ∗ Pipeline.unscopedRest (Ix := Unit) (Name := ℕ) (U := Pipeline.UD sig nD τ) (Lvl := ℕ) spec1 c (V c)) := by
  rw [show (unscopedBufs c (V c) : sProp 𝕄) = iprop(Pipeline.arrBufs (Ix := Unit) (Name := ℕ) (U := Pipeline.UD sig nD τ) (Lvl := ℕ) (Val := Elt F) spec1 c (V c) ∗ Pipeline.unscopedRest (Ix := Unit) (Name := ℕ) (U := Pipeline.UD sig nD τ) (Lvl := ℕ) spec1 c (V c))
      from Pipeline.unscopedBufs_split₀ cfgs 1 winFacts₀1.arr_unscoped c (V c), arrBufs1_eq]
  unfold Dat.arrays; rw [bigSep_W1]
  simp only [(arr_whole1 0).set_eq_univ, (arr_whole1 1).set_eq_univ, (arr_whole1 2).set_eq_univ, (arr_whole1 3).set_eq_univ, (arr_whole1 4).set_eq_univ, (arr_whole1 5).set_eq_univ, (arr_whole1 6).set_eq_univ, (arr_whole1 7).set_eq_univ, (arr_whole1 8).set_eq_univ]
  iintro ⟨⟨Hxn, Hxw, Hdeg, Hb1, Hw2, Hout⟩, Hrest⟩
  ihave Hs := (pointsTo_share (PosShare.mem_left_op_right fullShare)).1 $$ Hxn
  icases Hs with ⟨Hxa, Hxb⟩
  ihave Hs := (pointsTo_share (PosShare.mem_left_op_right fullShare)).1 $$ Hxw
  icases Hs with ⟨Hwa, Hwb⟩
  ihave Hs := (pointsTo_share (PosShare.mem_left_op_right fullShare)).1 $$ Hdeg
  icases Hs with ⟨Hda, Hdb⟩
  isplitr [Hrest]
  · isplitl [Hxa]; · iexact Hxa
    isplitl [Hxb]; · iexact Hxb
    isplitl [Hwa]; · iexact Hwa
    isplitl [Hda]; · iexact Hda
    isplitl [Hdb]; · iexact Hdb
    isplitl [Hwb]; · iexact Hwb
    isplitl [Hb1]; · iexact Hb1
    isplitl [Hw2]; · iexact Hw2
    iexact Hout
  iexact Hrest

set_option maxHeartbeats 2000000 in
theorem exit1 (c : Dev nD) (V' : (b : Ref sig .tc) → Buf (Elt F) ((c : Thread nD τ).loc b))
    (h8 : V' main_call0_v4 = (dat1 V c).arrAt 8 cfg1.N) (hne : ∀ b, b ≠ main_call0_v4 → V' b = V c b) :
    iprop((dat1 V c).arrays ((dat1 V c).arrAt · cfg1.N) ∗ Pipeline.unscopedRest (Ix := Unit) (Name := ℕ) (U := Pipeline.UD sig nD τ) (Lvl := ℕ) spec1 c (V c)) ⊢ (unscopedBufs c V' : sProp 𝕄) := by
  rw [show (unscopedBufs c V' : sProp 𝕄) = iprop(Pipeline.arrBufs (Ix := Unit) (Name := ℕ) (U := Pipeline.UD sig nD τ) (Lvl := ℕ) (Val := Elt F) spec1 c V' ∗ Pipeline.unscopedRest (Ix := Unit) (Name := ℕ) (U := Pipeline.UD sig nD τ) (Lvl := ℕ) spec1 c V')
      from Pipeline.unscopedBufs_split₀ cfgs 1 winFacts₀1.arr_unscoped c V', arrBufs1_eq, unscopedRest1_eq c V', unscopedRest1_eq c (V c)]
  rw [h8, hne main_call0_v3_0 (by decide), hne main_call0_v3_2 (by decide), hne main_call0_v3_1 (by decide), hne main_call0_v1 (by decide), hne main_arg3 (by decide), hne main_arg0 (by decide), hne main_arg1 (by decide), hne main_arg2 (by decide), hne main_arg4 (by decide), hne main_call0_v0 (by decide), hne main_call0_v2 (by decide), hne main_call0_v5 (by decide), hne main_v0 (by decide)]
  have hF : ((dat1 V c).arrAt · cfg1.N) = fun w => if hw : (cfg1.win w).isOut = false then (dat1 V c).A w else (dat1 V c).arrAt w cfg1.N :=
    funext fun w => by
      by_cases hw : (cfg1.win w).isOut = false
      · rw [dif_pos hw]; exact (dat1 V c).arrAt_in w hw _
      · rw [dif_neg hw]
  rw [hF]
  unfold Dat.arrays; rw [bigSep_W1]
  simp only [(arr_whole1 0).set_eq_univ, (arr_whole1 1).set_eq_univ, (arr_whole1 2).set_eq_univ, (arr_whole1 3).set_eq_univ, (arr_whole1 4).set_eq_univ, (arr_whole1 5).set_eq_univ, (arr_whole1 6).set_eq_univ, (arr_whole1 7).set_eq_univ, (arr_whole1 8).set_eq_univ]
  iintro ⟨⟨H0, H1, H2, H3, H4, H5, H6, H7, H8⟩, Hrest⟩
  ihave Hxn := (pointsTo_share (ℓ := (c : Thread nD τ).loc main_call0_v3_0) (I := Finset.univ) (f := V c main_call0_v3_0) (PosShare.mem_left_op_right fullShare)).2 $$ [H0 H1]
  · isplitl [H0]; · iexact H0
    iexact H1
  ihave Hxw := (pointsTo_share (ℓ := (c : Thread nD τ).loc main_call0_v3_2) (I := Finset.univ) (f := V c main_call0_v3_2) (PosShare.mem_left_op_right fullShare)).2 $$ [H2 H5]
  · isplitl [H2]; · iexact H2
    iexact H5
  ihave Hdeg := (pointsTo_share (ℓ := (c : Thread nD τ).loc main_call0_v3_1) (I := Finset.univ) (f := V c main_call0_v3_1) (PosShare.mem_left_op_right fullShare)).2 $$ [H3 H4]
  · isplitl [H3]; · iexact H3
    iexact H4
  isplitr [Hrest]
  · isplitl [Hxn]; · iexact Hxn
    isplitl [Hxw]; · iexact Hxw
    isplitl [Hdeg]; · iexact Hdeg
    isplitl [H6]; · iexact H6
    isplitl [H7]; · iexact H7
    iexact H8
  iexact Hrest

theorem hin1 (c : Dev nD) : Pipeline.ΦA spec1 c ⊢ (dat1 V c).Φ 0 := Idealize.SL.BI.Entails.refl _
theorem hout1 (c : Dev nD) : (dat1 V c).Φ (Fin.last cfg1.N) ⊢ Pipeline.ΦA spec1 c := by
  rw [show (dat1 V c).Φ (Fin.last cfg1.N) = Phi1 V c cfg1.N from rfl, Phi1_pos V c cfg1.N (by rw [show cfg1.N = 16 from N_1]; decide), PhiA1_eq]
  iintro ⟨⟨HS, HB⟩, Hg⟩
  isplitl [HS HB]
  · isplitl [HS]; · iexists _; iexact HS
    iexact HB
  iexact Hg

end Cert.KernelIdeal.Hand

end
-- ==== Proof.KIRegion2.lean ====
import proofs.«135952_g51264729645358_cont_sun_m_1122_19_alg».proof.Proof.Gen.KernelIdeal.Launch
import proofs.«135952_g51264729645358_cont_sun_m_1122_19_alg».proof.Proof.Gen.KernelIdeal.Skeleton
import proofs.«135952_g51264729645358_cont_sun_m_1122_19_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The second convolution pass: one 512-row block of the result per grid point

At grid point `t` the body reads the block of 512 normalised rows, all 8192 normalised rows, all 8192 rows of the
scaled second-layer features, their block, the block of degrees, the block of input rows and the bias row, and writes
one block of 512 result rows: a pure function of what it read, stored whole. Nothing is kept between points. -/

-- the buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole of a 512×64 buffer, of an 8192×64 buffer, of a 512×1 column and of a 1×64 row. -/
abbrev rBlk : Rect S512x64 := Rect.unit (s := S512x64) ![0, 0] S512x64.size inb_S512x64_S512x64_0_0
abbrev rAll : Rect S8192x64 := Rect.unit (s := S8192x64) ![0, 0] S8192x64.size inb_S8192x64_S8192x64_0_0
abbrev rCol : Rect S512x1 := Rect.unit (s := S512x1) ![0, 0] S512x1.size inb_S512x1_S512x1_0_0
abbrev rRow : Rect S1x64 := Rect.unit (s := S1x64) ![0, 0] S1x64.size inb_S1x64_S1x64_0_0

/-- What the body leaves in the result window's buffer: its one store, of the block's 512 result rows computed from the
    seven inputs. -/
def out2_7 (x0 : Vec F S512x64 .bf16) (x1 : Vec F S8192x64 .bf16) (x2 : Vec F S8192x64 .bf16) (x3 : Vec F S512x64 .bf16)
    (x4 : Vec F S512x1 .f32) (x5 : Vec F S512x64 .f32) (x6 : Vec F S1x64 .f32) : Vec F S512x64 .f32 :=
  View.canon [⟨rBlk, k2_pay1 (View.ld x0 rBlk) (View.ld x1 rAll) (View.ld x2 rAll) (View.ld x4 rCol) (View.ld x3 rBlk) (View.ld x5 rBlk) (View.ld x6 rRow)⟩]

/-- The one store covers the buffer. -/
theorem cover2_7 (p0 : Vec F S512x64 .f32) (y : S512x64.Idx) :
    ∃ pc ∈ ([⟨rBlk, p0⟩] : List (View.Piece (Elt F) S512x64 .f32)), y ∈ pc.1.set :=
  View.cover_of_tiled [⟨rBlk, p0⟩] S512x64.size (by rfl) y

set_option maxHeartbeats 1000000 in
/-- The body on whole staging buffers — the inputs' at known contents, the result's at anything — runs to the end leaving
    the inputs as they were and the result's buffer at `out2_7` of them. -/
theorem sound_kernel2 (c : Dev nD) (E : Set ℕ) (i : grid2.Coords)
    (arg1 : Memref sig .tc .vmem S512x64 .bf16) (harg1 : arg1.IsWhole) (arg2 : Memref sig .tc .vmem S8192x64 .bf16) (harg2 : arg2.IsWhole)
    (arg3 : Memref sig .tc .vmem S8192x64 .bf16) (harg3 : arg3.IsWhole) (arg4 : Memref sig .tc .vmem S512x64 .bf16) (harg4 : arg4.IsWhole)
    (arg5 : Memref sig .tc .vmem S512x1 .f32) (harg5 : arg5.IsWhole) (arg6 : Memref sig .tc .vmem S512x64 .f32) (harg6 : arg6.IsWhole)
    (arg7 : Memref sig .tc .vmem S1x64 .f32) (harg7 : arg7.IsWhole) (arg8 : Memref sig .tc .vmem S512x64 .f32) (harg8 : arg8.IsWhole)
    (x0 : Vec F S512x64 .bf16) (x1 : Vec F S8192x64 .bf16) (x2 : Vec F S8192x64 .bf16) (x3 : Vec F S512x64 .bf16)
    (x4 : Vec F S512x1 .f32) (x5 : Vec F S512x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__conv2_body i arg1 harg1 arg2 harg2 arg3 harg3 arg4 harg4 arg5 harg5 arg6 harg6 arg7 harg7 arg8 harg8) K := by
  simp only [cc2__conv2_body_eq_skeleton]; unfold cc2__conv2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## Each input window's buffer holds its block at every point -/

theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (Pipeline.UD sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The proof data -/

/-- The proof data of this pass on core `c`: the arrays as the region finds them; after the body each input's buffer at
    its block and the result's at `out2_7` of the blocks; nothing carried between points; the normalised rows and the
    scaled features are each read through two windows, which hold one half of the array each. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q w := match w with
    | ⟨0, _⟩ => fullShare.left
    | ⟨1, _⟩ => fullShare.right
    | ⟨2, _⟩ => fullShare.left
    | ⟨3, _⟩ => fullShare.right
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

/-! ## Entering and leaving the region

The windows' arrays are taken out of the core's unscoped buffers on entry — an array two windows read is split into
its two halves — and put back on exit, the result's array at what the write-backs left. -/

theorem arrBufs2_eq (c : Dev nD) (Vc : (b : Ref sig .tc) → Buf (Elt F) ((c : Thread nD τ).loc b)) :
    (Pipeline.arrBufs (Ix := Unit) (Name := ℕ) (U := Pipeline.UD sig nD τ) (Lvl := ℕ) (Val := Elt F) spec2 c Vc : sProp 𝕄)
      = iprop((((c : Thread nD τ).loc main_call0_v3_0) ↦{fullShare} Vc main_call0_v3_0) ∗ (((c : Thread nD τ).loc main_call0_v4) ↦{fullShare} Vc main_call0_v4) ∗ (((c : Thread nD τ).loc main_call0_v3_1) ↦{fullShare} Vc main_call0_v3_1) ∗ (((c : Thread nD τ).loc main_call0_v0) ↦{fullShare} Vc main_call0_v0) ∗ (((c : Thread nD τ).loc main_call0_v2) ↦{fullShare} Vc main_call0_v2) ∗ (((c : Thread nD τ).loc main_call0_v5) ↦{fullShare} Vc main_call0_v5)) := by
  unfold Pipeline.arrBufs
  exact BI.bigSep_eq_bigSepL_of_eq [main_call0_v3_0, main_call0_v4, main_call0_v3_1, main_call0_v0, main_call0_v2, main_call0_v5] (by decide) (by decide) _

theorem entry2 (c : Dev nD) :
    (unscopedBufs c (V c) : sProp 𝕄) ⊢ iprop((dat2 V c).arrays ((dat2 V c).arrAt · 0) ∗ Pipeline.unscopedRest (Ix := Unit) (Name := ℕ) (U := Pipeline.UD sig nD τ) (Lvl := ℕ)  spec2 c (V c)) := by
  rw [show (unscopedBufs c (V c) : sProp 𝕄) = iprop(Pipeline.arrBufs (Ix := Unit) (Name := ℕ) (U := Pipeline.UD sig nD τ) (Lvl := ℕ) (Val := Elt F) spec2 c (V c) ∗ Pipeline.unscopedRest (Ix := Unit) (Name := ℕ) (U := Pipeline.UD sig nD τ) (Lvl := ℕ) spec2 c (V c))
      from Pipeline.unscopedBufs_split₀ cfgs 2 winFacts₀2.arr_unscoped c (V c), arrBufs2_eq]
  unfold Dat.arrays; rw [bigSep_W2]
  simp only [(arr_whole2 0).set_eq_univ, (arr_whole2 1).set_eq_univ, (arr_whole2 2).set_eq_univ, (arr_whole2 3).set_eq_univ, (arr_whole2 4).set_eq_univ, (arr_whole2 5).set_eq_univ, (arr_whole2 6).set_eq_univ, (arr_whole2 7).set_eq_univ]
  iintro ⟨⟨Hxn, Hy2, Hdeg, Hxf, Hb2, Hout⟩, Hrest⟩
  ihave Hs := (pointsTo_share (PosShare.mem_left_op_right fullShare)).1 $$ Hxn
  icases Hs with ⟨Hxa, Hxb⟩
  ihave Hs := (pointsTo_share (PosShare.mem_left_op_right fullShare)).1 $$ Hy2
  icases Hs with ⟨Hya, Hyb⟩
  isplitr [Hrest]
  · isplitl [Hxa]; · iexact Hxa
    isplitl [Hxb]; · iexact Hxb
    isplitl [Hya]; · iexact Hya
    isplitl [Hyb]; · iexact Hyb
    isplitl [Hdeg]; · iexact Hdeg
    isplitl [Hxf]; · iexact Hxf
    isplitl [Hb2]; · iexact Hb2
    iexact Hout
  iexact Hrest

set_option maxHeartbeats 2000000 in
theorem exit2 (c : Dev nD) (V' : (b : Ref sig .tc) → Buf (Elt F) ((c : Thread nD τ).loc b))
    (h5 : V' main_call0_v5 = (dat2 V c).arrAt 7 cfg2.N) (hne : ∀ b, b ≠ main_call0_v5 → V' b = V c b) :
    iprop((dat2 V c).arrays ((dat2 V c).arrAt · cfg2.N) ∗ Pipeline.unscopedRest (Ix := Unit) (Name := ℕ) (U := Pipeline.UD sig nD τ) (Lvl := ℕ)  spec2 c (V c)) ⊢ (unscopedBufs c V' : sProp 𝕄) := by
  rw [show (unscopedBufs c V' : sProp 𝕄) = iprop(Pipeline.arrBufs (Ix := Unit) (Name := ℕ) (U := Pipeline.UD sig nD τ) (Lvl := ℕ) (Val := Elt F) spec2 c V' ∗ Pipeline.unscopedRest (Ix := Unit) (Name := ℕ) (U := Pipeline.UD sig nD τ) (Lvl := ℕ) spec2 c V')
      from Pipeline.unscopedBufs_split₀ cfgs 2 winFacts₀2.arr_unscoped c V', arrBufs2_eq, unscopedRest2_eq c V', unscopedRest2_eq c (V c)]
  rw [h5, hne main_call0_v3_0 (by decide), hne main_call0_v4 (by decide), hne main_call0_v3_1 (by decide), hne main_call0_v0 (by decide), hne main_call0_v2 (by decide), hne main_arg0 (by decide), hne main_arg1 (by decide), hne main_arg2 (by decide), hne main_arg3 (by decide), hne main_arg4 (by decide), hne main_call0_v1 (by decide), hne main_call0_v3_2 (by decide), hne main_v0 (by decide)]
  have hF : ((dat2 V c).arrAt · cfg2.N) = fun w => if hw : (cfg2.win w).isOut = false then (dat2 V c).A w else (dat2 V c).arrAt w cfg2.N :=
    funext fun w => by
      by_cases hw : (cfg2.win w).isOut = false
      · rw [dif_pos hw]; exact (dat2 V c).arrAt_in w hw _
      · rw [dif_neg hw]
  rw [hF]
  unfold Dat.arrays; rw [bigSep_W2]
  simp only [(arr_whole2 0).set_eq_univ, (arr_whole2 1).set_eq_univ, (arr_whole2 2).set_eq_univ, (arr_whole2 3).set_eq_univ, (arr_whole2 4).set_eq_univ, (arr_whole2 5).set_eq_univ, (arr_whole2 6).set_eq_univ, (arr_whole2 7).set_eq_univ]
  iintro ⟨⟨H0, H1, H2, H3, H4, H5, H6, H7⟩, Hrest⟩
  ihave Hxn := (pointsTo_share (ℓ := (c : Thread nD τ).loc main_call0_v3_0) (I := Finset.univ) (f := V c main_call0_v3_0) (PosShare.mem_left_op_right fullShare)).2 $$ [H0 H1]
  · isplitl [H0]; · iexact H0
    iexact H1
  ihave Hy2 := (pointsTo_share (ℓ := (c : Thread nD τ).loc main_call0_v4) (I := Finset.univ) (f := V c main_call0_v4) (PosShare.mem_left_op_right fullShare)).2 $$ [H2 H3]
  · isplitl [H2]; · iexact H2
    iexact H3
  isplitr [Hrest]
  · isplitl [Hxn]; · iexact Hxn
    isplitl [Hy2]; · iexact Hy2
    isplitl [H4]; · iexact H4
    isplitl [H5]; · iexact H5
    isplitl [H6]; · iexact H6
    iexact H7
  iexact Hrest

/-- What the launch hands the region is the invariant at every point, and comes back. -/
theorem hin2 (c : Dev nD) : Pipeline.ΦA spec2 c ⊢ (dat2 V c).Φ 0 := Idealize.SL.BI.Entails.refl _
theorem hout2 (c : Dev nD) : (dat2 V c).Φ (Fin.last cfg2.N) ⊢ Pipeline.ΦA spec2 c := Idealize.SL.BI.Entails.refl _

end Cert.KernelIdeal.Hand

end
-- ==== Proof.KIRun.lean ====
import proofs.«135952_g51264729645358_cont_sun_m_1122_19_alg».proof.Proof.KIRegion0
import proofs.«135952_g51264729645358_cont_sun_m_1122_19_alg».proof.Proof.KIRegion1
import proofs.«135952_g51264729645358_cont_sun_m_1122_19_alg».proof.Proof.KIRegion2
import proofs.«135952_g51264729645358_cont_sun_m_1122_19_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! # The run: three reshapes, the three passes, one reshape

## The buffer contents at each boundary -/

/-- Core `c`'s buffers at launch. -/
abbrev W0 : Dev nD → Valuation τ sig (Elt F) := fun c b => m ((c : Dev nD), b)
/-- After the three reshapes (the rows flattened, the two bias rows). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the degree pass: its three results at what the write-backs left. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the first convolution pass: the scaled second-layer features at what the write-backs left. -/
def W3 (c : Dev nD) : Valuation τ sig (Elt F) :=
  Function.update (W2 m c) (Proc.devRef .tc main_call0_v4) ((dat1 (V2 m) c).arrAt 8 cfg1.N)
abbrev V3 : (c : Dev nD) → (b : Ref sig .tc) → Buf (Elt F) ((c : Thread nD τ).loc b) := fun c b => W3 m c b
theorem V3_v4 (c : Dev nD) : V3 m c main_call0_v4 = (dat1 (V2 m) c).arrAt 8 cfg1.N := by
  show W3 m c (Proc.devRef .tc main_call0_v4) = _; unfold W3; exact Function.update_self ..
theorem V3_of_ne (c : Dev nD) (b : Ref sig .tc) (hb : b ≠ main_call0_v4) : V3 m c b = V2 m c b := by
  show W3 m c (Proc.devRef .tc b) = _; unfold W3
  exact Function.update_of_ne (StableHlo.devRef_ne_of_ne hb) ..
/-- After the second convolution pass: the flat result at what the write-backs left. -/
def W4 (c : Dev nD) : Valuation τ sig (Elt F) :=
  Function.update (W3 m c) (Proc.devRef .tc main_call0_v5) ((dat2 (V3 m) c).arrAt 7 cfg2.N)
abbrev V4 : (c : Dev nD) → (b : Ref sig .tc) → Buf (Elt F) ((c : Thread nD τ).loc b) := fun c b => W4 m c b
theorem V4_v5 (c : Dev nD) : V4 m c main_call0_v5 = (dat2 (V3 m) c).arrAt 7 cfg2.N := by
  show W4 m c (Proc.devRef .tc main_call0_v5) = _; unfold W4; exact Function.update_self ..
theorem V4_of_ne (c : Dev nD) (b : Ref sig .tc) (hb : b ≠ main_call0_v5) : V4 m c b = V3 m c b := by
  show W4 m c (Proc.devRef .tc b) = _; unfold W4
  exact Function.update_of_ne (StableHlo.devRef_ne_of_ne hb) ..
/-- After the last reshape. -/
abbrev W5 : Dev nD → Valuation τ sig (Elt F) := fun c => StableHlo.after hostOps3 (W4 m c)

/-! ## The proof data family and the thread state -/

abbrev adm : (p : Fin 3) → (pcfgs (F := F) p).Adm := fun p => (cfgs p).toPCfg_adm
def pdats : (p : Fin 3) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The degree pass, entered from the buffers after the reshapes, left with its three results written. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The first convolution pass: three of its arrays are each read through two windows. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m c)
  hentry c := by
    rw [Pipeline.ownSems0_none]
    have hsplit := entry1 (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := exit1 (V2 m) c (V3 m c) (V3_v4 m c) (fun b hb => V3_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The second convolution pass: two of its arrays are each read through two windows. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (V3 m c)
  hentry c := by
    rw [Pipeline.ownSems0_none]
    have hsplit := entry2 (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V3 m) c)
    unfold Pipeline.ΦA
    iintro ⟨Hp, -, Hr⟩
    isplitl [Hr]; · iexact Hr
    iexact Hp
  hout c := by
    rw [Pipeline.ownSems0_none]
    refine (hout2 (V3 m) c).trans ?_
    unfold Pipeline.ΦA
    iintro ⟨Hr, Hp⟩
    isplitl [Hp]; · iexact Hp
    isplitr; · iempintro
    iexact Hr
  hexit c := by
    have hjoin := exit2 (V3 m) c (V4 m c) (V4_v5 m c) (fun b hb => V4_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh' (W0 m)),
    .region (reg0 m),
    .region (reg1 m),
    .region (reg2 m),
    .host (hseg hostOps3 hostOps3_sub hostOps3_fresh' (W4 m)) ]
theorem main_run (c : Dev nD) : main (F := F) c = Pipeline.Seg.run (segs m) := (main_chain c).trans (by chain_rfl)

set_option backward.isDefEq.respectTransparency.types false in
/-- From any memory with zero counters every weakly fair execution of @main terminates, nothing faulting, and every
    final memory holds, at each unscoped buffer of each core, the contents after the last reshape. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (StableHlo.after hostOps3 (W4 m c)) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- info: 'Cert.KernelIdeal.Hand.run_all' depends on axioms: [propext, Classical.choice, Quot.sound] -/
#guard_msgs in #print axioms run_all

/-! ## The arguments end as launched -/

theorem W5_of_ne (c : Dev nD) (b : Ref sig .tc) (h3 : b ∉ hostOps3_W) (h5 : b ≠ main_call0_v5) (h4 : b ≠ main_call0_v4) :
    W5 m c (Proc.devRef .tc b) = W2 m c (Proc.devRef .tc b) :=
  (StableHlo.after_of_writes_sub hostOps3 _ hostOps3_writes h3).trans ((V4_of_ne m c b h5).trans (V3_of_ne m c b h4))
theorem W1_of_ne (c : Dev nD) (b : Ref sig .tc) (h0 : b ∉ hostOps0_W) :
    W1 m c (Proc.devRef .tc b) = m ((c : Thread nD τ).loc b) :=
  StableHlo.after_of_writes_sub hostOps0 _ hostOps0_writes h0

theorem W5_main_arg0 (c : Dev nD) : W5 m c (Proc.devRef .tc main_arg0) = m ((c : Thread nD τ).loc main_arg0) :=
  (W5_of_ne m c main_arg0 (by decide) (by decide) (by decide)).trans ((W2_of_ne m c main_arg0 (by decide)).trans (W1_of_ne m c main_arg0 (by decide)))
theorem W5_main_arg1 (c : Dev nD) : W5 m c (Proc.devRef .tc main_arg1) = m ((c : Thread nD τ).loc main_arg1) :=
  (W5_of_ne m c main_arg1 (by decide) (by decide) (by decide)).trans ((W2_arr m c 1).trans (((dat0 (V1 m) c).arrAt_in 1 rfl _).trans
    ((A_eq0 (V1 m) c 1).trans (W1_of_ne m c main_arg1 (by decide)))))
theorem W5_main_arg2 (c : Dev nD) : W5 m c (Proc.devRef .tc main_arg2) = m ((c : Thread nD τ).loc main_arg2) :=
  (W5_of_ne m c main_arg2 (by decide) (by decide) (by decide)).trans ((W2_of_ne m c main_arg2 (by decide)).trans (W1_of_ne m c main_arg2 (by decide)))
theorem W5_main_arg3 (c : Dev nD) : W5 m c (Proc.devRef .tc main_arg3) = m ((c : Thread nD τ).loc main_arg3) :=
  (W5_of_ne m c main_arg3 (by decide) (by decide) (by decide)).trans ((W2_of_ne m c main_arg3 (by decide)).trans (W1_of_ne m c main_arg3 (by decide)))
theorem W5_main_arg4 (c : Dev nD) : W5 m c (Proc.devRef .tc main_arg4) = m ((c : Thread nD τ).loc main_arg4) :=
  (W5_of_ne m c main_arg4 (by decide) (by decide) (by decide)).trans ((W2_of_ne m c main_arg4 (by decide)).trans (W1_of_ne m c main_arg4 (by decide)))

/-- The run with the result buffer named and every argument as launched. -/
theorem run_value : θ_run defs (onTc (τ := τ) (main (F := F))) ⟨m, fun _ => 0, ρ⟩ (fun r => ∀ c : Dev nD,
      r.2.mem ((c.tc : Thread nD τ).loc main_v0) = W5 m c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v0 (by decide)),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_value m ρ)

end Cert.KernelIdeal.Hand

end
-- ==== Proof.KIBlocks.lean ====
/-
  An array of 8192 rows cut into 16 blocks of 512 rows.

  `rowBlocks f` is the array whose `t`-th block is `f t`: row `n` is row `n % 512` of block `n / 512`. An index of
  the array whose row is `t * 512 + r` with `r < 512` reads block `t` at row `r`: division and remainder by 512 recover
  `t` and `r`.
-/
import Idealize.ShloMosaic.Lib.ValueIdx

noncomputable section

namespace Cert.KernelIdeal.Hand

open Idealize.ShloMosaic Idealize.ShloMosaic.ValueIdx

/-- The array of 8192 rows whose `t`-th block of 512 rows is `f t`. -/
def rowBlocks {α : Type} {q : Nat} (f : Fin 16 → (⟨2, ![512, q]⟩ : Shape).Idx → α) :
    (⟨2, ![8192, q]⟩ : Shape).Idx → α :=
  fun i => f ⟨(i 0).val / 512, by have h : (i 0).val < 8192 := (i 0).isLt; omega⟩
    (ix2 ⟨(i 0).val % 512, Nat.mod_lt _ (by norm_num)⟩ (i 1))

/-- At row `n`, column `r`: block `n / 512` at row `n % 512`, column `r`. -/
theorem rowBlocks_apply {α : Type} {q : Nat} (f : Fin 16 → (⟨2, ![512, q]⟩ : Shape).Idx → α) (n : Fin 8192) (r : Fin q) :
    rowBlocks f (ix2 n r)
      = f ⟨n.val / 512, by have h := n.isLt; omega⟩ (ix2 ⟨n.val % 512, Nat.mod_lt _ (by norm_num)⟩ r) := rfl

/-- An index whose row is `t * 512` plus the row of `y`, and whose column is `y`'s, reads block `t` at `y`. -/
theorem rowBlocks_of_coords {α : Type} {q : Nat} (f : Fin 16 → (⟨2, ![512, q]⟩ : Shape).Idx → α)
    (i : (⟨2, ![8192, q]⟩ : Shape).Idx) (t : Fin 16) (y : (⟨2, ![512, q]⟩ : Shape).Idx)
    (h0 : (i 0).val = t.val * 512 + (y 0).val) (h1 : (i 1).val = (y 1).val) : rowBlocks f i = f t y := by
  have hy : (y 0).val < 512 := (y 0).isLt
  unfold rowBlocks
  refine congr (congrArg f (Fin.ext ?_)) (funext fun a => Fin.ext ?_)
  · show (i 0).val / 512 = t.val
    omega
  · match a with
    | ⟨0, _⟩ => show (i 0).val % 512 = (y 0).val; omega
    | ⟨1, _⟩ => exact h1

end Cert.KernelIdeal.Hand

end
-- ==== Proof.KIFinal0.lean ====
/-
  The degree pass, from blocks to arrays.

  The pass has two inputs, each one block that is its whole array, and three results. The normalised rows and the
  first-layer features are stored whole by the first grid point, kept in their buffers, and written back once, by the
  last point: the one block is the whole array, so the array ends at exactly what the first point stored. The degrees
  are written back by every point, 512 rows at a time: point `t`'s block starts at row `t * 512`, the sixteen blocks
  tile the 8192 rows, and row `n` ends at row `n % 512` of what point `n / 512` left.
  The relations between the windows' index maps and the grid point are decided once over the sixteen points; everything
  about the 8192 rows is arithmetic on a symbolic row.
-/
import proofs.«135952_g51264729645358_cont_sun_m_1122_19_alg».proof.Proof.KIRegion0
import proofs.«135952_g51264729645358_cont_sun_m_1122_19_alg».proof.Proof.KIBlocks
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

/-! ## The input windows' blocks, read at an index -/

/-- Window 0 of pass 0 stays put: its one block is the whole array, at block index (0, 0) at every point. -/
theorem idx0_0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-- The block of window 0 at every point is the whole array. -/
theorem iblk0_0_eq (c : Dev nD) (t : Fin cfg0.N) : iblk0 V c 0 t = V c (Pipeline.arrRef spec0 0) := by
  obtain ⟨e0, e1⟩ := idx0_0 t
  funext y
  show V c (Pipeline.arrRef spec0 0) (((cfg0.win 0).blk t).view.emb y) = V c (Pipeline.arrRef spec0 0) y
  exact congrArg _ (funext fun a => Fin.ext (by
    match a with
    | ⟨0, _⟩ => show win0_0.index t (0 : Fin 2) * 8192 + 1 * (y 0).val = (y 0).val; rw [e0]; omega
    | ⟨1, _⟩ => show win0_0.index t (1 : Fin 2) * 64 + 1 * (y 1).val = (y 1).val; rw [e1]; omega))

/-- Window 1 of pass 0 stays put: its one block is the whole array, at block index (0, 0) at every point. -/
theorem idx0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- The block of window 1 at every point is the whole array. -/
theorem iblk0_1_eq (c : Dev nD) (t : Fin cfg0.N) : iblk0 V c 1 t = V c (Pipeline.arrRef spec0 1) := by
  obtain ⟨e0, e1⟩ := idx0_1 t
  funext y
  show V c (Pipeline.arrRef spec0 1) (((cfg0.win 1).blk t).view.emb y) = V c (Pipeline.arrRef spec0 1) y
  exact congrArg _ (funext fun a => Fin.ext (by
    match a with
    | ⟨0, _⟩ => show win0_1.index t (0 : Fin 2) * 64 + 1 * (y 0).val = (y 0).val; rw [e0]; omega
    | ⟨1, _⟩ => show win0_1.index t (1 : Fin 2) * 64 + 1 * (y 1).val = (y 1).val; rw [e1]; omega))

/-! ## The result windows' arrays after the pass -/

/-- Window 2 of pass 0 stays put: its one block is the whole array, at block index (0, 0) at every point. -/
theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- For this window the block is the whole array at block index (0, 0): what a write-back takes out of a buffer
    holding `X` is `X` read through the block, whatever `X` is. -/
theorem cut_eq_read0_2 (X : Vec F S8192x64 .bf16) (t : Fin cfg0.N) :
    (cfg0.win 2).cut (grid0.coords t) X = ((cfg0.win 2).blk t).view.read (Elt F) X := by
  obtain ⟨e0, e1⟩ := idx0_2 t
  funext j
  show X ((cfg0.win 2).xinj (grid0.coords t) j) = X (((cfg0.win 2).blk t).view.emb j)
  exact congrArg X (funext fun a => Fin.ext (by
    match a with
    | ⟨0, _⟩ => show (j 0).val = win0_2.index t (0 : Fin 2) * 8192 + 1 * (j 0).val; rw [e0]; omega
    | ⟨1, _⟩ => show (j 1).val = win0_2.index t (1 : Fin 2) * 64 + 1 * (j 1).val; rw [e1]; omega))

/-- What the last point writes back is the whole of what the first point stored: the one block is the array. -/
theorem flushed0_2_eq (c : Dev nD) (t : Fin cfg0.N) :
    (dat0 V c).flushed 2 t = ((cfg0.win 2).blk t).view.read (Elt F) (O2 V c) := by
  show (cfg0.win 2).cut (grid0.coords t) ((dat0 V c).after 2 t) = _
  rw [after0_2]
  exact cut_eq_read0_2 (O2 V c) t

/-- An index of the array is in point `t`'s block of window 2 iff each coordinate is in the block's range on its axis. -/
theorem mem_blk0_2 (t : Fin cfg0.N) (i : S8192x64.Idx) :
    i ∈ ((cfg0.win 2).blk t).view.set ↔ ∀ a : Fin 2, win0_2.index t a * S8192x64.size a ≤ (i a).val
      ∧ (i a).val < win0_2.index t a * S8192x64.size a + S8192x64.size a := by
  show i ∈ ((View.whole main_call0_v3_0).slice (win0_2.rect t)).set ↔ _
  rw [View.set_slice_whole, Rect.mem_set_unit]
  exact Iff.rfl

/-- The last point writes the one block back, and it covers every index of the array. -/
theorem cover0_2_arr (i : S8192x64.Idx) :
    ∃ t : Fin cfg0.N, (cfg0.win 2).flush t = true ∧ i ∈ ((cfg0.win 2).blk t).view.set := by
  have hi0 : (i 0).val < 8192 := (i 0).isLt
  have hi1 : (i 1).val < 64 := (i 1).isLt
  have h15 : (15 : Nat) < 16 := by norm_num
  obtain ⟨e0, e1⟩ := idx0_2 ⟨15, h15⟩
  refine ⟨⟨15, h15⟩, (flush0_2 _).mpr rfl, ?_⟩
  rw [mem_blk0_2]
  intro a
  match a with
  | ⟨0, _⟩ =>
    show win0_2.index ⟨15, h15⟩ (0 : Fin 2) * 8192 ≤ (i 0).val ∧ (i 0).val < win0_2.index ⟨15, h15⟩ (0 : Fin 2) * 8192 + 8192
    rw [e0]; omega
  | ⟨1, _⟩ =>
    show win0_2.index ⟨15, h15⟩ (1 : Fin 2) * 64 ≤ (i 1).val ∧ (i 1).val < win0_2.index ⟨15, h15⟩ (1 : Fin 2) * 64 + 64
    rw [e1]; omega

/-- After the pass the array of window 2 holds the normalised rows, as the first point stored them. -/
theorem final0_2 (c : Dev nD) : (dat0 V c).arrAt 2 cfg0.N = O2 V c :=
  (dat0 V c).arrAt_eq_of_cover 2 (O2 V c) (fun t _ => flushed0_2_eq V c t) cover0_2_arr

/-- Window 3 of pass 0 moves down the rows: its block at point `t` starts at row `t * 512`, column 0. -/
theorem idx0_3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- The degrees as one array: its `t`-th block of 512 rows is what point `t` of pass 0 leaves. -/
def D0 (c : Dev nD) : S8192x1.Idx → Elt F .f32 :=
  rowBlocks fun t => O3 V c t

/-- What point `t` writes back is block `t` of that array. -/
theorem flushed0_3_eq (c : Dev nD) (t : Fin cfg0.N) :
    (dat0 V c).flushed 3 t = ((cfg0.win 3).blk t).view.read (Elt F) (D0 V c) := by
  show (cfg0.win 3).cut (grid0.coords t) ((dat0 V c).after 3 t) = _
  rw [after0_3]
  obtain ⟨e0, e1⟩ := idx0_3 t
  funext j
  show (O3 V c t) ((cfg0.win 3).xinj (grid0.coords t) j) = D0 V c (((cfg0.win 3).blk t).view.emb j)
  refine (rowBlocks_of_coords (fun t => O3 V c t)
    (((cfg0.win 3).blk t).view.emb j) t ((cfg0.win 3).xinj (grid0.coords t) j) ?_ ?_).symm
  · show win0_3.index t (0 : Fin 2) * 512 + 1 * (j 0).val = t.val * 512 + (j 0).val
    rw [e0]; omega
  · show win0_3.index t (1 : Fin 2) * 1 + 1 * (j 1).val = (j 1).val
    rw [e1]; omega

/-- An index of the array is in point `t`'s block of window 3 iff each coordinate is in the block's range on its axis. -/
theorem mem_blk0_3 (t : Fin cfg0.N) (i : S8192x1.Idx) :
    i ∈ ((cfg0.win 3).blk t).view.set ↔ ∀ a : Fin 2, win0_3.index t a * S512x1.size a ≤ (i a).val
      ∧ (i a).val < win0_3.index t a * S512x1.size a + S512x1.size a := by
  show i ∈ ((View.whole main_call0_v3_1).slice (win0_3.rect t)).set ↔ _
  rw [View.set_slice_whole, Rect.mem_set_unit]
  exact Iff.rfl

/-- Row `n` of the array is in the block of point `n / 512`, and every point writes its block back. -/
theorem cover0_3_arr (i : S8192x1.Idx) :
    ∃ t : Fin cfg0.N, (cfg0.win 3).flush t = true ∧ i ∈ ((cfg0.win 3).blk t).view.set := by
  have hi0 : (i 0).val < 8192 := (i 0).isLt
  have hi1 : (i 1).val < 1 := (i 1).isLt
  have hlt : (i 0).val / 512 < 16 := by omega
  obtain ⟨e0, e1⟩ := idx0_3 ⟨(i 0).val / 512, hlt⟩
  refine ⟨⟨(i 0).val / 512, hlt⟩, flush0_3 _, ?_⟩
  rw [mem_blk0_3]
  intro a
  match a with
  | ⟨0, _⟩ =>
    show win0_3.index ⟨(i 0).val / 512, hlt⟩ (0 : Fin 2) * 512 ≤ (i 0).val
      ∧ (i 0).val < win0_3.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win0_3.index ⟨(i 0).val / 512, hlt⟩ (1 : Fin 2) * 1 ≤ (i 1).val
      ∧ (i 1).val < win0_3.index ⟨(i 0).val / 512, hlt⟩ (1 : Fin 2) * 1 + 1
    rw [e1]; omega

/-- After the pass the array of window 3 holds the degrees, block by block. -/
theorem final0_3 (c : Dev nD) : (dat0 V c).arrAt 3 cfg0.N = D0 V c :=
  (dat0 V c).arrAt_eq_of_cover 3 (D0 V c) (fun t _ => flushed0_3_eq V c t) cover0_3_arr

/-- Read at row `n`, column `q`: the entry of the block that point `n / 512` left, at row `n % 512`. -/
theorem final0_3_apply (c : Dev nD) (n : Fin 8192) (q : Fin 1) :
    D0 V c (ix2 n q)
      = (fun t => O3 V c t) ⟨n.val / 512, by have h := n.isLt; show n.val / 512 < 16; omega⟩ (ix2 ⟨n.val % 512, Nat.mod_lt _ (by norm_num)⟩ q) := rfl

/-- Window 4 of pass 0 stays put: its one block is the whole array, at block index (0, 0) at every point. -/
theorem idx0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- For this window the block is the whole array at block index (0, 0): what a write-back takes out of a buffer
    holding `X` is `X` read through the block, whatever `X` is. -/
theorem cut_eq_read0_4 (X : Vec F S8192x64 .f32) (t : Fin cfg0.N) :
    (cfg0.win 4).cut (grid0.coords t) X = ((cfg0.win 4).blk t).view.read (Elt F) X := by
  obtain ⟨e0, e1⟩ := idx0_4 t
  funext j
  show X ((cfg0.win 4).xinj (grid0.coords t) j) = X (((cfg0.win 4).blk t).view.emb j)
  exact congrArg X (funext fun a => Fin.ext (by
    match a with
    | ⟨0, _⟩ => show (j 0).val = win0_4.index t (0 : Fin 2) * 8192 + 1 * (j 0).val; rw [e0]; omega
    | ⟨1, _⟩ => show (j 1).val = win0_4.index t (1 : Fin 2) * 64 + 1 * (j 1).val; rw [e1]; omega))

/-- What the last point writes back is the whole of what the first point stored: the one block is the array. -/
theorem flushed0_4_eq (c : Dev nD) (t : Fin cfg0.N) :
    (dat0 V c).flushed 4 t = ((cfg0.win 4).blk t).view.read (Elt F) (O4 V c) := by
  show (cfg0.win 4).cut (grid0.coords t) ((dat0 V c).after 4 t) = _
  rw [after0_4]
  exact cut_eq_read0_4 (O4 V c) t

/-- An index of the array is in point `t`'s block of window 4 iff each coordinate is in the block's range on its axis. -/
theorem mem_blk0_4 (t : Fin cfg0.N) (i : S8192x64.Idx) :
    i ∈ ((cfg0.win 4).blk t).view.set ↔ ∀ a : Fin 2, win0_4.index t a * S8192x64.size a ≤ (i a).val
      ∧ (i a).val < win0_4.index t a * S8192x64.size a + S8192x64.size a := by
  show i ∈ ((View.whole main_call0_v3_2).slice (win0_4.rect t)).set ↔ _
  rw [View.set_slice_whole, Rect.mem_set_unit]
  exact Iff.rfl

/-- The last point writes the one block back, and it covers every index of the array. -/
theorem cover0_4_arr (i : S8192x64.Idx) :
    ∃ t : Fin cfg0.N, (cfg0.win 4).flush t = true ∧ i ∈ ((cfg0.win 4).blk t).view.set := by
  have hi0 : (i 0).val < 8192 := (i 0).isLt
  have hi1 : (i 1).val < 64 := (i 1).isLt
  have h15 : (15 : Nat) < 16 := by norm_num
  obtain ⟨e0, e1⟩ := idx0_4 ⟨15, h15⟩
  refine ⟨⟨15, h15⟩, (flush0_4 _).mpr rfl, ?_⟩
  rw [mem_blk0_4]
  intro a
  match a with
  | ⟨0, _⟩ =>
    show win0_4.index ⟨15, h15⟩ (0 : Fin 2) * 8192 ≤ (i 0).val ∧ (i 0).val < win0_4.index ⟨15, h15⟩ (0 : Fin 2) * 8192 + 8192
    rw [e0]; omega
  | ⟨1, _⟩ =>
    show win0_4.index ⟨15, h15⟩ (1 : Fin 2) * 64 ≤ (i 1).val ∧ (i 1).val < win0_4.index ⟨15, h15⟩ (1 : Fin 2) * 64 + 64
    rw [e1]; omega

/-- After the pass the array of window 4 holds the first-layer features, as the first point stored them. -/
theorem final0_4 (c : Dev nD) : (dat0 V c).arrAt 4 cfg0.N = O4 V c :=
  (dat0 V c).arrAt_eq_of_cover 4 (O4 V c) (fun t _ => flushed0_4_eq V c t) cover0_4_arr

end Cert.KernelIdeal.Hand

end
-- ==== Proof.KIFinal1.lean ====
/-
  The first convolution pass, from blocks to arrays.

  Eight inputs — three of them 512-row blocks that move down their arrays with the grid point, five of them one block
  that is the whole array — and one result, the scaled second-layer features, written back by every point, 512 rows at a
  time. Point `t`'s blocks start at row `t * 512`; the sixteen result blocks tile the 8192 rows, and row `n` ends at
  row `n % 512` of what point `n / 512` left.
  The relations between the windows' index maps and the grid point are decided once over the sixteen points; everything
  about the 8192 rows is arithmetic on a symbolic row.
-/
import proofs.«135952_g51264729645358_cont_sun_m_1122_19_alg».proof.Proof.KIRegion1
import proofs.«135952_g51264729645358_cont_sun_m_1122_19_alg».proof.Proof.KIBlocks
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

/-! ## The input windows' blocks, read at an index -/

/-- Window 0 of pass 1 moves down the rows: its block at point `t` starts at row `t * 512`, column 0. -/
theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- The block of window 0 at point `t`, at row `r` and column `q`, is the array at row `t * 512 + r`, column `q`. -/
theorem iblk1_0_apply (c : Dev nD) (t : Fin cfg1.N) (r : Fin 512) (q : Fin 64) :
    iblk1 V c 0 t (ix2 r q)
      = V c (Pipeline.arrRef spec1 0)
          (ix2 ⟨t.val * 512 + r.val, by have ht : t.val < 16 := t.isLt; have hr := r.isLt; omega⟩ q) := by
  obtain ⟨e0, e1⟩ := idx1_0 t
  show V c (Pipeline.arrRef spec1 0) (((cfg1.win 0).blk t).view.emb (ix2 r q)) = _
  exact congrArg _ (funext fun a => Fin.ext (by
    match a with
    | ⟨0, _⟩ => show win1_0.index t (0 : Fin 2) * 512 + 1 * r.val = t.val * 512 + r.val; rw [e0]; omega
    | ⟨1, _⟩ => show win1_0.index t (1 : Fin 2) * 64 + 1 * q.val = q.val; rw [e1]; omega))

/-- Window 1 of pass 1 stays put: its one block is the whole array, at block index (0, 0) at every point. -/
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)

/-- The block of window 1 at every point is the whole array. -/
theorem iblk1_1_eq (c : Dev nD) (t : Fin cfg1.N) : iblk1 V c 1 t = V c (Pipeline.arrRef spec1 1) := by
  obtain ⟨e0, e1⟩ := idx1_1 t
  funext y
  show V c (Pipeline.arrRef spec1 1) (((cfg1.win 1).blk t).view.emb y) = V c (Pipeline.arrRef spec1 1) y
  exact congrArg _ (funext fun a => Fin.ext (by
    match a with
    | ⟨0, _⟩ => show win1_1.index t (0 : Fin 2) * 8192 + 1 * (y 0).val = (y 0).val; rw [e0]; omega
    | ⟨1, _⟩ => show win1_1.index t (1 : Fin 2) * 64 + 1 * (y 1).val = (y 1).val; rw [e1]; omega))

/-- Window 2 of pass 1 stays put: its one block is the whole array, at block index (0, 0) at every point. -/
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

/-- The block of window 2 at every point is the whole array. -/
theorem iblk1_2_eq (c : Dev nD) (t : Fin cfg1.N) : iblk1 V c 2 t = V c (Pipeline.arrRef spec1 2) := by
  obtain ⟨e0, e1⟩ := idx1_2 t
  funext y
  show V c (Pipeline.arrRef spec1 2) (((cfg1.win 2).blk t).view.emb y) = V c (Pipeline.arrRef spec1 2) y
  exact congrArg _ (funext fun a => Fin.ext (by
    match a with
    | ⟨0, _⟩ => show win1_2.index t (0 : Fin 2) * 8192 + 1 * (y 0).val = (y 0).val; rw [e0]; omega
    | ⟨1, _⟩ => show win1_2.index t (1 : Fin 2) * 64 + 1 * (y 1).val = (y 1).val; rw [e1]; omega))

/-- Window 3 of pass 1 stays put: its one block is the whole array, at block index (0, 0) at every point. -/
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)

/-- The block of window 3 at every point is the whole array. -/
theorem iblk1_3_eq (c : Dev nD) (t : Fin cfg1.N) : iblk1 V c 3 t = V c (Pipeline.arrRef spec1 3) := by
  obtain ⟨e0, e1⟩ := idx1_3 t
  funext y
  show V c (Pipeline.arrRef spec1 3) (((cfg1.win 3).blk t).view.emb y) = V c (Pipeline.arrRef spec1 3) y
  exact congrArg _ (funext fun a => Fin.ext (by
    match a with
    | ⟨0, _⟩ => show win1_3.index t (0 : Fin 2) * 8192 + 1 * (y 0).val = (y 0).val; rw [e0]; omega
    | ⟨1, _⟩ => show win1_3.index t (1 : Fin 2) * 1 + 1 * (y 1).val = (y 1).val; rw [e1]; omega))

/-- Window 4 of pass 1 moves down the rows: its block at point `t` starts at row `t * 512`, column 0. -/
theorem idx1_4 : ∀ t : Fin cfg1.N, win1_4.index t (0 : Fin 2) = t.val ∧ win1_4.index t (1 : Fin 2) = 0 :=
  (by decide +kernel : ∀ t : Fin grid1.N, win1_4.index t (0 : Fin 2) = t.val ∧ win1_4.index t (1 : Fin 2) = 0)

/-- The block of window 4 at point `t`, at row `r` and column `q`, is the array at row `t * 512 + r`, column `q`. -/
theorem iblk1_4_apply (c : Dev nD) (t : Fin cfg1.N) (r : Fin 512) (q : Fin 1) :
    iblk1 V c 4 t (ix2 r q)
      = V c (Pipeline.arrRef spec1 4)
          (ix2 ⟨t.val * 512 + r.val, by have ht : t.val < 16 := t.isLt; have hr := r.isLt; omega⟩ q) := by
  obtain ⟨e0, e1⟩ := idx1_4 t
  show V c (Pipeline.arrRef spec1 4) (((cfg1.win 4).blk t).view.emb (ix2 r q)) = _
  exact congrArg _ (funext fun a => Fin.ext (by
    match a with
    | ⟨0, _⟩ => show win1_4.index t (0 : Fin 2) * 512 + 1 * r.val = t.val * 512 + r.val; rw [e0]; omega
    | ⟨1, _⟩ => show win1_4.index t (1 : Fin 2) * 1 + 1 * q.val = q.val; rw [e1]; omega))

/-- Window 5 of pass 1 moves down the rows: its block at point `t` starts at row `t * 512`, column 0. -/
theorem idx1_5 : ∀ t : Fin cfg1.N, win1_5.index t (0 : Fin 2) = t.val ∧ win1_5.index t (1 : Fin 2) = 0 :=
  (by decide +kernel : ∀ t : Fin grid1.N, win1_5.index t (0 : Fin 2) = t.val ∧ win1_5.index t (1 : Fin 2) = 0)

/-- The block of window 5 at point `t`, at row `r` and column `q`, is the array at row `t * 512 + r`, column `q`. -/
theorem iblk1_5_apply (c : Dev nD) (t : Fin cfg1.N) (r : Fin 512) (q : Fin 64) :
    iblk1 V c 5 t (ix2 r q)
      = V c (Pipeline.arrRef spec1 5)
          (ix2 ⟨t.val * 512 + r.val, by have ht : t.val < 16 := t.isLt; have hr := r.isLt; omega⟩ q) := by
  obtain ⟨e0, e1⟩ := idx1_5 t
  show V c (Pipeline.arrRef spec1 5) (((cfg1.win 5).blk t).view.emb (ix2 r q)) = _
  exact congrArg _ (funext fun a => Fin.ext (by
    match a with
    | ⟨0, _⟩ => show win1_5.index t (0 : Fin 2) * 512 + 1 * r.val = t.val * 512 + r.val; rw [e0]; omega
    | ⟨1, _⟩ => show win1_5.index t (1 : Fin 2) * 64 + 1 * q.val = q.val; rw [e1]; omega))

/-- Window 6 of pass 1 stays put: its one block is the whole array, at block index (0, 0) at every point. -/
theorem idx1_6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)

/-- The block of window 6 at every point is the whole array. -/
theorem iblk1_6_eq (c : Dev nD) (t : Fin cfg1.N) : iblk1 V c 6 t = V c (Pipeline.arrRef spec1 6) := by
  obtain ⟨e0, e1⟩ := idx1_6 t
  funext y
  show V c (Pipeline.arrRef spec1 6) (((cfg1.win 6).blk t).view.emb y) = V c (Pipeline.arrRef spec1 6) y
  exact congrArg _ (funext fun a => Fin.ext (by
    match a with
    | ⟨0, _⟩ => show win1_6.index t (0 : Fin 2) * 1 + 1 * (y 0).val = (y 0).val; rw [e0]; omega
    | ⟨1, _⟩ => show win1_6.index t (1 : Fin 2) * 64 + 1 * (y 1).val = (y 1).val; rw [e1]; omega))

/-- Window 7 of pass 1 stays put: its one block is the whole array, at block index (0, 0) at every point. -/
theorem idx1_7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)

/-- The block of window 7 at every point is the whole array. -/
theorem iblk1_7_eq (c : Dev nD) (t : Fin cfg1.N) : iblk1 V c 7 t = V c (Pipeline.arrRef spec1 7) := by
  obtain ⟨e0, e1⟩ := idx1_7 t
  funext y
  show V c (Pipeline.arrRef spec1 7) (((cfg1.win 7).blk t).view.emb y) = V c (Pipeline.arrRef spec1 7) y
  exact congrArg _ (funext fun a => Fin.ext (by
    match a with
    | ⟨0, _⟩ => show win1_7.index t (0 : Fin 2) * 64 + 1 * (y 0).val = (y 0).val; rw [e0]; omega
    | ⟨1, _⟩ => show win1_7.index t (1 : Fin 2) * 64 + 1 * (y 1).val = (y 1).val; rw [e1]; omega))

/-! ## The result windows' arrays after the pass -/

/-- Window 8 of pass 1 moves down the rows: its block at point `t` starts at row `t * 512`, column 0. -/
theorem idx1_8 : ∀ t : Fin cfg1.N, win1_8.index t (0 : Fin 2) = t.val ∧ win1_8.index t (1 : Fin 2) = 0 :=
  (by decide +kernel : ∀ t : Fin grid1.N, win1_8.index t (0 : Fin 2) = t.val ∧ win1_8.index t (1 : Fin 2) = 0)

/-- The scaled second-layer features as one array: its `t`-th block of 512 rows is what point `t` of pass 1 leaves. -/
def Y1 (c : Dev nD) : S8192x64.Idx → Elt F .bf16 :=
  rowBlocks fun t => O8 V c t

/-- What point `t` writes back is block `t` of that array. -/
theorem flushed1_8_eq (c : Dev nD) (t : Fin cfg1.N) :
    (dat1 V c).flushed 8 t = ((cfg1.win 8).blk t).view.read (Elt F) (Y1 V c) := by
  show (cfg1.win 8).cut (grid1.coords t) ((dat1 V c).after 8 t) = _
  rw [after1_8]
  obtain ⟨e0, e1⟩ := idx1_8 t
  funext j
  show (O8 V c t) ((cfg1.win 8).xinj (grid1.coords t) j) = Y1 V c (((cfg1.win 8).blk t).view.emb j)
  refine (rowBlocks_of_coords (fun t => O8 V c t)
    (((cfg1.win 8).blk t).view.emb j) t ((cfg1.win 8).xinj (grid1.coords t) j) ?_ ?_).symm
  · show win1_8.index t (0 : Fin 2) * 512 + 1 * (j 0).val = t.val * 512 + (j 0).val
    rw [e0]; omega
  · show win1_8.index t (1 : Fin 2) * 64 + 1 * (j 1).val = (j 1).val
    rw [e1]; omega

/-- An index of the array is in point `t`'s block of window 8 iff each coordinate is in the block's range on its axis. -/
theorem mem_blk1_8 (t : Fin cfg1.N) (i : S8192x64.Idx) :
    i ∈ ((cfg1.win 8).blk t).view.set ↔ ∀ a : Fin 2, win1_8.index t a * S512x64.size a ≤ (i a).val
      ∧ (i a).val < win1_8.index t a * S512x64.size a + S512x64.size a := by
  show i ∈ ((View.whole main_call0_v4).slice (win1_8.rect t)).set ↔ _
  rw [View.set_slice_whole, Rect.mem_set_unit]
  exact Iff.rfl

/-- Row `n` of the array is in the block of point `n / 512`, and every point writes its block back. -/
theorem cover1_8_arr (i : S8192x64.Idx) :
    ∃ t : Fin cfg1.N, (cfg1.win 8).flush t = true ∧ i ∈ ((cfg1.win 8).blk t).view.set := by
  have hi0 : (i 0).val < 8192 := (i 0).isLt
  have hi1 : (i 1).val < 64 := (i 1).isLt
  have hlt : (i 0).val / 512 < 16 := by omega
  obtain ⟨e0, e1⟩ := idx1_8 ⟨(i 0).val / 512, hlt⟩
  refine ⟨⟨(i 0).val / 512, hlt⟩, flush1_8 _, ?_⟩
  rw [mem_blk1_8]
  intro a
  match a with
  | ⟨0, _⟩ =>
    show win1_8.index ⟨(i 0).val / 512, hlt⟩ (0 : Fin 2) * 512 ≤ (i 0).val
      ∧ (i 0).val < win1_8.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win1_8.index ⟨(i 0).val / 512, hlt⟩ (1 : Fin 2) * 64 ≤ (i 1).val
      ∧ (i 1).val < win1_8.index ⟨(i 0).val / 512, hlt⟩ (1 : Fin 2) * 64 + 64
    rw [e1]; omega

/-- After the pass the array of window 8 holds the scaled second-layer features, block by block. -/
theorem final1_8 (c : Dev nD) : (dat1 V c).arrAt 8 cfg1.N = Y1 V c :=
  (dat1 V c).arrAt_eq_of_cover 8 (Y1 V c) (fun t _ => flushed1_8_eq V c t) cover1_8_arr

/-- Read at row `n`, column `q`: the entry of the block that point `n / 512` left, at row `n % 512`. -/
theorem final1_8_apply (c : Dev nD) (n : Fin 8192) (q : Fin 64) :
    Y1 V c (ix2 n q)
      = (fun t => O8 V c t) ⟨n.val / 512, by have h := n.isLt; show n.val / 512 < 16; omega⟩ (ix2 ⟨n.val % 512, Nat.mod_lt _ (by norm_num)⟩ q) := rfl

end Cert.KernelIdeal.Hand

end
-- ==== Proof.KIFinal2.lean ====
/-
  The second convolution pass, from blocks to arrays.

  Seven inputs — four of them 512-row blocks that move down their arrays with the grid point, three of them one block
  that is the whole array — and one result, written back by every point, 512 rows at a time. Point `t`'s blocks start
  at row `t * 512`; the sixteen result blocks tile the 8192 rows, and row `n` ends at row `n % 512` of what point
  `n / 512` computed from its input blocks.
  The relations between the windows' index maps and the grid point are decided once over the sixteen points; everything
  about the 8192 rows is arithmetic on a symbolic row.
-/
import proofs.«135952_g51264729645358_cont_sun_m_1122_19_alg».proof.Proof.KIRegion2
import proofs.«135952_g51264729645358_cont_sun_m_1122_19_alg».proof.Proof.KIBlocks
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

/-! ## The input windows' blocks, read at an index -/

/-- Window 0 of pass 2 moves down the rows: its block at point `t` starts at row `t * 512`, column 0. -/
theorem idx2_0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)

/-- The block of window 0 at point `t`, at row `r` and column `q`, is the array at row `t * 512 + r`, column `q`. -/
theorem iblk2_0_apply (c : Dev nD) (t : Fin cfg2.N) (r : Fin 512) (q : Fin 64) :
    iblk2 V c 0 t (ix2 r q)
      = V c (Pipeline.arrRef spec2 0)
          (ix2 ⟨t.val * 512 + r.val, by have ht : t.val < 16 := t.isLt; have hr := r.isLt; omega⟩ q) := by
  obtain ⟨e0, e1⟩ := idx2_0 t
  show V c (Pipeline.arrRef spec2 0) (((cfg2.win 0).blk t).view.emb (ix2 r q)) = _
  exact congrArg _ (funext fun a => Fin.ext (by
    match a with
    | ⟨0, _⟩ => show win2_0.index t (0 : Fin 2) * 512 + 1 * r.val = t.val * 512 + r.val; rw [e0]; omega
    | ⟨1, _⟩ => show win2_0.index t (1 : Fin 2) * 64 + 1 * q.val = q.val; rw [e1]; omega))

/-- Window 1 of pass 2 stays put: its one block is the whole array, at block index (0, 0) at every point. -/
theorem idx2_1 : ∀ t : Fin cfg2.N, win2_1.index t (0 : Fin 2) = 0 ∧ win2_1.index t (1 : Fin 2) = 0 :=
  (by decide +kernel : ∀ t : Fin grid2.N, win2_1.index t (0 : Fin 2) = 0 ∧ win2_1.index t (1 : Fin 2) = 0)

/-- The block of window 1 at every point is the whole array. -/
theorem iblk2_1_eq (c : Dev nD) (t : Fin cfg2.N) : iblk2 V c 1 t = V c (Pipeline.arrRef spec2 1) := by
  obtain ⟨e0, e1⟩ := idx2_1 t
  funext y
  show V c (Pipeline.arrRef spec2 1) (((cfg2.win 1).blk t).view.emb y) = V c (Pipeline.arrRef spec2 1) y
  exact congrArg _ (funext fun a => Fin.ext (by
    match a with
    | ⟨0, _⟩ => show win2_1.index t (0 : Fin 2) * 8192 + 1 * (y 0).val = (y 0).val; rw [e0]; omega
    | ⟨1, _⟩ => show win2_1.index t (1 : Fin 2) * 64 + 1 * (y 1).val = (y 1).val; rw [e1]; omega))

/-- Window 2 of pass 2 stays put: its one block is the whole array, at block index (0, 0) at every point. -/
theorem idx2_2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)

/-- The block of window 2 at every point is the whole array. -/
theorem iblk2_2_eq (c : Dev nD) (t : Fin cfg2.N) : iblk2 V c 2 t = V c (Pipeline.arrRef spec2 2) := by
  obtain ⟨e0, e1⟩ := idx2_2 t
  funext y
  show V c (Pipeline.arrRef spec2 2) (((cfg2.win 2).blk t).view.emb y) = V c (Pipeline.arrRef spec2 2) y
  exact congrArg _ (funext fun a => Fin.ext (by
    match a with
    | ⟨0, _⟩ => show win2_2.index t (0 : Fin 2) * 8192 + 1 * (y 0).val = (y 0).val; rw [e0]; omega
    | ⟨1, _⟩ => show win2_2.index t (1 : Fin 2) * 64 + 1 * (y 1).val = (y 1).val; rw [e1]; omega))

/-- Window 3 of pass 2 moves down the rows: its block at point `t` starts at row `t * 512`, column 0. -/
theorem idx2_3 : ∀ t : Fin cfg2.N, win2_3.index t (0 : Fin 2) = t.val ∧ win2_3.index t (1 : Fin 2) = 0 :=
  (by decide +kernel : ∀ t : Fin grid2.N, win2_3.index t (0 : Fin 2) = t.val ∧ win2_3.index t (1 : Fin 2) = 0)

/-- The block of window 3 at point `t`, at row `r` and column `q`, is the array at row `t * 512 + r`, column `q`. -/
theorem iblk2_3_apply (c : Dev nD) (t : Fin cfg2.N) (r : Fin 512) (q : Fin 64) :
    iblk2 V c 3 t (ix2 r q)
      = V c (Pipeline.arrRef spec2 3)
          (ix2 ⟨t.val * 512 + r.val, by have ht : t.val < 16 := t.isLt; have hr := r.isLt; omega⟩ q) := by
  obtain ⟨e0, e1⟩ := idx2_3 t
  show V c (Pipeline.arrRef spec2 3) (((cfg2.win 3).blk t).view.emb (ix2 r q)) = _
  exact congrArg _ (funext fun a => Fin.ext (by
    match a with
    | ⟨0, _⟩ => show win2_3.index t (0 : Fin 2) * 512 + 1 * r.val = t.val * 512 + r.val; rw [e0]; omega
    | ⟨1, _⟩ => show win2_3.index t (1 : Fin 2) * 64 + 1 * q.val = q.val; rw [e1]; omega))

/-- Window 4 of pass 2 moves down the rows: its block at point `t` starts at row `t * 512`, column 0. -/
theorem idx2_4 : ∀ t : Fin cfg2.N, win2_4.index t (0 : Fin 2) = t.val ∧ win2_4.index t (1 : Fin 2) = 0 :=
  (by decide +kernel : ∀ t : Fin grid2.N, win2_4.index t (0 : Fin 2) = t.val ∧ win2_4.index t (1 : Fin 2) = 0)

/-- The block of window 4 at point `t`, at row `r` and column `q`, is the array at row `t * 512 + r`, column `q`. -/
theorem iblk2_4_apply (c : Dev nD) (t : Fin cfg2.N) (r : Fin 512) (q : Fin 1) :
    iblk2 V c 4 t (ix2 r q)
      = V c (Pipeline.arrRef spec2 4)
          (ix2 ⟨t.val * 512 + r.val, by have ht : t.val < 16 := t.isLt; have hr := r.isLt; omega⟩ q) := by
  obtain ⟨e0, e1⟩ := idx2_4 t
  show V c (Pipeline.arrRef spec2 4) (((cfg2.win 4).blk t).view.emb (ix2 r q)) = _
  exact congrArg _ (funext fun a => Fin.ext (by
    match a with
    | ⟨0, _⟩ => show win2_4.index t (0 : Fin 2) * 512 + 1 * r.val = t.val * 512 + r.val; rw [e0]; omega
    | ⟨1, _⟩ => show win2_4.index t (1 : Fin 2) * 1 + 1 * q.val = q.val; rw [e1]; omega))

/-- Window 5 of pass 2 moves down the rows: its block at point `t` starts at row `t * 512`, column 0. -/
theorem idx2_5 : ∀ t : Fin cfg2.N, win2_5.index t (0 : Fin 2) = t.val ∧ win2_5.index t (1 : Fin 2) = 0 :=
  (by decide +kernel : ∀ t : Fin grid2.N, win2_5.index t (0 : Fin 2) = t.val ∧ win2_5.index t (1 : Fin 2) = 0)

/-- The block of window 5 at point `t`, at row `r` and column `q`, is the array at row `t * 512 + r`, column `q`. -/
theorem iblk2_5_apply (c : Dev nD) (t : Fin cfg2.N) (r : Fin 512) (q : Fin 64) :
    iblk2 V c 5 t (ix2 r q)
      = V c (Pipeline.arrRef spec2 5)
          (ix2 ⟨t.val * 512 + r.val, by have ht : t.val < 16 := t.isLt; have hr := r.isLt; omega⟩ q) := by
  obtain ⟨e0, e1⟩ := idx2_5 t
  show V c (Pipeline.arrRef spec2 5) (((cfg2.win 5).blk t).view.emb (ix2 r q)) = _
  exact congrArg _ (funext fun a => Fin.ext (by
    match a with
    | ⟨0, _⟩ => show win2_5.index t (0 : Fin 2) * 512 + 1 * r.val = t.val * 512 + r.val; rw [e0]; omega
    | ⟨1, _⟩ => show win2_5.index t (1 : Fin 2) * 64 + 1 * q.val = q.val; rw [e1]; omega))

/-- Window 6 of pass 2 stays put: its one block is the whole array, at block index (0, 0) at every point. -/
theorem idx2_6 : ∀ t : Fin cfg2.N, win2_6.index t (0 : Fin 2) = 0 ∧ win2_6.index t (1 : Fin 2) = 0 :=
  (by decide +kernel : ∀ t : Fin grid2.N, win2_6.index t (0 : Fin 2) = 0 ∧ win2_6.index t (1 : Fin 2) = 0)

/-- The block of window 6 at every point is the whole array. -/
theorem iblk2_6_eq (c : Dev nD) (t : Fin cfg2.N) : iblk2 V c 6 t = V c (Pipeline.arrRef spec2 6) := by
  obtain ⟨e0, e1⟩ := idx2_6 t
  funext y
  show V c (Pipeline.arrRef spec2 6) (((cfg2.win 6).blk t).view.emb y) = V c (Pipeline.arrRef spec2 6) y
  exact congrArg _ (funext fun a => Fin.ext (by
    match a with
    | ⟨0, _⟩ => show win2_6.index t (0 : Fin 2) * 1 + 1 * (y 0).val = (y 0).val; rw [e0]; omega
    | ⟨1, _⟩ => show win2_6.index t (1 : Fin 2) * 64 + 1 * (y 1).val = (y 1).val; rw [e1]; omega))

/-! ## The result windows' arrays after the pass -/

/-- Window 7 of pass 2 moves down the rows: its block at point `t` starts at row `t * 512`, column 0. -/
theorem idx2_7 : ∀ t : Fin cfg2.N, win2_7.index t (0 : Fin 2) = t.val ∧ win2_7.index t (1 : Fin 2) = 0 :=
  (by decide +kernel : ∀ t : Fin grid2.N, win2_7.index t (0 : Fin 2) = t.val ∧ win2_7.index t (1 : Fin 2) = 0)

/-- The result as one array: its `t`-th block of 512 rows is what point `t` of pass 2 leaves. -/
def R2 (c : Dev nD) : S8192x64.Idx → Elt F .f32 :=
  rowBlocks fun t => out2_7 (iblk2 V c 0 t) (iblk2 V c 1 t) (iblk2 V c 2 t) (iblk2 V c 3 t) (iblk2 V c 4 t) (iblk2 V c 5 t) (iblk2 V c 6 t)

/-- What point `t` writes back is block `t` of that array. -/
theorem flushed2_7_eq (c : Dev nD) (t : Fin cfg2.N) :
    (dat2 V c).flushed 7 t = ((cfg2.win 7).blk t).view.read (Elt F) (R2 V c) := by
  show (cfg2.win 7).cut (grid2.coords t) ((dat2 V c).after 7 t) = _
  rw [after2_7]
  obtain ⟨e0, e1⟩ := idx2_7 t
  funext j
  show (out2_7 (iblk2 V c 0 t) (iblk2 V c 1 t) (iblk2 V c 2 t) (iblk2 V c 3 t) (iblk2 V c 4 t) (iblk2 V c 5 t) (iblk2 V c 6 t)) ((cfg2.win 7).xinj (grid2.coords t) j) = R2 V c (((cfg2.win 7).blk t).view.emb j)
  refine (rowBlocks_of_coords (fun t => out2_7 (iblk2 V c 0 t) (iblk2 V c 1 t) (iblk2 V c 2 t) (iblk2 V c 3 t) (iblk2 V c 4 t) (iblk2 V c 5 t) (iblk2 V c 6 t))
    (((cfg2.win 7).blk t).view.emb j) t ((cfg2.win 7).xinj (grid2.coords t) j) ?_ ?_).symm
  · show win2_7.index t (0 : Fin 2) * 512 + 1 * (j 0).val = t.val * 512 + (j 0).val
    rw [e0]; omega
  · show win2_7.index t (1 : Fin 2) * 64 + 1 * (j 1).val = (j 1).val
    rw [e1]; omega

/-- An index of the array is in point `t`'s block of window 7 iff each coordinate is in the block's range on its axis. -/
theorem mem_blk2_7 (t : Fin cfg2.N) (i : S8192x64.Idx) :
    i ∈ ((cfg2.win 7).blk t).view.set ↔ ∀ a : Fin 2, win2_7.index t a * S512x64.size a ≤ (i a).val
      ∧ (i a).val < win2_7.index t a * S512x64.size a + S512x64.size a := by
  show i ∈ ((View.whole main_call0_v5).slice (win2_7.rect t)).set ↔ _
  rw [View.set_slice_whole, Rect.mem_set_unit]
  exact Iff.rfl

/-- Row `n` of the array is in the block of point `n / 512`, and every point writes its block back. -/
theorem cover2_7_arr (i : S8192x64.Idx) :
    ∃ t : Fin cfg2.N, (cfg2.win 7).flush t = true ∧ i ∈ ((cfg2.win 7).blk t).view.set := by
  have hi0 : (i 0).val < 8192 := (i 0).isLt
  have hi1 : (i 1).val < 64 := (i 1).isLt
  have hlt : (i 0).val / 512 < 16 := by omega
  obtain ⟨e0, e1⟩ := idx2_7 ⟨(i 0).val / 512, hlt⟩
  refine ⟨⟨(i 0).val / 512, hlt⟩, flush2_7 _, ?_⟩
  rw [mem_blk2_7]
  intro a
  match a with
  | ⟨0, _⟩ =>
    show win2_7.index ⟨(i 0).val / 512, hlt⟩ (0 : Fin 2) * 512 ≤ (i 0).val
      ∧ (i 0).val < win2_7.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win2_7.index ⟨(i 0).val / 512, hlt⟩ (1 : Fin 2) * 64 ≤ (i 1).val
      ∧ (i 1).val < win2_7.index ⟨(i 0).val / 512, hlt⟩ (1 : Fin 2) * 64 + 64
    rw [e1]; omega

/-- After the pass the array of window 7 holds the result, block by block. -/
theorem final2_7 (c : Dev nD) : (dat2 V c).arrAt 7 cfg2.N = R2 V c :=
  (dat2 V c).arrAt_eq_of_cover 7 (R2 V c) (fun t _ => flushed2_7_eq V c t) cover2_7_arr

/-- Read at row `n`, column `q`: the entry of the block that point `n / 512` left, at row `n % 512`. -/
theorem final2_7_apply (c : Dev nD) (n : Fin 8192) (q : Fin 64) :
    R2 V c (ix2 n q)
      = (fun t => out2_7 (iblk2 V c 0 t) (iblk2 V c 1 t) (iblk2 V c 2 t) (iblk2 V c 3 t) (iblk2 V c 4 t) (iblk2 V c 5 t) (iblk2 V c 6 t)) ⟨n.val / 512, by have h := n.isLt; show n.val / 512 < 16; omega⟩ (ix2 ⟨n.val % 512, Nat.mod_lt _ (by norm_num)⟩ q) := rfl

end Cert.KernelIdeal.Hand

end
-- ==== Proof.KIFinal.lean ====
/-
  The three passes' result arrays after each pass, and their input blocks read at an index: one import for all three.
-/
import proofs.«135952_g51264729645358_cont_sun_m_1122_19_alg».proof.Proof.KIFinal0
import proofs.«135952_g51264729645358_cont_sun_m_1122_19_alg».proof.Proof.KIFinal1
import proofs.«135952_g51264729645358_cont_sun_m_1122_19_alg».proof.Proof.KIFinal2
-- ==== Proof.LibColumns.lean ====
/-
  Re-layouts of small ranks read at an index, in the style of the value library's own lemmas: a block with two
  leading unit axes viewed as a matrix and back, a vector made a column, a column broadcast over the columns of a
  matrix, and a row sum of a matrix at the ideal values as a plain sum over the row.
-/
import Idealize.ShloMosaic.Lib.ValueLayout
import Idealize.ShloMosaic.PureOps.Ideal.Laws

namespace Idealize.ShloMosaic.ValueIdx

open Idealize.ShloMosaic

variable {α : Type}

/-- A `[1, 1, a, b]` block viewed `[a, b]` reads, at `(p, q)`, the block at `(0, 0, p, q)`. -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp)

/-- An `[a, b]` matrix stored as a `[1, 1, a, b]` block reads, at `(u, v, p, q)`, the matrix at `(p, q)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (p : Fin a) (q : Fin b) :
    shapeCast ⟨4, ![1, 1, a, b]⟩ x h (ix4 u v p q) = x (ix2 p q) :=
  shapeCast_apply x h _ _ (by
    have hu : u.val = 0 := by omega
    have hv : v.val = 0 := by omega
    rw [Shape.rowMajor_val_four, Shape.rowMajor_val_two]
    show p.val * b + q.val = ((u.val * 1 + v.val) * a + p.val) * b + q.val
    rw [hu, hv]; simp)

/-- An `[a]` vector made a column `[a, 1]` reads, at `(p, z)`, the vector at `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz]; simp)

/-- A column `[a, 1]` broadcast to `[a, b]` reads, at `(p, q)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- At the ideal values the sum of a matrix along its rows is, at row `p`, the plain sum of the row's entries. -/
theorem rowSum_apply {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ X acc h hφ hacc (ix1 p) = ∑ k : Fin b, X (ix2 p k) :=
  (Ideal.multiReduction_add_single X acc h hφ hacc (ix1 p)).trans
    (Finset.sum_congr rfl fun k _ => congrArg X (funext fun ax => Fin.ext (by
      match ax with
      | ⟨0, _⟩ => rfl
      | ⟨1, _⟩ => rfl)))

/-- At the ideal values the maximum of a matrix along its rows is, at row `p`, the fold of `max` over the row from the
    initial word's value. -/
theorem rowMax_apply {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ X acc h hφ hacc (ix1 p)
      = (Finset.univ : Finset (Fin b)).fold max (Ideal.ofBits φ acc) fun k => X (ix2 p k) :=
  (Ideal.multiReduction_maximumf_single X acc h hφ hacc (ix1 p)).trans
    (congrArg (Finset.fold max (Ideal.ofBits φ acc) · Finset.univ) (funext fun k => congrArg X (funext fun ax => Fin.ext (by
      match ax with
      | ⟨0, _⟩ => rfl
      | ⟨1, _⟩ => rfl))))

end Idealize.ShloMosaic.ValueIdx
-- ==== Proof.LibPlainDot.lean ====
/-
  A plain matrix product [M, K] × [K, N] → [M, N] (no batch axis, the left operand's axis 1 contracted with the right
  operand's axis 0), read at an index over the extended reals: the entry (r, q) is the sum over k of lhs (r, k) · rhs (k, q),
  for a kernel's `tpu.matmul` into a zero accumulator and for the host's `dot_general` alike. Stated for any M, K, N and any
  operand formats, over the library's dimension numbers `DotDims.plain`; a printed record with the same fields is that by `rfl`.
-/
import Idealize.ShloMosaic.PureOps.Ideal.Laws
import Idealize.ShloMosaic.Lib.ValueIdx

namespace Idealize.ShloMosaic.LibPlainDot

open Idealize.ShloMosaic.ValueIdx

variable {φ₁ φ₂ : FTy}

/-- The left operand's index at output (r, q) and contraction coordinate k is (r, k). -/
theorem plain_lhsIdx (M K N : Nat) (r : Fin M) (q : Fin N) (k : Fin K) :
    (DotDims.plain M K N).lhsIdx (ix2 r q) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r q) _).trans hk

/-- The right operand's index at output (r, q) and contraction coordinate k is (k, q). -/
theorem plain_rhsIdx (M K N : Nat) (r : Fin M) (q : Fin N) (k : Fin K) :
    (DotDims.plain M K N).rhsIdx (ix2 r q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 r q) _).trans hk
  | ⟨1, _⟩ => rfl

/-- A kernel's matrix product into a zero accumulator, at (r, q): the sum over k of lhs (r, k) · rhs (k, q). -/
theorem matmul_plain_apply (M K N : Nat) (prec : Option ContractPrecision)
    (lhs : FVec Ideal ⟨2, ![M, K]⟩ φ₁) (rhs : FVec Ideal ⟨2, ![K, N]⟩ φ₂) (r : Fin M) (q : Fin N) :
    FloatOps.matmul (DotDims.plain M K N) prec lhs rhs (constant ⟨2, ![M, N]⟩ .f32 0x00000000#32) (ix2 r q)
      = ∑ k : Fin K, lhs (ix2 r k) * rhs (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's `dot_general` of the same dimension numbers, at (r, q): the same sum. -/
theorem dotGeneral_plain_apply (M K N : Nat) (prec : Option ContractPrecision) (sched : HostSchedule)
    (lhs : FVec Ideal ⟨2, ![M, K]⟩ φ₁) (rhs : FVec Ideal ⟨2, ![K, N]⟩ φ₂) (r : Fin M) (q : Fin N) :
    FloatOps.dotGeneral (DotDims.plain M K N) prec sched lhs rhs (ix2 r q)
      = ∑ k : Fin K, lhs (ix2 r k) * rhs (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Idealize.ShloMosaic.LibPlainDot
-- ==== Proof.LibDotRhsT.lean ====
/-
  A matrix product with the right operand given by rows, [M, K] × [N, K] → [M, N] (no batch axis, axis 1 of BOTH operands
  contracted), read at an index over the extended reals: the entry (r, q) is the sum over k of lhs (r, k) · rhs (q, k),
  for a kernel's matrix product into a zero accumulator and for the host's general dot product alike. Stated for any M, K, N and any
  operand formats, over the library's dimension numbers `DotDims.transposedRhs`; a printed record with the same fields is
  that by `rfl`.
-/
import Idealize.ShloMosaic.PureOps.Ideal.Laws
import Idealize.ShloMosaic.Lib.ValueIdx

namespace Idealize.ShloMosaic.LibDotRhsT

open Idealize.ShloMosaic.ValueIdx

variable {φ₁ φ₂ : FTy}

/-- The left operand's index at output (r, q) and contraction coordinate k is (r, k). -/
theorem rhsT_lhsIdx (M K N : Nat) (r : Fin M) (q : Fin N) (k : Fin K) :
    (DotDims.transposedRhs M K N).lhsIdx (ix2 r q) ((contrEquiv1 (DotDims.transposedRhs M K N) K rfl rfl).symm k) = ix2 r k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl (ix2 r q) _).trans hk

/-- The right operand's index at output (r, q) and contraction coordinate k is (q, k). -/
theorem rhsT_rhsIdx (M K N : Nat) (r : Fin M) (q : Fin N) (k : Fin K) :
    (DotDims.transposedRhs M K N).rhsIdx (ix2 r q) ((contrEquiv1 (DotDims.transposedRhs M K N) K rfl rfl).symm k) = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl (ix2 r q) _).trans hk

/-- A kernel's product with a row-given right operand into a zero accumulator, at (r, q): the sum over k of
    lhs (r, k) · rhs (q, k). -/
theorem matmul_rhsT_apply (M K N : Nat) (prec : Option ContractPrecision)
    (lhs : FVec Ideal ⟨2, ![M, K]⟩ φ₁) (rhs : FVec Ideal ⟨2, ![N, K]⟩ φ₂) (r : Fin M) (q : Fin N) :
    FloatOps.matmul (DotDims.transposedRhs M K N) prec lhs rhs (constant ⟨2, ![M, N]⟩ .f32 0x00000000#32) (ix2 r q)
      = ∑ k : Fin K, lhs (ix2 r k) * rhs (ix2 q k) := by
  rw [Ideal.matmul_constant_zero_apply, ← Equiv.sum_comp (contrEquiv1 (DotDims.transposedRhs M K N) K rfl rfl).symm]
  refine Finset.sum_congr rfl fun k _ => ?_
  rw [rhsT_lhsIdx, rhsT_rhsIdx]

/-- The host's general dot product of the same dimension numbers, at (r, q): the same sum. -/
theorem dotGeneral_rhsT_apply (M K N : Nat) (prec : Option ContractPrecision) (sched : HostSchedule)
    (lhs : FVec Ideal ⟨2, ![M, K]⟩ φ₁) (rhs : FVec Ideal ⟨2, ![N, K]⟩ φ₂) (r : Fin M) (q : Fin N) :
    FloatOps.dotGeneral (DotDims.transposedRhs M K N) prec sched lhs rhs (ix2 r q)
      = ∑ k : Fin K, lhs (ix2 r k) * rhs (ix2 q k) := by
  rw [Ideal.dotGeneral_apply, ← Equiv.sum_comp (contrEquiv1 (DotDims.transposedRhs M K N) K rfl rfl).symm]
  refine Finset.sum_congr rfl fun k _ => ?_
  rw [rhsT_lhsIdx, rhsT_rhsIdx]

end Idealize.ShloMosaic.LibDotRhsT
-- ==== Proof.PayDeg.lean ====
/-
  The degree pass's payloads read at an index at the extended reals, as plain arithmetic: the row-normalised features,
  the projected features, and per block of 512 rows the row sums of the thresholded similarities plus one. Also the
  adjacency mask `mask` every pass shares, and the masked aggregation both convolution passes use.
-/
import proofs.«135952_g51264729645358_cont_sun_m_1122_19_alg».proof.Proof.Gen.KernelIdeal.Skeleton
import proofs.«135952_g51264729645358_cont_sun_m_1122_19_alg».proof.Proof.LibColumns
import proofs.«135952_g51264729645358_cont_sun_m_1122_19_alg».proof.Proof.LibPlainDot
import proofs.«135952_g51264729645358_cont_sun_m_1122_19_alg».proof.Proof.LibDotRhsT
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## Pointwise roots read at an index (definitional at the extended reals) -/

/-- A square root of a vector reads, at an index, the root of the element. -/
theorem sqrt_apply {s : Shape} {φ : FTy} (a : FVec Ideal s φ) (i : s.Idx) : sqrt a i = Ideal.sqrt (a i) := rfl
/-- A reciprocal square root of a vector reads, at an index, that of the element. -/
theorem rsqrt_apply {s : Shape} {φ : FTy} (a : FVec Ideal s φ) (i : s.Idx) : rsqrt a i = Ideal.rsqrt (a i) := rfl

/-! ## The adjacency mask -/

/-- The mask of a similarity `s`: the real `1` when `s` exceeds the threshold (kept as its word, never evaluated),
    the real `0` otherwise. -/
def mask (s : EReal) : EReal := if Ideal.ofBits .f32 0x3F59999A#32 < s then 1 else 0

/-- The mask is `0` or `1`. -/
theorem mask_eq_zero_or_one (s : EReal) : mask s = 0 ∨ mask s = 1 := by
  unfold mask
  split
  · exact Or.inr rfl
  · exact Or.inl rfl

/-- What the comparison "greater than the threshold", widened to 32 bits and converted to a float, is at the extended
    reals: the mask. -/
theorem mask_word (s : EReal) :
    FloatOps.sitofp (F := Ideal) .f32
      (BitVec.setWidth 32 (FloatOps.cmpf (F := Ideal) (φ := .f32) .ogt s (FloatOps.ofBits (F := Ideal) .f32 0x3F59999A#32)))
      = mask s := by
  show (((BitVec.setWidth 32 (Ideal.cmp .ogt s (Ideal.ofBits .f32 0x3F59999A#32))).toInt : ℝ) : EReal) = mask s
  unfold Ideal.cmp mask
  by_cases h : Ideal.ofBits .f32 0x3F59999A#32 < s
  · have e : (BitVec.setWidth 32 (BitVec.ofBool true)).toInt = 1 := by decide
    rw [if_pos h]
    simp only [h, decide_true, e]
    norm_num
  · have e : (BitVec.setWidth 32 (BitVec.ofBool false)).toInt = 0 := by decide
    rw [if_neg h]
    simp only [h, decide_false, e]
    norm_num

/-! ## The degree pass -/

/-- A re-layout of an array to its own shape is the array. -/
theorem k0_pay1_eq (v : FVec Ideal S8192x64 .f32) : Gen.k0_pay1 (F := Ideal) v = v := by
  unfold Gen.k0_pay1
  exact shapeCast_self v _

/-- The projected features at `(n, q)`: the plain matrix product `∑ k, v (n, k) · w (k, q)` (into a zero accumulator,
    so no initial term). -/
theorem k0_pay4_apply (v : FVec Ideal S8192x64 .f32) (w : FVec Ideal S64x64 .f32) (n : Fin 8192) (q : Fin 64) :
    Gen.k0_pay4 (F := Ideal) v w (ix2 n q) = ∑ k : Fin 64, v (ix2 n k) * w (ix2 k q) := by
  unfold Gen.k0_pay4
  rw [k0_pay1_eq]
  exact LibPlainDot.matmul_plain_apply 8192 64 64 (some .fp32) v w n q

/-- The row-normalised features at `(n, q)`: `v (n, q)` divided by the larger of the root of the row's sum of squares
    and the small constant (kept as its word). The sum of squares is the plain sum `∑ k, v (n, k) · v (n, k)` over the 64
    lanes, with no initial term (the lane sum starts from the additive neutral). -/
theorem k0_pay2_apply (v : FVec Ideal S8192x64 .f32) (n : Fin 8192) (q : Fin 64) :
    Gen.k0_pay2 (F := Ideal) v (ix2 n q)
      = Ideal.div (v (ix2 n q))
          (max (Ideal.sqrt (∑ k : Fin 64, v (ix2 n k) * v (ix2 n k))) (Ideal.ofBits .f32 0x2B8CBCCC#32)) := by
  have hsum : shapeCast S8192x1 (multiReduction (F := Ideal) .add [1] S8192 (mulf v v) 0x00000000#32 reduces_S8192x64_S8192 (.inl rfl) rfl)
        shapeCasts_S8192_S8192x1 (ix2 n (0 : Fin 1)) = ∑ k : Fin 64, v (ix2 n k) * v (ix2 n k) :=
    (shapeCast_a_a1_apply _ _ n 0).trans (rowSum_apply (mulf v v) _ _ _ _ n)
  unfold Gen.k0_pay2
  rw [k0_pay1_eq]
  simp only [truncf_apply, divf_apply]
  rw [broadcastTo_a1_ab_apply]
  simp only [maximumf_apply, broadcast_apply, sqrt_apply]
  rw [hsum]
  rfl

/-- The copy of the row-normalised features kept for the later passes is the same array (a re-layout to its own
    shape). -/
theorem k0_pay3_eq (v : FVec Ideal S8192x64 .f32) : Gen.k0_pay3 (F := Ideal) v = Gen.k0_pay2 (F := Ideal) v := by
  unfold Gen.k0_pay3
  exact shapeCast_self _ _

/-- So it reads the same at `(n, q)`. -/
theorem k0_pay3_apply (v : FVec Ideal S8192x64 .f32) (n : Fin 8192) (q : Fin 64) :
    Gen.k0_pay3 (F := Ideal) v (ix2 n q)
      = Ideal.div (v (ix2 n q))
          (max (Ideal.sqrt (∑ k : Fin 64, v (ix2 n k) * v (ix2 n k))) (Ideal.ofBits .f32 0x2B8CBCCC#32)) := by
  rw [k0_pay3_eq]
  exact k0_pay2_apply v n q

/-- The similarity of row `r` of a block with row `j` of the whole array: `∑ k, a (r, k) · b (j, k)` (axis 1 of both
    operands contracted, into a zero accumulator). -/
theorem sim_apply (a : FVec Ideal S512x64 .bf16) (b : FVec Ideal S8192x64 .bf16) (r : Fin 512) (j : Fin 8192) :
    matmul (F := Ideal) dot_S512x64_S8192x64_S512x8192_1_1_0_0_n_n none a b (constant S512x8192 .f32 0x00000000#32) (ix2 r j)
      = ∑ k : Fin 64, a (ix2 r k) * b (ix2 j k) :=
  LibDotRhsT.matmul_rhsT_apply 512 64 8192 none a b r j

/-- The thresholded similarity at `(r, j)`, as a float: the mask of the similarity. -/
theorem simMask_apply (a : FVec Ideal S512x64 .bf16) (b : FVec Ideal S8192x64 .bf16) (r : Fin 512) (j : Fin 8192) :
    sitofp (F := Ideal) .f32
        (extui 32 (cmpf .ogt (matmul (F := Ideal) dot_S512x64_S8192x64_S512x8192_1_1_0_0_n_n none a b (constant S512x8192 .f32 0x00000000#32))
          (broadcast S512x8192 (Scalar.ofBits (F := Ideal) .f32 0x3F59999A#32))) natLt_1_32) (ix2 r j)
      = mask (∑ k : Fin 64, a (ix2 r k) * b (ix2 j k)) := by
  rw [sitofp_apply, extui_apply, cmpf_apply, broadcast_apply, sim_apply]
  exact mask_word _

/-- The degree of row `r` of a block, at `(r, z)` of the one-column result: the plain sum over all 8192 rows `j` of the
    mask of the similarity `∑ k, a (r, k) · b (j, k)` (no initial term: the lane sum starts from the additive neutral),
    plus the constant one (kept as its word). -/
theorem k0_pay5_apply (a : FVec Ideal S512x64 .bf16) (b : FVec Ideal S8192x64 .bf16) (r : Fin 512) (z : Fin 1) :
    Gen.k0_pay5 (F := Ideal) a b (ix2 r z)
      = (∑ j : Fin 8192, mask (∑ k : Fin 64, a (ix2 r k) * b (ix2 j k))) + Ideal.ofBits .f32 0x3F800000#32 := by
  unfold Gen.k0_pay5
  simp only [addf_apply, broadcast_apply]
  refine congrArg (· + Ideal.ofBits .f32 0x3F800000#32) ?_
  refine (shapeCast_a_a1_apply _ _ r z).trans ?_
  refine (rowSum_apply _ _ _ _ _ r).trans ?_
  exact Finset.sum_congr rfl fun j _ => simMask_apply a b r j

/-! ## The masked aggregation shared by the two convolution passes -/

/-- The mask matrix (narrowed to the short float format, the identity at the extended reals) times an array `y` of rows,
    into a zero accumulator, at `(r, q)`: `∑ j, mask (∑ k, a (r, k) · b (j, k)) · y (j, q)` over all 8192 rows `j`. -/
theorem agg_apply (a : FVec Ideal S512x64 .bf16) (b : FVec Ideal S8192x64 .bf16) (y : FVec Ideal S8192x64 .bf16)
    (r : Fin 512) (q : Fin 64) :
    matmul (F := Ideal) dot_S512x8192_S8192x64_S512x64_1_0_0_1_n_n none
        (truncf .bf16 (sitofp (F := Ideal) .f32
          (extui 32 (cmpf .ogt (matmul (F := Ideal) dot_S512x64_S8192x64_S512x8192_1_1_0_0_n_n none a b (constant S512x8192 .f32 0x00000000#32))
            (broadcast S512x8192 (Scalar.ofBits (F := Ideal) .f32 0x3F59999A#32))) natLt_1_32)) bitsLt_bf16_f32)
        y (constant S512x64 .f32 0x00000000#32) (ix2 r q)
      = ∑ j : Fin 8192, mask (∑ k : Fin 64, a (ix2 r k) * b (ix2 j k)) * y (ix2 j q) := by
  refine (LibPlainDot.matmul_plain_apply 512 8192 64 none _ y r q).trans ?_
  exact Finset.sum_congr rfl fun j _ => congrArg (· * y (ix2 j q)) (simMask_apply a b r j)

end Cert.KernelIdeal.Pay
-- ==== Proof.KIPieces0.lean ====
/-
  The degree pass: what each case of the body leaves in each buffer is the payload of what it read, and at the extended
  reals each such payload read at an index as plain arithmetic.
-/
import proofs.«135952_g51264729645358_cont_sun_m_1122_19_alg».proof.Proof.KIRegion0
import proofs.«135952_g51264729645358_cont_sun_m_1122_19_alg».proof.Proof.PayDeg
import Idealize.ShloMosaic.Lib.Pipeline.Value

set_option maxRecDepth 16384

noncomputable section

namespace Cert.KernelIdeal.Hand

open Cert.KernelIdeal Cert.KernelIdeal.Gen Cert.KernelIdeal.Pay
open Idealize.ShloMosaic Idealize.ShloMosaic.TcCoe Idealize.ShloMosaic.Tactic Idealize.ShloMosaic.ValueIdx
open Idealize.SL Idealize.SL.Sem

/-- The zero offsets of a rank-2 rectangle, however spelt. -/
theorem hz0 : (![0, 0] : Fin 2 → Nat) = fun _ => 0 := funext fun a => by fin_cases a <;> rfl

section Generic
variable {F : FTy → Type} [FloatOps F]

/-- The 512 rows of an 8192-row array a grid point reads: rows `[off, off + 512)` at the point's row offset. -/
abbrev rowsAt (i : grid0.Coords) : Rect S8192x64 := Rect.unit (s := S8192x64) (k0_off1 i) S512x64.size (k0_off1_inb i)

/-- FIRST POINT. The scratch is left holding the payload of the input rows: the normalised rows. -/
theorem sout0_A_eq (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : cond0 i) (x0 : Vec F S8192x64 .f32) (x1 : Vec F S64x64 .f32) :
    sout0_A c i arg1 harg1 arg2 harg2 arg3 harg3 arg4 harg4 arg5 harg5 arg6 harg6 hc x0 x1 = k0_pay3 x0 := by
  unfold sout0_A
  rw [View.read_writes_eq_canon _ _ _ (scover0_A c i arg1 harg1 arg2 harg2 arg3 harg3 arg4 harg4 arg5 harg5 arg6 harg6 hc x0 x1)]
  unfold kernelRun0_A
  dsimp only
  sl_unfold_words
  rw [View.canon_unit_zero hz0]
  simp only [View.readAt_eq_ld, harg1.read_unread, View.ld_unit_zero (S := S8192x64) hz0]

/-- FIRST POINT. The first result's buffer is left holding the normalised rows. -/
theorem out0_A_2_eq (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : cond0 i) (x0 : Vec F S8192x64 .f32) (x1 : Vec F S64x64 .f32) :
    out0_A_2 c i arg1 harg1 arg2 harg2 arg3 harg3 arg4 harg4 arg5 harg5 arg6 harg6 hc x0 x1 = k0_pay2 x0 := by
  unfold out0_A_2
  rw [View.read_writes_eq_canon _ _ _ (cover0_A_2 c i arg1 harg1 arg2 harg2 arg3 harg3 arg4 harg4 arg5 harg5 arg6 harg6 hc x0 x1)]
  unfold kernelRun0_A
  dsimp only
  sl_unfold_words
  rw [View.canon_unit_zero hz0]
  simp only [View.readAt_eq_ld, harg1.read_unread, View.ld_unit_zero (S := S8192x64) hz0]

/-- FIRST POINT. The third result's buffer is left holding the projected features of the input rows. -/
theorem out0_A_4_eq (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : cond0 i) (x0 : Vec F S8192x64 .f32) (x1 : Vec F S64x64 .f32) :
    out0_A_4 c i arg1 harg1 arg2 harg2 arg3 harg3 arg4 harg4 arg5 harg5 arg6 harg6 hc x0 x1 = k0_pay4 x0 x1 := by
  unfold out0_A_4
  rw [View.read_writes_eq_canon _ _ _ (cover0_A_4 c i arg1 harg1 arg2 harg2 arg3 harg3 arg4 harg4 arg5 harg5 arg6 harg6 hc x0 x1)]
  unfold kernelRun0_A
  dsimp only
  sl_unfold_words
  rw [View.canon_unit_zero hz0]
  simp only [View.readAt_eq_ld, harg1.read_unread, harg2.read_unread, View.ld_unit_zero (S := S8192x64) hz0,
    View.ld_unit_zero (S := S64x64) hz0]

/-- FIRST POINT. The block of degrees is the degree payload of the normalised rows just written to the scratch: of the
    512 of them at the point's row offset, against all of them. -/
theorem out0_A_3_eq (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : cond0 i) (x0 : Vec F S8192x64 .f32) (x1 : Vec F S64x64 .f32) :
    out0_A_3 c i arg1 harg1 arg2 harg2 arg3 harg3 arg4 harg4 arg5 harg5 arg6 harg6 hc x0 x1 = k0_pay5 (View.ld (k0_pay3 x0) (rowsAt i)) (k0_pay3 x0) := by
  unfold out0_A_3
  rw [View.read_writes_eq_canon _ _ _ (cover0_A_3 c i arg1 harg1 arg2 harg2 arg3 harg3 arg4 harg4 arg5 harg5 arg6 harg6 hc x0 x1)]
  unfold kernelRun0_A
  dsimp only
  sl_unfold_words
  rw [View.canon_unit_zero (S := S512x1) hz0, View.readCov_unit_zero (S := S8192x64) _ hz0]
  simp only [View.readAt_eq_ld]
  rw [View.read_writes_eq_canon _ _ _ (fun y => ⟨_, List.mem_singleton_self _, View.mem_set_unit_zero hz0 inb_S8192x64_S8192x64_0_0 y⟩),
    View.canon_unit_zero hz0]
  simp only [harg1.read_unread, View.ld_unit_zero (S := S8192x64) hz0]
  rfl

/-- A LATER POINT. The block of degrees is the degree payload of the scratch's rows `xs`: of the 512 of them at the
    point's row offset, against all of them. -/
theorem out0_B_3_eq (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : ¬cond0 i) (xs : Vec F S8192x64 .bf16) :
    out0_B_3 c i arg1 harg1 arg2 harg2 arg3 harg3 arg4 harg4 arg5 harg5 arg6 harg6 hc xs = k0_pay5 (View.ld xs (rowsAt i)) xs := by
  unfold out0_B_3
  rw [View.read_writes_eq_canon _ _ _ (cover0_B_3 c i arg1 harg1 arg2 harg2 arg3 harg3 arg4 harg4 arg5 harg5 arg6 harg6 hc xs)]
  unfold kernelRun0_B
  dsimp only
  sl_unfold_words
  rw [View.canon_unit_zero (S := S512x1) hz0]
  simp only [View.readAt_eq_ld, harg6.read_unread, View.ld_unit_zero (S := S8192x64) hz0]
  rfl

end Generic

/-! ## The pieces read at an index at the extended reals -/

/-- A row of the 512 a grid point reads is the array's row at the point's offset: with `R = 512 · i + r`,
    the block at `(r, k)` is the array at `(R, k)`. -/
theorem ld_rowsAt {α : Type} (xs : S8192x64.Idx → α) (i : grid0.Coords) (r : Fin 512) (k : Fin 64) (R : Fin 8192)
    (hR : R.val = 512 * (i 0).val + r.val) :
    (fun y => xs ((rowsAt i).idx y)) (ix2 r k) = xs (ix2 R k) := by
  refine congrArg xs (funext fun a => Fin.ext ?_)
  match a with
  | ⟨0, _⟩ =>
    show (k0_off1 i) 0 + 1 * r.val = R.val
    rw [k0_off1_eq]
    show 512 * (i 0).val + 1 * r.val = R.val
    omega
  | ⟨1, _⟩ =>
    show (k0_off1 i) 1 + 1 * k.val = k.val
    rw [k0_off1_eq]
    show 0 + 1 * k.val = k.val
    omega

/-- The degree payload of rows `xs` at a grid point, at `(r, z)` of the one-column block, with `R = 512 · i + r` the row
    in the whole array: `(∑ j, mask (∑ k, xs (R, k) · xs (j, k))) + one` over all 8192 rows `j` (one kept as its word). -/
theorem k0_pay5_rowsAt_apply (xs : FVec Ideal S8192x64 .bf16) (i : grid0.Coords) (r : Fin 512) (z : Fin 1) (R : Fin 8192)
    (hR : R.val = 512 * (i 0).val + r.val) :
    k0_pay5 (F := Ideal) (View.ld (Val := Elt Ideal) (e' := .bf16) xs (rowsAt i)) xs (ix2 r z)
      = (∑ j : Fin 8192, mask (∑ k : Fin 64, xs (ix2 R k) * xs (ix2 j k))) + Ideal.ofBits .f32 0x3F800000#32 := by
  refine (k0_pay5_apply (fun y : S512x64.Idx => xs ((rowsAt i).idx y)) xs r z).trans ?_
  refine congrArg (· + Ideal.ofBits .f32 0x3F800000#32) ?_
  refine Finset.sum_congr rfl fun j _ => congrArg mask ?_
  exact Finset.sum_congr rfl fun k _ => congrArg (· * xs (ix2 j k)) (ld_rowsAt xs i r k R hR)

/-- FIRST POINT, at `(n, q)`: the scratch holds the normalised rows. -/
theorem sout0_A_apply (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : cond0 i) (x0 : FVec Ideal S8192x64 .f32) (x1 : FVec Ideal S64x64 .f32)
    (n : Fin 8192) (q : Fin 64) :
    sout0_A (F := Ideal) c i arg1 harg1 arg2 harg2 arg3 harg3 arg4 harg4 arg5 harg5 arg6 harg6 hc x0 x1 (ix2 n q)
      = Ideal.div (x0 (ix2 n q))
          (max (Ideal.sqrt (∑ k : Fin 64, x0 (ix2 n k) * x0 (ix2 n k))) (Ideal.ofBits .f32 0x2B8CBCCC#32)) := by
  rw [sout0_A_eq]
  exact k0_pay3_apply x0 n q

/-- FIRST POINT, at `(n, q)`: the first result's buffer holds the normalised rows. -/
theorem out0_A_2_apply (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : cond0 i) (x0 : FVec Ideal S8192x64 .f32) (x1 : FVec Ideal S64x64 .f32)
    (n : Fin 8192) (q : Fin 64) :
    out0_A_2 (F := Ideal) c i arg1 harg1 arg2 harg2 arg3 harg3 arg4 harg4 arg5 harg5 arg6 harg6 hc x0 x1 (ix2 n q)
      = Ideal.div (x0 (ix2 n q))
          (max (Ideal.sqrt (∑ k : Fin 64, x0 (ix2 n k) * x0 (ix2 n k))) (Ideal.ofBits .f32 0x2B8CBCCC#32)) := by
  rw [out0_A_2_eq]
  exact k0_pay2_apply x0 n q

/-- FIRST POINT, at `(n, q)`: the third result's buffer holds the projected features. -/
theorem out0_A_4_apply (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : cond0 i) (x0 : FVec Ideal S8192x64 .f32) (x1 : FVec Ideal S64x64 .f32)
    (n : Fin 8192) (q : Fin 64) :
    out0_A_4 (F := Ideal) c i arg1 harg1 arg2 harg2 arg3 harg3 arg4 harg4 arg5 harg5 arg6 harg6 hc x0 x1 (ix2 n q) = ∑ k : Fin 64, x0 (ix2 n k) * x1 (ix2 k q) := by
  rw [out0_A_4_eq]
  exact k0_pay4_apply x0 x1 n q

/-- FIRST POINT, at `(r, z)`, with `R = 512 · i + r`: the degree of row `R` from the normalised rows `k0_pay3 x0`. -/
theorem out0_A_3_apply (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : cond0 i) (x0 : FVec Ideal S8192x64 .f32) (x1 : FVec Ideal S64x64 .f32)
    (r : Fin 512) (z : Fin 1) (R : Fin 8192) (hR : R.val = 512 * (i 0).val + r.val) :
    out0_A_3 (F := Ideal) c i arg1 harg1 arg2 harg2 arg3 harg3 arg4 harg4 arg5 harg5 arg6 harg6 hc x0 x1 (ix2 r z)
      = (∑ j : Fin 8192, mask (∑ k : Fin 64, k0_pay3 (F := Ideal) x0 (ix2 R k) * k0_pay3 (F := Ideal) x0 (ix2 j k)))
          + Ideal.ofBits .f32 0x3F800000#32 := by
  rw [out0_A_3_eq]
  exact k0_pay5_rowsAt_apply (k0_pay3 (F := Ideal) x0) i r z R hR

/-- A LATER POINT, at `(r, z)`, with `R = 512 · i + r`: the degree of row `R` from the scratch's rows `xs`. -/
theorem out0_B_3_apply (c : Dev nD) (i : grid0.Coords) (arg1 : Memref sig .tc .vmem S8192x64 .f32) (harg1 : arg1.IsWhole) (arg2 : Memref sig .tc .vmem S64x64 .f32) (harg2 : arg2.IsWhole) (arg3 : Memref sig .tc .vmem S8192x64 .bf16) (harg3 : arg3.IsWhole) (arg4 : Memref sig .tc .vmem S512x1 .f32) (harg4 : arg4.IsWhole) (arg5 : Memref sig .tc .vmem S8192x64 .f32) (harg5 : arg5.IsWhole) (arg6 : Memref sig .tc .vmem S8192x64 .bf16) (harg6 : arg6.IsWhole) (hc : ¬cond0 i) (xs : FVec Ideal S8192x64 .bf16)
    (r : Fin 512) (z : Fin 1) (R : Fin 8192) (hR : R.val = 512 * (i 0).val + r.val) :
    out0_B_3 (F := Ideal) c i arg1 harg1 arg2 harg2 arg3 harg3 arg4 harg4 arg5 harg5 arg6 harg6 hc xs (ix2 r z)
      = (∑ j : Fin 8192, mask (∑ k : Fin 64, xs (ix2 R k) * xs (ix2 j k))) + Ideal.ofBits .f32 0x3F800000#32 := by
  rw [out0_B_3_eq]
  exact k0_pay5_rowsAt_apply xs i r z R hR

end Cert.KernelIdeal.Hand
-- ==== Proof.PayConv1.lean ====
/-
  The first convolution pass's payloads read at an index at the extended reals, as plain arithmetic.
-/
import proofs.«135952_g51264729645358_cont_sun_m_1122_19_alg».proof.Proof.PayDeg

noncomputable section

namespace Cert.KernelIdeal.Pay

open Cert.KernelIdeal Cert.KernelIdeal.Gen Idealize.ShloMosaic Idealize.ShloMosaic.ValueIdx

/-! ## The first convolution block -/

/-- The rescaled first projection at `(n, q)`: the reciprocal root of the degree of row `n` times `y (n, q)` (in that
    order). -/
theorem k1_pay1_apply (d : FVec Ideal S8192x1 .f32) (y : FVec Ideal S8192x64 .f32) (n : Fin 8192) (q : Fin 64) :
    Gen.k1_pay1 (F := Ideal) d y (ix2 n q) = Ideal.rsqrt (d (ix2 n (0 : Fin 1))) * y (ix2 n q) := by
  unfold Gen.k1_pay1
  simp only [shapeCast_self]
  simp only [truncf_apply, mulf_apply]
  rw [broadcastTo_a1_ab_apply, rsqrt_apply]

/-- The first block's rescaled output at `(r, q)`, with `dr` the reciprocal root of the block's degree at row `r`:
    `dr · ∑ k, max (dr · ((∑ j, mask (∑ l, a (r, l) · b (j, l)) · y (j, k)) + dr · xw (r, k)) + c (0, k)) 0 · w (k, q)`, where
    `a` is the block of normalised rows, `b` all normalised rows, `y` all rows of the rescaled first projection, `xw`
    the block of the first projection, `c` the bias row and `w` the second weight matrix. The sum over `j` runs over all
    8192 rows and the sum over `k` over the 64 hidden lanes, both with no initial term (zero accumulators); the zero of
    the rectifier is the real `0` (its word evaluated). Each product stands in the order the operations take it. -/
theorem k1_pay2_apply (a : FVec Ideal S512x64 .bf16) (b : FVec Ideal S8192x64 .bf16) (y : FVec Ideal S8192x64 .bf16)
    (deg : FVec Ideal S512x1 .f32) (xw : FVec Ideal S512x64 .f32) (c : FVec Ideal S1x64 .f32) (w : FVec Ideal S64x64 .f32)
    (r : Fin 512) (q : Fin 64) :
    Gen.k1_pay2 (F := Ideal) a b y deg xw c w (ix2 r q)
      = Ideal.rsqrt (deg (ix2 r (0 : Fin 1)))
          * ∑ k : Fin 64,
              max (Ideal.rsqrt (deg (ix2 r (0 : Fin 1)))
                    * ((∑ j : Fin 8192, mask (∑ l : Fin 64, a (ix2 r l) * b (ix2 j l)) * y (ix2 j k))
                        + Ideal.rsqrt (deg (ix2 r (0 : Fin 1))) * xw (ix2 r k))
                    + c (ix2 (0 : Fin 1) k)) 0
                * w (ix2 k q) := by
  unfold Gen.k1_pay2
  simp only [shapeCast_self]
  simp only [truncf_apply, mulf_apply]
  rw [broadcastTo_a1_ab_apply, rsqrt_apply]
  refine congrArg (Ideal.rsqrt (deg (ix2 r (0 : Fin 1))) * ·) ?_
  refine (LibPlainDot.matmul_plain_apply 512 64 64 (some .fp32) _ w r q).trans ?_
  refine Finset.sum_congr rfl fun k _ => congrArg (· * w (ix2 k q)) ?_
  simp only [maximumf_apply, addf_apply, mulf_apply, broadcast_apply]
  rw [broadcastTo_a1_ab_apply, broadcastTo_1b_ab_apply, rsqrt_apply, agg_apply]
  exact congrArg (max _) Ideal.ofBits_zero_f32

end Cert.KernelIdeal.Pay
-- ==== Proof.KIPieces1.lean ====
/-
  The first convolution pass: what each case of the body leaves in each buffer is the payload of what it read, and at
  the extended reals each such payload read at an index as plain arithmetic.
-/
import proofs.«135952_g51264729645358_cont_sun_m_1122_19_alg».proof.Proof.KIRegion1
import proofs.«135952_g51264729645358_cont_sun_m_1122_19_alg».proof.Proof.PayConv1
import Idealize.ShloMosaic.Lib.Pipeline.Value

set_option maxRecDepth 16384

noncomputable section

namespace Cert.KernelIdeal.Hand

open Cert.KernelIdeal Cert.KernelIdeal.Gen Cert.KernelIdeal.Pay
open Idealize.ShloMosaic Idealize.ShloMosaic.TcCoe Idealize.ShloMosaic.Tactic Idealize.ShloMosaic.ValueIdx
open Idealize.SL Idealize.SL.Sem

/-- The zero offsets of a rank-2 rectangle, however spelt. -/
theorem hz1 : (![0, 0] : Fin 2 → Nat) = fun _ => 0 := funext fun a => by fin_cases a <;> rfl

section Generic
variable {F : FTy → Type} [FloatOps F]

/-- FIRST POINT. The scratch is left holding the rescaled first projection of all rows: the payload of the degrees and
    the first projection (in that order). -/
theorem sout1_A_eq (c : Dev nD) (i : grid1.Coords) (arg1 : Memref sig .tc .vmem S512x64 .bf16) (harg1 : arg1.IsWhole) (arg2 : Memref sig .tc .vmem S8192x64 .bf16) (harg2 : arg2.IsWhole) (arg3 : Memref sig .tc .vmem S8192x64 .f32) (harg3 : arg3.IsWhole) (arg4 : Memref sig .tc .vmem S8192x1 .f32) (harg4 : arg4.IsWhole) (arg5 : Memref sig .tc .vmem S512x1 .f32) (harg5 : arg5.IsWhole) (arg6 : Memref sig .tc .vmem S512x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S512x64 .bf16) (harg9 : arg9.IsWhole) (arg10 : Memref sig .tc .vmem S8192x64 .bf16) (harg10 : arg10.IsWhole) (hc : cond1 i) (x0 : Vec F S512x64 .bf16) (x1 : Vec F S8192x64 .bf16) (x2 : Vec F S8192x64 .f32) (x3 : Vec F S8192x1 .f32) (x4 : Vec F S512x1 .f32) (x5 : Vec F S512x64 .f32) (x6 : Vec F S1x64 .f32) (x7 : Vec F S64x64 .f32) :
    sout1_A c i arg1 harg1 arg2 harg2 arg3 harg3 arg4 harg4 arg5 harg5 arg6 harg6 arg7 harg7 arg8 harg8 arg9 harg9 arg10 harg10 hc x0 x1 x2 x3 x4 x5 x6 x7 = k1_pay1 x3 x2 := by
  unfold sout1_A
  rw [View.read_writes_eq_canon _ _ _ (scover1_A c i arg1 harg1 arg2 harg2 arg3 harg3 arg4 harg4 arg5 harg5 arg6 harg6 arg7 harg7 arg8 harg8 arg9 harg9 arg10 harg10 hc x0 x1 x2 x3 x4 x5 x6 x7)]
  unfold kernelRun1_A
  dsimp only
  sl_unfold_words
  rw [View.canon_unit_zero hz1]
  simp only [View.readAt_eq_ld, harg3.read_unread, harg4.read_unread, View.ld_unit_zero (S := S512x64) hz1, View.ld_unit_zero (S := S8192x64) hz1, View.ld_unit_zero (S := S8192x1) hz1, View.ld_unit_zero (S := S512x1) hz1, View.ld_unit_zero (S := S1x64) hz1, View.ld_unit_zero (S := S64x64) hz1]

/-- FIRST POINT. The result block is the first block's payload of the blocks read, with the scratch just written (the
    rescaled first projection) read back whole. -/
theorem out1_A_8_eq (c : Dev nD) (i : grid1.Coords) (arg1 : Memref sig .tc .vmem S512x64 .bf16) (harg1 : arg1.IsWhole) (arg2 : Memref sig .tc .vmem S8192x64 .bf16) (harg2 : arg2.IsWhole) (arg3 : Memref sig .tc .vmem S8192x64 .f32) (harg3 : arg3.IsWhole) (arg4 : Memref sig .tc .vmem S8192x1 .f32) (harg4 : arg4.IsWhole) (arg5 : Memref sig .tc .vmem S512x1 .f32) (harg5 : arg5.IsWhole) (arg6 : Memref sig .tc .vmem S512x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S512x64 .bf16) (harg9 : arg9.IsWhole) (arg10 : Memref sig .tc .vmem S8192x64 .bf16) (harg10 : arg10.IsWhole) (hc : cond1 i) (x0 : Vec F S512x64 .bf16) (x1 : Vec F S8192x64 .bf16) (x2 : Vec F S8192x64 .f32) (x3 : Vec F S8192x1 .f32) (x4 : Vec F S512x1 .f32) (x5 : Vec F S512x64 .f32) (x6 : Vec F S1x64 .f32) (x7 : Vec F S64x64 .f32) :
    out1_A_8 c i arg1 harg1 arg2 harg2 arg3 harg3 arg4 harg4 arg5 harg5 arg6 harg6 arg7 harg7 arg8 harg8 arg9 harg9 arg10 harg10 hc x0 x1 x2 x3 x4 x5 x6 x7 = k1_pay2 x0 x1 (k1_pay1 x3 x2) x4 x5 x6 x7 := by
  unfold out1_A_8
  rw [View.read_writes_eq_canon _ _ _ (cover1_A_8 c i arg1 harg1 arg2 harg2 arg3 harg3 arg4 harg4 arg5 harg5 arg6 harg6 arg7 harg7 arg8 harg8 arg9 harg9 arg10 harg10 hc x0 x1 x2 x3 x4 x5 x6 x7)]
  unfold kernelRun1_A
  dsimp only
  sl_unfold_words
  rw [View.canon_unit_zero (S := S512x64) hz1, View.readCov_unit_zero (S := S8192x64) _ hz1]
  simp only [View.readAt_eq_ld, harg1.read_unread, harg2.read_unread, harg3.read_unread, harg4.read_unread,
    harg5.read_unread, harg6.read_unread, harg7.read_unread, harg8.read_unread, View.ld_unit_zero (S := S512x64) hz1, View.ld_unit_zero (S := S8192x64) hz1, View.ld_unit_zero (S := S8192x1) hz1, View.ld_unit_zero (S := S512x1) hz1, View.ld_unit_zero (S := S1x64) hz1, View.ld_unit_zero (S := S64x64) hz1]

/-- A LATER POINT. The result block is the first block's payload of the blocks read and the scratch's rows `xs`. -/
theorem out1_B_8_eq (c : Dev nD) (i : grid1.Coords) (arg1 : Memref sig .tc .vmem S512x64 .bf16) (harg1 : arg1.IsWhole) (arg2 : Memref sig .tc .vmem S8192x64 .bf16) (harg2 : arg2.IsWhole) (arg3 : Memref sig .tc .vmem S8192x64 .f32) (harg3 : arg3.IsWhole) (arg4 : Memref sig .tc .vmem S8192x1 .f32) (harg4 : arg4.IsWhole) (arg5 : Memref sig .tc .vmem S512x1 .f32) (harg5 : arg5.IsWhole) (arg6 : Memref sig .tc .vmem S512x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S512x64 .bf16) (harg9 : arg9.IsWhole) (arg10 : Memref sig .tc .vmem S8192x64 .bf16) (harg10 : arg10.IsWhole) (hc : ¬cond1 i) (x0 : Vec F S512x64 .bf16) (x1 : Vec F S8192x64 .bf16) (x2 : Vec F S8192x64 .f32) (x3 : Vec F S8192x1 .f32) (x4 : Vec F S512x1 .f32) (x5 : Vec F S512x64 .f32) (x6 : Vec F S1x64 .f32) (x7 : Vec F S64x64 .f32) (xs : Vec F S8192x64 .bf16) :
    out1_B_8 c i arg1 harg1 arg2 harg2 arg3 harg3 arg4 harg4 arg5 harg5 arg6 harg6 arg7 harg7 arg8 harg8 arg9 harg9 arg10 harg10 hc x0 x1 x2 x3 x4 x5 x6 x7 xs = k1_pay2 x0 x1 xs x4 x5 x6 x7 := by
  unfold out1_B_8
  rw [View.read_writes_eq_canon _ _ _ (cover1_B_8 c i arg1 harg1 arg2 harg2 arg3 harg3 arg4 harg4 arg5 harg5 arg6 harg6 arg7 harg7 arg8 harg8 arg9 harg9 arg10 harg10 hc x0 x1 x2 x3 x4 x5 x6 x7 xs)]
  unfold kernelRun1_B
  dsimp only
  sl_unfold_words
  rw [View.canon_unit_zero (S := S512x64) hz1]
  simp only [View.readAt_eq_ld, harg1.read_unread, harg2.read_unread, harg10.read_unread,
    harg5.read_unread, harg6.read_unread, harg7.read_unread, harg8.read_unread, View.ld_unit_zero (S := S512x64) hz1, View.ld_unit_zero (S := S8192x64) hz1, View.ld_unit_zero (S := S8192x1) hz1, View.ld_unit_zero (S := S512x1) hz1, View.ld_unit_zero (S := S1x64) hz1, View.ld_unit_zero (S := S64x64) hz1]

end Generic

/-! ## The pieces read at an index at the extended reals -/

/-- FIRST POINT, at `(n, q)`: the scratch holds the reciprocal root of the degree of row `n` times the first projection at
    `(n, q)`. -/
theorem sout1_A_apply (c : Dev nD) (i : grid1.Coords) (arg1 : Memref sig .tc .vmem S512x64 .bf16) (harg1 : arg1.IsWhole) (arg2 : Memref sig .tc .vmem S8192x64 .bf16) (harg2 : arg2.IsWhole) (arg3 : Memref sig .tc .vmem S8192x64 .f32) (harg3 : arg3.IsWhole) (arg4 : Memref sig .tc .vmem S8192x1 .f32) (harg4 : arg4.IsWhole) (arg5 : Memref sig .tc .vmem S512x1 .f32) (harg5 : arg5.IsWhole) (arg6 : Memref sig .tc .vmem S512x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S512x64 .bf16) (harg9 : arg9.IsWhole) (arg10 : Memref sig .tc .vmem S8192x64 .bf16) (harg10 : arg10.IsWhole) (hc : cond1 i) (x0 : FVec Ideal S512x64 .bf16) (x1 : FVec Ideal S8192x64 .bf16) (x2 : FVec Ideal S8192x64 .f32) (x3 : FVec Ideal S8192x1 .f32) (x4 : FVec Ideal S512x1 .f32) (x5 : FVec Ideal S512x64 .f32) (x6 : FVec Ideal S1x64 .f32) (x7 : FVec Ideal S64x64 .f32) (n : Fin 8192) (q : Fin 64) :
    sout1_A (F := Ideal) c i arg1 harg1 arg2 harg2 arg3 harg3 arg4 harg4 arg5 harg5 arg6 harg6 arg7 harg7 arg8 harg8 arg9 harg9 arg10 harg10 hc x0 x1 x2 x3 x4 x5 x6 x7 (ix2 n q)
      = Ideal.rsqrt (x3 (ix2 n (0 : Fin 1))) * x2 (ix2 n q) := by
  rw [sout1_A_eq]
  exact k1_pay1_apply x3 x2 n q

/-- A LATER POINT, at `(r, q)`, with `dr` the reciprocal root of the block's degree `x4 (r, 0)` and `xs` the scratch's rows:
    `dr · ∑ k, max (dr · ((∑ j, mask (∑ l, x0 (r, l) · x1 (j, l)) · xs (j, k)) + dr · x5 (r, k)) + x6 (0, k)) 0 · x7 (k, q)`. -/
theorem out1_B_8_apply (c : Dev nD) (i : grid1.Coords) (arg1 : Memref sig .tc .vmem S512x64 .bf16) (harg1 : arg1.IsWhole) (arg2 : Memref sig .tc .vmem S8192x64 .bf16) (harg2 : arg2.IsWhole) (arg3 : Memref sig .tc .vmem S8192x64 .f32) (harg3 : arg3.IsWhole) (arg4 : Memref sig .tc .vmem S8192x1 .f32) (harg4 : arg4.IsWhole) (arg5 : Memref sig .tc .vmem S512x1 .f32) (harg5 : arg5.IsWhole) (arg6 : Memref sig .tc .vmem S512x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S512x64 .bf16) (harg9 : arg9.IsWhole) (arg10 : Memref sig .tc .vmem S8192x64 .bf16) (harg10 : arg10.IsWhole) (hc : ¬cond1 i) (x0 : FVec Ideal S512x64 .bf16) (x1 : FVec Ideal S8192x64 .bf16) (x2 : FVec Ideal S8192x64 .f32) (x3 : FVec Ideal S8192x1 .f32) (x4 : FVec Ideal S512x1 .f32) (x5 : FVec Ideal S512x64 .f32) (x6 : FVec Ideal S1x64 .f32) (x7 : FVec Ideal S64x64 .f32) (xs : FVec Ideal S8192x64 .bf16)
    (r : Fin 512) (q : Fin 64) :
    out1_B_8 (F := Ideal) c i arg1 harg1 arg2 harg2 arg3 harg3 arg4 harg4 arg5 harg5 arg6 harg6 arg7 harg7 arg8 harg8 arg9 harg9 arg10 harg10 hc x0 x1 x2 x3 x4 x5 x6 x7 xs (ix2 r q)
      = Ideal.rsqrt (x4 (ix2 r (0 : Fin 1)))
          * ∑ k : Fin 64,
              max (Ideal.rsqrt (x4 (ix2 r (0 : Fin 1)))
                    * ((∑ j : Fin 8192, mask (∑ l : Fin 64, x0 (ix2 r l) * x1 (ix2 j l)) * xs (ix2 j k))
                        + Ideal.rsqrt (x4 (ix2 r (0 : Fin 1))) * x5 (ix2 r k))
                    + x6 (ix2 (0 : Fin 1) k)) 0
                * x7 (ix2 k q) := by
  rw [out1_B_8_eq]
  exact k1_pay2_apply x0 x1 xs x4 x5 x6 x7 r q

/-- FIRST POINT, at `(r, q)`: the same with the scratch's rows the rescaled first projection just written,
    `k1_pay1 x3 x2`. -/
theorem out1_A_8_apply (c : Dev nD) (i : grid1.Coords) (arg1 : Memref sig .tc .vmem S512x64 .bf16) (harg1 : arg1.IsWhole) (arg2 : Memref sig .tc .vmem S8192x64 .bf16) (harg2 : arg2.IsWhole) (arg3 : Memref sig .tc .vmem S8192x64 .f32) (harg3 : arg3.IsWhole) (arg4 : Memref sig .tc .vmem S8192x1 .f32) (harg4 : arg4.IsWhole) (arg5 : Memref sig .tc .vmem S512x1 .f32) (harg5 : arg5.IsWhole) (arg6 : Memref sig .tc .vmem S512x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S512x64 .bf16) (harg9 : arg9.IsWhole) (arg10 : Memref sig .tc .vmem S8192x64 .bf16) (harg10 : arg10.IsWhole) (hc : cond1 i) (x0 : FVec Ideal S512x64 .bf16) (x1 : FVec Ideal S8192x64 .bf16) (x2 : FVec Ideal S8192x64 .f32) (x3 : FVec Ideal S8192x1 .f32) (x4 : FVec Ideal S512x1 .f32) (x5 : FVec Ideal S512x64 .f32) (x6 : FVec Ideal S1x64 .f32) (x7 : FVec Ideal S64x64 .f32) (r : Fin 512) (q : Fin 64) :
    out1_A_8 (F := Ideal) c i arg1 harg1 arg2 harg2 arg3 harg3 arg4 harg4 arg5 harg5 arg6 harg6 arg7 harg7 arg8 harg8 arg9 harg9 arg10 harg10 hc x0 x1 x2 x3 x4 x5 x6 x7 (ix2 r q)
      = Ideal.rsqrt (x4 (ix2 r (0 : Fin 1)))
          * ∑ k : Fin 64,
              max (Ideal.rsqrt (x4 (ix2 r (0 : Fin 1)))
                    * ((∑ j : Fin 8192, mask (∑ l : Fin 64, x0 (ix2 r l) * x1 (ix2 j l)) * k1_pay1 (F := Ideal) x3 x2 (ix2 j k))
                        + Ideal.rsqrt (x4 (ix2 r (0 : Fin 1))) * x5 (ix2 r k))
                    + x6 (ix2 (0 : Fin 1) k)) 0
                * x7 (ix2 k q) := by
  rw [out1_A_8_eq]
  exact k1_pay2_apply x0 x1 (k1_pay1 (F := Ideal) x3 x2) x4 x5 x6 x7 r q

end Cert.KernelIdeal.Hand
-- ==== Proof.PayConv2.lean ====
/-
  The second convolution pass's payload read at an index at the extended reals, as plain arithmetic.
-/
import proofs.«135952_g51264729645358_cont_sun_m_1122_19_alg».proof.Proof.PayDeg

noncomputable section

namespace Cert.KernelIdeal.Pay

open Cert.KernelIdeal Cert.KernelIdeal.Gen Idealize.ShloMosaic Idealize.ShloMosaic.ValueIdx

/-! ## The second convolution block with the skip connection -/

/-- The output at `(r, q)`, with `dr` the reciprocal root of the block's degree at row `r`:
    `x (r, q) + half · (dr · ((∑ j, mask (∑ k, a (r, k) · b (j, k)) · y (j, q)) + yb (r, q)) + c (0, q))`, where `a` is the
    block of normalised rows, `b` all normalised rows, `y` all rows of the first block's rescaled output, `yb` its block
    (widened from the short float format: the identity here), `x` the block of the first projection, `c` the bias row, and
    `half` the constant one half kept as its word. The sum over `j` runs over all 8192 rows with no initial term (a zero
    accumulator). The factors stand in the order the operations take them: `half · (…)`, `dr · (…)`. -/
theorem k2_pay1_apply (a : FVec Ideal S512x64 .bf16) (b : FVec Ideal S8192x64 .bf16) (y : FVec Ideal S8192x64 .bf16)
    (deg : FVec Ideal S512x1 .f32) (yb : FVec Ideal S512x64 .bf16) (x : FVec Ideal S512x64 .f32) (c : FVec Ideal S1x64 .f32)
    (r : Fin 512) (q : Fin 64) :
    Gen.k2_pay1 (F := Ideal) a b y deg yb x c (ix2 r q)
      = x (ix2 r q) + Ideal.ofBits .f32 0x3F000000#32
          * (Ideal.rsqrt (deg (ix2 r (0 : Fin 1)))
              * ((∑ j : Fin 8192, mask (∑ k : Fin 64, a (ix2 r k) * b (ix2 j k)) * y (ix2 j q)) + yb (ix2 r q))
            + c (ix2 (0 : Fin 1) q)) := by
  unfold Gen.k2_pay1
  simp only [shapeCast_self]
  simp only [addf_apply, mulf_apply, broadcast_apply, extf_apply]
  rw [broadcastTo_a1_ab_apply, broadcastTo_1b_ab_apply, rsqrt_apply, agg_apply]
  rfl

end Cert.KernelIdeal.Pay
-- ==== Proof.KIPieces2.lean ====
/-
  The second convolution pass: what the body leaves in the result's buffer is the payload of the blocks it read, and at
  the extended reals that payload read at an index as plain arithmetic.
-/
import proofs.«135952_g51264729645358_cont_sun_m_1122_19_alg».proof.Proof.KIRegion2
import proofs.«135952_g51264729645358_cont_sun_m_1122_19_alg».proof.Proof.PayConv2
import Idealize.ShloMosaic.Lib.Pipeline.Value

set_option maxRecDepth 16384

noncomputable section

namespace Cert.KernelIdeal.Hand

open Cert.KernelIdeal Cert.KernelIdeal.Gen Cert.KernelIdeal.Pay
open Idealize.ShloMosaic Idealize.ShloMosaic.TcCoe Idealize.ShloMosaic.Tactic Idealize.ShloMosaic.ValueIdx
open Idealize.SL Idealize.SL.Sem

/-- The zero offsets of a rank-2 rectangle, however spelt. -/
theorem hz2 : (![0, 0] : Fin 2 → Nat) = fun _ => 0 := funext fun a => by fin_cases a <;> rfl

section Generic
variable {F : FTy → Type} [FloatOps F]

/-- What the second convolution pass leaves in the result's buffer IS the payload of the seven blocks it read (each load
    through the whole of its buffer reads the buffer; the one store through the whole of the result's buffer leaves its
    payload). The degree block and the block of the first pass's output change places between the two argument lists. -/
theorem out2_7_eq (x0 : Vec F S512x64 .bf16) (x1 : Vec F S8192x64 .bf16) (x2 : Vec F S8192x64 .bf16) (x3 : Vec F S512x64 .bf16)
    (x4 : Vec F S512x1 .f32) (x5 : Vec F S512x64 .f32) (x6 : Vec F S1x64 .f32) :
    out2_7 x0 x1 x2 x3 x4 x5 x6 = k2_pay1 x0 x1 x2 x4 x3 x5 x6 := by
  unfold out2_7
  rw [View.canon_unit_zero hz2]
  simp only [View.ld_unit_zero (S := S512x64) hz2, View.ld_unit_zero (S := S8192x64) hz2,
    View.ld_unit_zero (S := S512x1) hz2, View.ld_unit_zero (S := S1x64) hz2]

end Generic

/-- At the extended reals, at `(r, q)`, with `dr` the reciprocal root of the degree `x4 (r, 0)`:
    `x5 (r, q) + half · (dr · ((∑ j, mask (∑ k, x0 (r, k) · x1 (j, k)) · x2 (j, q)) + x3 (r, q)) + x6 (0, q))`. -/
theorem out2_7_apply (x0 : FVec Ideal S512x64 .bf16) (x1 : FVec Ideal S8192x64 .bf16) (x2 : FVec Ideal S8192x64 .bf16)
    (x3 : FVec Ideal S512x64 .bf16) (x4 : FVec Ideal S512x1 .f32) (x5 : FVec Ideal S512x64 .f32) (x6 : FVec Ideal S1x64 .f32)
    (r : Fin 512) (q : Fin 64) :
    out2_7 (F := Ideal) x0 x1 x2 x3 x4 x5 x6 (ix2 r q)
      = x5 (ix2 r q) + Ideal.ofBits .f32 0x3F000000#32
          * (Ideal.rsqrt (x4 (ix2 r (0 : Fin 1)))
              * ((∑ j : Fin 8192, mask (∑ k : Fin 64, x0 (ix2 r k) * x1 (ix2 j k)) * x2 (ix2 j q)) + x3 (ix2 r q))
            + x6 (ix2 (0 : Fin 1) q)) := by
  rw [out2_7_eq]
  exact k2_pay1_apply x0 x1 x2 x4 x3 x5 x6 r q

end Cert.KernelIdeal.Hand
-- ==== Proof.KIRegionVal.lean ====
/-
  Each pass's result arrays after the pass, read at an index at the extended reals as plain arithmetic on the arrays the
  pass was entered with: from the arrays' blocks (each row `n` is row `n % 512` of block `n / 512`), the pieces each grid
  point leaves, and the payloads read at an index.
-/
import proofs.«135952_g51264729645358_cont_sun_m_1122_19_alg».proof.Proof.KIFinal
import proofs.«135952_g51264729645358_cont_sun_m_1122_19_alg».proof.Proof.KIPieces0
import proofs.«135952_g51264729645358_cont_sun_m_1122_19_alg».proof.Proof.KIPieces1
import proofs.«135952_g51264729645358_cont_sun_m_1122_19_alg».proof.Proof.KIPieces2

set_option maxRecDepth 16384

noncomputable section

namespace Cert.KernelIdeal.Hand

open Cert.KernelIdeal Cert.KernelIdeal.Gen Cert.KernelIdeal.Pay
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## Rows and blocks -/

/-- Row `n` is row `n % 512` of block `n / 512`. -/
theorem row_recompose (n : Fin 8192) (h : n.val / 512 * 512 + n.val % 512 < 8192) :
    (⟨n.val / 512 * 512 + n.val % 512, h⟩ : Fin 8192) = n :=
  Fin.ext (by show n.val / 512 * 512 + n.val % 512 = n.val; omega)

/-! ## The degree pass -/

/-- The one coordinate of a grid point of the degree pass is the point's number. -/
theorem coords0_val : ∀ t : Fin cfg0.N, ((grid0.coords t) 0).val = t.val :=
  (by decide +kernel : ∀ t : Fin grid0.N, ((grid0.coords t) 0).val = t.val)

/-- The normalised rows of an array `X`: `X (n, q)` divided by the larger of the root of row `n`'s sum of squares and
    the small constant (kept as its word). -/
def xnOf (X : FVec Ideal S8192x64 .f32) (n : Fin 8192) (q : Fin 64) : EReal :=
  Ideal.div (X (ix2 n q))
    (max (Ideal.sqrt (∑ k : Fin 64, X (ix2 n k) * X (ix2 n k))) (Ideal.ofBits .f32 0x2B8CBCCC#32))

/-- The degree pass's two entry arrays: the input rows and the first weight matrix. -/
abbrev inX0 (c : Dev nD) : FVec Ideal S8192x64 .f32 := V c (Pipeline.arrRef spec0 0)
abbrev inW0 (c : Dev nD) : FVec Ideal S64x64 .f32 := V c (Pipeline.arrRef spec0 1)

/-- After the degree pass the first result holds the normalised rows of the input rows. -/
theorem val0_2 (c : Dev nD) (n : Fin 8192) (q : Fin 64) :
    (dat0 V c).arrAt 2 cfg0.N (ix2 n q) = xnOf (inX0 V c) n q := by
  rw [final0_2]
  unfold O2
  rw [iblk0_0_eq, iblk0_1_eq]
  exact out0_A_2_apply c _ _ _ _ _ _ _ _ _ _ _ _ _ hcA0 (inX0 V c) (inW0 V c) n q

/-- After the degree pass the third result holds the input rows times the first weight matrix. -/
theorem val0_4 (c : Dev nD) (n : Fin 8192) (q : Fin 64) :
    (dat0 V c).arrAt 4 cfg0.N (ix2 n q)
      = ∑ k : Fin 64, inX0 V c (ix2 n k) * inW0 V c (ix2 k q) := by
  rw [final0_4]
  unfold O4
  rw [iblk0_0_eq, iblk0_1_eq]
  exact out0_A_4_apply c _ _ _ _ _ _ _ _ _ _ _ _ _ hcA0 (inX0 V c) (inW0 V c) n q

/-- What the first point leaves in the scratch, at `(a, k)`: the normalised rows of the input rows. -/
theorem SC_apply (c : Dev nD) (a : Fin 8192) (k : Fin 64) : SC V c (ix2 a k) = xnOf (inX0 V c) a k := by
  unfold SC
  rw [iblk0_0_eq, iblk0_1_eq]
  exact sout0_A_apply c _ _ _ _ _ _ _ _ _ _ _ _ _ hcA0 (inX0 V c) (inW0 V c) a k

/-- After the degree pass the second result holds, at row `n`, the degree: the sum over all 8192 rows `j` of the mask of
    the similarity of the normalised rows `n` and `j`, plus the constant one (kept as its word). The first grid point
    (which has just written the scratch) and the later ones (which read it back) give this one formula. -/
theorem val0_3 (c : Dev nD) (n : Fin 8192) (z : Fin 1) :
    (dat0 V c).arrAt 3 cfg0.N (ix2 n z)
      = (∑ j : Fin 8192, mask (∑ k : Fin 64, xnOf (inX0 V c) n k * xnOf (inX0 V c) j k))
          + Ideal.ofBits .f32 0x3F800000#32 := by
  have hn : n.val < 8192 := n.isLt
  rw [final0_3, final0_3_apply]
  dsimp only
  unfold O3
  by_cases h0 : n.val / 512 = 0
  · rw [dif_pos h0, iblk0_0_eq, iblk0_1_eq]
    refine (out0_A_3_apply c _ _ _ _ _ _ _ _ _ _ _ _ _ hcA0 (inX0 V c) (inW0 V c) _ z n ?_).trans ?_
    · rw [coords0_val]
      show n.val = 512 * 0 + n.val % 512
      omega
    · simp only [k0_pay3_apply]
      rfl
  · rw [dif_neg h0]
    refine (out0_B_3_apply c _ _ _ _ _ _ _ _ _ _ _ _ _ _ (SC V c) _ z n ?_).trans ?_
    · rw [coords0_val]
      show n.val = 512 * (n.val / 512) + n.val % 512
      omega
    · simp only [SC_apply]

/-! ## The first convolution pass -/

/-- Three pairs of the pass's windows read one array each, one window by blocks and one whole: the normalised rows, the
    degrees, the first projection. -/
theorem arrRef1_0 : Pipeline.arrRef spec1 0 = Pipeline.arrRef spec1 1 := rfl
theorem arrRef1_4 : Pipeline.arrRef spec1 4 = Pipeline.arrRef spec1 3 := rfl
theorem arrRef1_5 : Pipeline.arrRef spec1 5 = Pipeline.arrRef spec1 2 := rfl

/-- The pass's entry arrays: the normalised rows, the first projection, the degrees, the first bias row and the second
    weight matrix. -/
abbrev inXn1 (c : Dev nD) : FVec Ideal S8192x64 .bf16 := V c (Pipeline.arrRef spec1 1)
abbrev inXw1 (c : Dev nD) : FVec Ideal S8192x64 .f32 := V c (Pipeline.arrRef spec1 2)
abbrev inDeg1 (c : Dev nD) : FVec Ideal S8192x1 .f32 := V c (Pipeline.arrRef spec1 3)
abbrev inB1 (c : Dev nD) : FVec Ideal S1x64 .f32 := V c (Pipeline.arrRef spec1 6)
abbrev inW1 (c : Dev nD) : FVec Ideal S64x64 .f32 := V c (Pipeline.arrRef spec1 7)

/-- The first point of the pass is point number zero. -/
theorem t1_0_val : (t1_0 : Fin cfg1.N).val = 0 := rfl

/-- What the first point leaves in the scratch, at `(j, k)`: the reciprocal root of the degree of row `j` times the
    first projection at `(j, k)`. -/
theorem SC1_apply (c : Dev nD) (j : Fin 8192) (k : Fin 64) :
    SC1 V c (ix2 j k) = Ideal.rsqrt (inDeg1 V c (ix2 j (0 : Fin 1))) * inXw1 V c (ix2 j k) := by
  unfold SC1
  rw [iblk1_2_eq, iblk1_3_eq]
  exact sout1_A_apply c _ _ _ _ _ _ _ _ _ _ _ _ _ _ _ _ _ _ _ _ _ hcA1 _ _ (inXw1 V c) (inDeg1 V c) _ _ _ _ j k

/-- After the first convolution pass the result holds, at `(n, q)`, with `dr` the reciprocal root of the degree of row
    `n`: `dr · ∑ k, max (dr · ((∑ j, mask (∑ l, xn (n, l) · xn (j, l)) · (rsqrt (deg (j, 0)) · xw (j, k))) + dr · xw (n, k))
    + b (0, k)) 0 · w (k, q)`. The first grid point (which has just written the rescaled projection to the scratch) and the
    later ones (which read it back) give this one formula. -/
theorem val1_8 (c : Dev nD) (n : Fin 8192) (q : Fin 64) :
    (dat1 V c).arrAt 8 cfg1.N (ix2 n q)
      = Ideal.rsqrt (inDeg1 V c (ix2 n (0 : Fin 1)))
          * ∑ k : Fin 64,
              max (Ideal.rsqrt (inDeg1 V c (ix2 n (0 : Fin 1)))
                    * ((∑ j : Fin 8192, mask (∑ l : Fin 64, inXn1 V c (ix2 n l) * inXn1 V c (ix2 j l))
                          * (Ideal.rsqrt (inDeg1 V c (ix2 j (0 : Fin 1))) * inXw1 V c (ix2 j k)))
                        + Ideal.rsqrt (inDeg1 V c (ix2 n (0 : Fin 1))) * inXw1 V c (ix2 n k))
                    + inB1 V c (ix2 (0 : Fin 1) k)) 0
                * inW1 V c (ix2 k q) := by
  have hn : n.val < 8192 := n.isLt
  rw [final1_8, final1_8_apply]
  dsimp only
  unfold O8
  by_cases h0 : n.val / 512 = 0
  · have hrow : ∀ h, (⟨(t1_0 : Fin cfg1.N).val * 512 + n.val % 512, h⟩ : Fin 8192) = n := fun h =>
      Fin.ext (by show (t1_0 : Fin cfg1.N).val * 512 + n.val % 512 = n.val; rw [t1_0_val]; omega)
    have e0 : ∀ k : Fin 64, iblk1 V c 0 t1_0 (ix2 ⟨n.val % 512, Nat.mod_lt _ (by norm_num)⟩ k) = inXn1 V c (ix2 n k) := fun k => by
      rw [iblk1_0_apply]; dsimp only; rw [hrow]
    have e4 : ∀ k : Fin 1, iblk1 V c 4 t1_0 (ix2 ⟨n.val % 512, Nat.mod_lt _ (by norm_num)⟩ k) = inDeg1 V c (ix2 n k) := fun k => by
      rw [iblk1_4_apply]; dsimp only; rw [hrow]
    have e5 : ∀ k : Fin 64, iblk1 V c 5 t1_0 (ix2 ⟨n.val % 512, Nat.mod_lt _ (by norm_num)⟩ k) = inXw1 V c (ix2 n k) := fun k => by
      rw [iblk1_5_apply]; dsimp only; rw [hrow]
    rw [dif_pos h0, iblk1_1_eq, iblk1_2_eq, iblk1_3_eq, iblk1_6_eq, iblk1_7_eq]
    refine (out1_A_8_apply c _ _ _ _ _ _ _ _ _ _ _ _ _ _ _ _ _ _ _ _ _ hcA1 _ _ _ _ _ _ _ _ _ q).trans ?_
    simp only [e0, e4, e5, k1_pay1_apply]
  · have hrow : ∀ h, (⟨n.val / 512 * 512 + n.val % 512, h⟩ : Fin 8192) = n := fun h => row_recompose n h
    have e0 : ∀ k : Fin 64, iblk1 V c 0 ⟨n.val / 512, by show n.val / 512 < 16; omega⟩ (ix2 ⟨n.val % 512, Nat.mod_lt _ (by norm_num)⟩ k) = inXn1 V c (ix2 n k) := fun k => by
      rw [iblk1_0_apply]; dsimp only; rw [hrow]
    have e4 : ∀ k : Fin 1, iblk1 V c 4 ⟨n.val / 512, by show n.val / 512 < 16; omega⟩ (ix2 ⟨n.val % 512, Nat.mod_lt _ (by norm_num)⟩ k) = inDeg1 V c (ix2 n k) := fun k => by
      rw [iblk1_4_apply]; dsimp only; rw [hrow]
    have e5 : ∀ k : Fin 64, iblk1 V c 5 ⟨n.val / 512, by show n.val / 512 < 16; omega⟩ (ix2 ⟨n.val % 512, Nat.mod_lt _ (by norm_num)⟩ k) = inXw1 V c (ix2 n k) := fun k => by
      rw [iblk1_5_apply]; dsimp only; rw [hrow]
    rw [dif_neg h0, iblk1_1_eq, iblk1_2_eq, iblk1_3_eq, iblk1_6_eq, iblk1_7_eq]
    refine (out1_B_8_apply c _ _ _ _ _ _ _ _ _ _ _ _ _ _ _ _ _ _ _ _ _ _ _ _ _ _ _ _ _ _ (SC1 V c) _ q).trans ?_
    simp only [e0, e4, e5, SC1_apply]

/-! ## The second convolution pass -/

/-- Two windows of the pass read the normalised rows (one by blocks, one whole) and two its other 8192-row input: each
    pair names one array. -/
theorem arrRef2_0 : Pipeline.arrRef spec2 0 = Pipeline.arrRef spec2 1 := rfl
theorem arrRef2_3 : Pipeline.arrRef spec2 3 = Pipeline.arrRef spec2 2 := rfl

/-- The pass's entry arrays: the normalised rows, the first block's output rows, the degrees, the input rows and the
    second bias row. -/
abbrev inXn2 (c : Dev nD) : FVec Ideal S8192x64 .bf16 := V c (Pipeline.arrRef spec2 1)
abbrev inY2 (c : Dev nD) : FVec Ideal S8192x64 .bf16 := V c (Pipeline.arrRef spec2 2)
abbrev inDeg2 (c : Dev nD) : FVec Ideal S8192x1 .f32 := V c (Pipeline.arrRef spec2 4)
abbrev inX2 (c : Dev nD) : FVec Ideal S8192x64 .f32 := V c (Pipeline.arrRef spec2 5)
abbrev inB2 (c : Dev nD) : FVec Ideal S1x64 .f32 := V c (Pipeline.arrRef spec2 6)

/-- After the second convolution pass the result holds, at `(n, q)`, with `dr` the reciprocal root of the degree of
    row `n`: `x (n, q) + half · (dr · ((∑ j, mask (∑ k, xn (n, k) · xn (j, k)) · y (j, q)) + y (n, q)) + b (0, q))`. -/
theorem val2_7 (c : Dev nD) (n : Fin 8192) (q : Fin 64) :
    (dat2 V c).arrAt 7 cfg2.N (ix2 n q)
      = inX2 V c (ix2 n q) + Ideal.ofBits .f32 0x3F000000#32
          * (Ideal.rsqrt (inDeg2 V c (ix2 n (0 : Fin 1)))
              * ((∑ j : Fin 8192, mask (∑ k : Fin 64, inXn2 V c (ix2 n k) * inXn2 V c (ix2 j k)) * inY2 V c (ix2 j q))
                  + inY2 V c (ix2 n q))
            + inB2 V c (ix2 (0 : Fin 1) q)) := by
  have hn : n.val < 8192 := n.isLt
  have hrow : ∀ h, (⟨n.val / 512 * 512 + n.val % 512, h⟩ : Fin 8192) = n := fun h => row_recompose n h
  rw [final2_7, final2_7_apply]
  dsimp only
  rw [iblk2_1_eq, iblk2_2_eq, iblk2_6_eq]
  refine (out2_7_apply _ _ _ _ _ _ _ _ q).trans ?_
  have e0 : ∀ k : Fin 64, iblk2 V c 0 ⟨n.val / 512, by show n.val / 512 < 16; omega⟩ (ix2 ⟨n.val % 512, Nat.mod_lt _ (by norm_num)⟩ k)
      = inXn2 V c (ix2 n k) := fun k => by
    rw [iblk2_0_apply]; dsimp only; rw [hrow]
  have e3 : ∀ k : Fin 64, iblk2 V c 3 ⟨n.val / 512, by show n.val / 512 < 16; omega⟩ (ix2 ⟨n.val % 512, Nat.mod_lt _ (by norm_num)⟩ k)
      = inY2 V c (ix2 n k) := fun k => by
    rw [iblk2_3_apply]; dsimp only; rw [hrow]
  have e4 : ∀ k : Fin 1, iblk2 V c 4 ⟨n.val / 512, by show n.val / 512 < 16; omega⟩ (ix2 ⟨n.val % 512, Nat.mod_lt _ (by norm_num)⟩ k)
      = inDeg2 V c (ix2 n k) := fun k => by
    rw [iblk2_4_apply]; dsimp only; rw [hrow]
  have e5 : ∀ k : Fin 64, iblk2 V c 5 ⟨n.val / 512, by show n.val / 512 < 16; omega⟩ (ix2 ⟨n.val % 512, Nat.mod_lt _ (by norm_num)⟩ k)
      = inX2 V c (ix2 n k) := fun k => by
    rw [iblk2_5_apply]; dsimp only; rw [hrow]
  simp only [e0, e3, e4, e5]

end Cert.KernelIdeal.Hand
-- ==== Proof.LibGraphConvRow.lean ====
/-
  Graph convolution with symmetric normalisation, on the extended reals.

  A 0/1 matrix `a` that is symmetric, a vector `d` of positive reals and an arbitrary vector `y` of extended reals.
  The column form adds the identity to `a`, scales entry (j, i) by `d j * d i` and sums against `y`;
  the row form pulls `d i` out of the sum and splits the diagonal term off. The two agree with no finiteness
  asked of `y`: the only distributive steps are over the nonnegative summands `a j i` and the diagonal 0/1 entry,
  and over the positive real factor `d i`, and both hold at the infinities (a positive real times an infinity is
  that infinity, and a sum with both infinities is the lower one on either side of the equation).
  Also here: the column sums of `a` plus the identity are the row sums of `a` plus one, a real that is at least one;
  at such a real the power with exponent minus one half is the reciprocal square root; and the small facts that
  read a one-bit word as the real 0 or 1.
-/
import Idealize.ShloMosaic.PureOps.Ideal
import Mathlib.Data.EReal.Operations

noncomputable section

namespace Cert.GraphConv

open scoped BigOperators
open Idealize.ShloMosaic

variable {ι : Type*}

/-- A nonnegative factor that is not the upper infinity distributes over a finite sum of extended reals:
    `c * ∑ f = ∑ c * f`. Induction on the set, each step the two-term law for such a factor. -/
theorem mul_sum_of_nonneg_of_ne_top {c : EReal} (h0 : 0 ≤ c) (ht : c ≠ ⊤) (s : Finset ι) (f : ι → EReal) :
    c * ∑ j ∈ s, f j = ∑ j ∈ s, c * f j := by
  classical
  refine Finset.induction_on s ?_ ?_
  · simp
  · intro a s ha ih
    rw [Finset.sum_insert ha, Finset.sum_insert ha, EReal.left_distrib_of_nonneg_of_ne_top h0 ht, ih]

/-- An entry that is 0 or 1 is nonnegative. -/
theorem nonneg_of_zero_or_one {x : EReal} (h : x = 0 ∨ x = 1) : 0 ≤ x := by
  rcases h with h | h <;> rw [h]
  exact zero_le_one

/-- A finite sum of entries each 0 or 1 is a nonnegative real. -/
theorem sum_zero_one_eq_coe (a : ι → EReal) (ha : ∀ j, a j = 0 ∨ a j = 1) (s : Finset ι) :
    ∃ r : ℝ, 0 ≤ r ∧ ∑ j ∈ s, a j = (r : EReal) := by
  classical
  refine Finset.induction_on s ?_ ?_
  · exact ⟨0, le_refl 0, by simp⟩
  · intro j s hj ih
    obtain ⟨r, hr, e⟩ := ih
    rcases ha j with h | h
    · exact ⟨r, hr, by rw [Finset.sum_insert hj, h, e, zero_add]⟩
    · exact ⟨1 + r, by linarith, by rw [Finset.sum_insert hj, h, e, EReal.coe_add, EReal.coe_one]⟩

section Square
variable [Fintype ι] [DecidableEq ι]

/-- The column sum of `a` plus the identity, at column `i`, is the row sum of `a` at row `i`, plus one:
    the identity contributes its one diagonal entry and `a` is symmetric. -/
theorem col_sum_add_eye (a : ι → ι → EReal) (hs : ∀ i j, a i j = a j i) (i : ι) :
    ∑ j, (a j i + (if j = i then (1 : EReal) else 0)) = (∑ j, a i j) + 1 := by
  rw [Finset.sum_add_distrib]
  simp only [Finset.sum_ite_eq', Finset.mem_univ, if_true]
  exact congrArg (· + 1) (Finset.sum_congr rfl fun j _ => hs j i)

/-- The row sum of a 0/1 matrix plus one is a real that is at least one. -/
theorem row_sum_add_one_eq_coe (a : ι → ι → EReal) (ha : ∀ i j, a i j = 0 ∨ a i j = 1) (i : ι) :
    ∃ r : ℝ, 1 ≤ r ∧ (∑ j, a i j) + 1 = (r : EReal) := by
  obtain ⟨r, hr, e⟩ := sum_zero_one_eq_coe (a i) (ha i) Finset.univ
  exact ⟨r + 1, by linarith, by rw [e, EReal.coe_add, EReal.coe_one]⟩

/-- The row law. Column form on the left: entry (j, i) of `a` plus the identity, scaled by `d j * d i`, summed
    against `y` over `j`. Row form on the right: `d i` times (the row `i` of `a` against `d * y`, plus the
    diagonal term `d i * y i`). `a` is 0/1 and symmetric, every `d i` a positive real, `y` arbitrary. -/
theorem row_law (a : ι → ι → EReal) (ha : ∀ i j, a i j = 0 ∨ a i j = 1) (hs : ∀ i j, a i j = a j i)
    (d : ι → EReal) (hd : ∀ i, ∃ r : ℝ, 0 < r ∧ d i = (r : EReal)) (y : ι → EReal) (i : ι) :
    ∑ j, ((a j i + (if j = i then (1 : EReal) else 0)) * (d j * d i)) * y j
      = d i * ((∑ j, a i j * (d j * y j)) + d i * y i) := by
  obtain ⟨r, hr, hdi⟩ := hd i
  have hd0 : 0 ≤ d i := by rw [hdi]; exact EReal.coe_nonneg.mpr hr.le
  have hdt : d i ≠ ⊤ := by rw [hdi]; exact EReal.coe_ne_top r
  have he0 : ∀ j, (0 : EReal) ≤ (if j = i then (1 : EReal) else 0) := fun j => by
    split_ifs
    · exact zero_le_one
    · exact le_refl 0
  have step : ∀ j, ((a j i + (if j = i then (1 : EReal) else 0)) * (d j * d i)) * y j
      = d i * (a i j * (d j * y j)) + (if j = i then d i * (d i * y i) else 0) := by
    intro j
    rw [mul_assoc, EReal.right_distrib_of_nonneg (nonneg_of_zero_or_one (ha j i)) (he0 j), hs j i]
    congr 1
    · rw [mul_comm (d j) (d i), mul_assoc, mul_left_comm]
    · by_cases h : j = i
      · rw [if_pos h, if_pos h, h, one_mul, mul_assoc]
      · rw [if_neg h, if_neg h, zero_mul]
  rw [Finset.sum_congr rfl fun j _ => step j, Finset.sum_add_distrib]
  simp only [Finset.sum_ite_eq', Finset.mem_univ, if_true]
  rw [← mul_sum_of_nonneg_of_ne_top hd0 hdt Finset.univ fun j => a i j * (d j * y j),
    EReal.left_distrib_of_nonneg_of_ne_top hd0 hdt]

end Square

/-! ### The normalising power at a real that is at least one -/

/-- The f32 word `0xBF000000` is the real minus one half. -/
theorem ofBits_neg_half_f32 : Ideal.ofBits .f32 0xBF000000#32 = (((-1 / 2 : ℝ)) : EReal) := by
  simp [Ideal.ofBits, Ideal.ieee, -EReal.coe_mul, -EReal.coe_neg]; norm_num

/-- At a real `r ≥ 1` the guarded power `if 0 < r then r ^ (-1/2) else 0` is the reciprocal square root:
    the guard holds, the real power with exponent `-1/2` is the inverse of the power with exponent `1/2`, and that
    is the square root. -/
theorem guarded_pow_neg_half_eq_rsqrt {r : ℝ} (hr : 1 ≤ r) :
    (if (0 : EReal) < (r : EReal) then Ideal.pow (r : EReal) (((-1 / 2 : ℝ)) : EReal) else 0)
      = Ideal.rsqrt (r : EReal) := by
  have h0 : 0 < r := by linarith
  have hp : Real.rpow r (-1 / 2) = (Real.sqrt r)⁻¹ := by
    rw [Real.rpow_eq_pow, Real.sqrt_eq_rpow, show (-1 / 2 : ℝ) = -(1 / 2) by norm_num, Real.rpow_neg h0.le]
  rw [if_pos (EReal.coe_pos.mpr h0), Ideal.pow_coe_coe, Ideal.rsqrt_coe, if_neg (by linarith), if_neg (ne_of_gt h0), hp]

/-- A positive real's reciprocal square root is a positive real. -/
theorem rsqrt_coe_pos {r : ℝ} (hr : 1 ≤ r) : ∃ q : ℝ, 0 < q ∧ Ideal.rsqrt (r : EReal) = (q : EReal) := by
  have h0 : 0 < r := by linarith
  refine ⟨(Real.sqrt r)⁻¹, inv_pos.mpr (Real.sqrt_pos.mpr h0), ?_⟩
  rw [Ideal.rsqrt_coe, if_neg (by linarith), if_neg (ne_of_gt h0)]

/-! ### One-bit words as reals -/

/-- A one-bit word read as an unsigned integer and then as a real is 1 when the bit is set and 0 otherwise. -/
theorem coe_toNat_ofBool (b : Bool) : ((((BitVec.ofBool b).toNat : ℕ) : ℝ) : EReal) = if b then 1 else 0 := by
  cases b <;> simp

/-- Two naturals below `2^32`, as 32-bit words with zero added to the first, compare equal exactly when they are
    equal. -/
theorem cmpi_eq_ofNat (i j : ℕ) (hi : i < 2 ^ 32) (hj : j < 2 ^ 32) :
    IntOp.cmpi .eq (IntOp.addi (BitVec.ofNat 32 i) 0#32) (BitVec.ofNat 32 j) = BitVec.ofBool (decide (i = j)) := by
  unfold IntOp.cmpi IntOp.addi
  congr 1
  rw [BitVec.add_zero]
  by_cases h : i = j
  · subst h; simp
  · have : BitVec.ofNat 32 i ≠ BitVec.ofNat 32 j := by
      intro e
      have := congrArg BitVec.toNat e
      simp only [BitVec.toNat_ofNat, Nat.mod_eq_of_lt hi, Nat.mod_eq_of_lt hj] at this
      exact h this
    simp [h, this]

end Cert.GraphConv

end
-- ==== Proof.RefSpec.lean ====
/-
  The reference's result as one function of its five argument arrays, index by index, on the extended reals.

  The input x : [8, 32, 32, 64] is read as a matrix X : [8192, 64] (row-major: row n, column k of X is the entry of x
  whose four coordinates are the digits of n * 64 + k). Each row is divided by its Euclidean norm (floored at a small
  constant); sim is the Gram matrix of the normalised rows, adj its 0/1 threshold. One graph convolution of Y with
  weights W and bias b: add the identity to adj, take the COLUMN sums deg, put dis = deg ^ (-1/2) where deg > 0 and 0
  elsewhere, scale entry (j, i) by dis j * dis i, and form  out i c = Σ_j scaled(j, i) * (Y W) j c  +  b c.
  The result is x + (1/2) * conv(max(conv(X, W1, b1), 0), W2, b2), read back at four coordinates.
  The three constants that both programs share are kept as their f32 words and never evaluated.
-/
import Idealize.ShloMosaic.PureOps.Ideal
import Idealize.ShloMosaic.Lib.ValueIdx

noncomputable section

namespace Cert.GraphConv

open scoped BigOperators
open Idealize.ShloMosaic Idealize.ShloMosaic.ValueIdx

/-- The input's and the result's shape. -/
abbrev SX : Shape := ⟨4, ![8, 32, 32, 64]⟩
/-- A weight matrix's shape. -/
abbrev SW : Shape := ⟨2, ![64, 64]⟩
/-- A bias vector's shape. -/
abbrev SB : Shape := ⟨1, ![64]⟩

/-- The four coordinates of the input that row `n`, column `k` of the flattened matrix reads: the row-major
    digits of `n * 64 + k` in the radices 8, 32, 32, 64. -/
abbrev flatIdx (n : Fin 8192) (k : Fin 64) : SX.Idx :=
  ix4 (n0 := 8) (n1 := 32) (n2 := 32) (n3 := 64)
    ⟨(n.val * 64 + k.val) / 65536, by have := n.isLt; have := k.isLt; omega⟩
    ⟨(n.val * 64 + k.val) / 2048 % 32, by have := n.isLt; have := k.isLt; omega⟩
    ⟨(n.val * 64 + k.val) / 64 % 32, by have := n.isLt; have := k.isLt; omega⟩
    ⟨(n.val * 64 + k.val) % 64, by have := n.isLt; have := k.isLt; omega⟩

/-- The row of the flattened matrix that the four coordinates `i` land on. -/
abbrev rowOf (i : SX.Idx) : Fin 8192 :=
  ⟨((((i 0).val * 32 + (i 1).val) * 32 + (i 2).val) * 64 + (i 3).val) / 64, by
    have h0 : (i 0).val < 8 := (i 0).isLt; have h1 : (i 1).val < 32 := (i 1).isLt
    have h2 : (i 2).val < 32 := (i 2).isLt; have h3 : (i 3).val < 64 := (i 3).isLt; omega⟩

/-- The column of the flattened matrix that the four coordinates `i` land on. -/
abbrev colOf (i : SX.Idx) : Fin 64 :=
  ⟨((((i 0).val * 32 + (i 1).val) * 32 + (i 2).val) * 64 + (i 3).val) % 64, by omega⟩

/-- Flattening and reading back is the identity on coordinates. -/
theorem flatIdx_rowOf_colOf (i : SX.Idx) : flatIdx (rowOf i) (colOf i) = i := by
  have h0 : (i 0).val < 8 := (i 0).isLt
  have h1 : (i 1).val < 32 := (i 1).isLt
  have h2 : (i 2).val < 32 := (i 2).isLt
  have h3 : (i 3).val < 64 := (i 3).isLt
  funext a
  refine Fin.ext ?_
  match a with
  | ⟨0, _⟩ => show (((((i 0).val * 32 + (i 1).val) * 32 + (i 2).val) * 64 + (i 3).val) / 64 * 64 + ((((i 0).val * 32 + (i 1).val) * 32 + (i 2).val) * 64 + (i 3).val) % 64) / 65536 = (i 0).val; omega
  | ⟨1, _⟩ => show (((((i 0).val * 32 + (i 1).val) * 32 + (i 2).val) * 64 + (i 3).val) / 64 * 64 + ((((i 0).val * 32 + (i 1).val) * 32 + (i 2).val) * 64 + (i 3).val) % 64) / 2048 % 32 = (i 1).val; omega
  | ⟨2, _⟩ => show (((((i 0).val * 32 + (i 1).val) * 32 + (i 2).val) * 64 + (i 3).val) / 64 * 64 + ((((i 0).val * 32 + (i 1).val) * 32 + (i 2).val) * 64 + (i 3).val) % 64) / 64 % 32 = (i 2).val; omega
  | ⟨3, _⟩ => show (((((i 0).val * 32 + (i 1).val) * 32 + (i 2).val) * 64 + (i 3).val) / 64 * 64 + ((((i 0).val * 32 + (i 1).val) * 32 + (i 2).val) * 64 + (i 3).val) % 64) % 64 = (i 3).val; omega

/-- The floor of the row norm: the f32 word both programs carry (about 1e-12), never evaluated. -/
def eps : EReal := Ideal.ofBits .f32 0x2B8CBCCC#32
/-- The similarity threshold: the f32 word both programs carry (about 0.85), never evaluated. -/
def thr : EReal := Ideal.ofBits .f32 0x3F59999A#32
/-- The weight of the convolution branch in the result: the f32 word both programs carry (one half). -/
def half : EReal := Ideal.ofBits .f32 0x3F000000#32

section
variable (x : FVec Ideal SX .f32)

/-- Entry (n, k) of the flattened input. -/
def flat (n : Fin 8192) (k : Fin 64) : EReal := x (flatIdx n k)

/-- The Euclidean norm of row `n`, floored at `eps`. -/
def nrm (n : Fin 8192) : EReal := max (Ideal.sqrt (∑ k : Fin 64, flat x n k * flat x n k)) eps

/-- Row `n` divided by its floored norm. -/
def xn (n : Fin 8192) (k : Fin 64) : EReal := Ideal.div (flat x n k) (nrm x n)

/-- The Gram matrix of the normalised rows. -/
def sim (i j : Fin 8192) : EReal := ∑ k : Fin 64, xn x i k * xn x j k

/-- The thresholded similarity graph: 1 where the similarity exceeds the threshold, else 0. -/
def adj (i j : Fin 8192) : EReal := if thr < sim x i j then 1 else 0

/-- The degree as the reference takes it: the sum of COLUMN `j` of adj plus the identity. -/
def degCol (j : Fin 8192) : EReal := ∑ i : Fin 8192, (adj x i j + (if i = j then (1 : EReal) else 0))

/-- The reference's normaliser: the degree to the power minus one half (the exponent is the f32 word of -0.5) where
    the degree is positive, zero elsewhere. -/
def disRef (j : Fin 8192) : EReal :=
  if 0 < degCol x j then Ideal.pow (degCol x j) (Ideal.ofBits .f32 0xBF000000#32) else 0

end

/-- Row `j`, column `c` of the product of a matrix `Y` : [8192, 64] with a weight matrix. -/
def lin (Y : Fin 8192 → Fin 64 → EReal) (W : FVec Ideal SW .f32) (j : Fin 8192) (c : Fin 64) : EReal :=
  ∑ k : Fin 64, Y j k * W (ix2 k c)

/-- One graph convolution in the reference's (column) form: entry (j, i) of adj plus the identity, scaled by
    `disRef j * disRef i`, summed against row `j` of `Y W`; plus the bias. -/
def convRef (x : FVec Ideal SX .f32) (Y : Fin 8192 → Fin 64 → EReal) (W : FVec Ideal SW .f32) (b : FVec Ideal SB .f32)
    (i : Fin 8192) (c : Fin 64) : EReal :=
  (∑ j : Fin 8192, ((adj x j i + (if j = i then (1 : EReal) else 0)) * (disRef x j * disRef x i)) * lin Y W j c)
    + b (ix1 c)

/-- The hidden layer in the reference's form: the first convolution of the flattened input, clamped below at zero. -/
def hidRef (x : FVec Ideal SX .f32) (W1 : FVec Ideal SW .f32) (b1 : FVec Ideal SB .f32) (i : Fin 8192) (c : Fin 64) : EReal :=
  max (convRef x (flat x) W1 b1 i c) 0

/-- The reference's result: the input plus one half of the second convolution of the hidden layer, read back at four
    coordinates. -/
def Gref (x : FVec Ideal SX .f32) (W1 : FVec Ideal SW .f32) (b1 : FVec Ideal SB .f32) (W2 : FVec Ideal SW .f32)
    (b2 : FVec Ideal SB .f32) : FVec Ideal SX .f32 :=
  fun i => x i + half * convRef x (hidRef x W1 b1) W2 b2 (rowOf i) (colOf i)

end Cert.GraphConv

end
-- ==== Proof.KerSpec.lean ====
/-
  The same result in the kernel's arrangement: one function of the five argument arrays, index by index.

  The kernel never forms the 8192 x 8192 matrices. For each row i it takes the ROW sum of adj plus one as the degree,
  dinv = 1 / sqrt(degree), and one graph convolution of Y with weights W and bias b as
      agg i c = dinv i * ( Σ_j adj i j * (dinv j * (Y W) j c)  +  dinv i * (Y W) i c ),   out i c = agg i c + b c:
  the neighbours' rows pre-scaled by their own dinv, the self loop added as its own term, and the row's dinv pulled out
  of the sum. The result is X + (1/2) * conv(max(conv(X, W1, b1), 0), W2, b2) on the flattened matrix, read back at
  four coordinates.
-/
import proofs.«135952_g51264729645358_cont_sun_m_1122_19_alg».proof.Proof.RefSpec

noncomputable section

namespace Cert.GraphConv

open scoped BigOperators
open Idealize.ShloMosaic Idealize.ShloMosaic.ValueIdx

/-- The degree as the kernel takes it: the sum of ROW `i` of adj, plus one for the self loop. -/
def degRow (x : FVec Ideal SX .f32) (i : Fin 8192) : EReal := (∑ j : Fin 8192, adj x i j) + 1

/-- The kernel's normaliser: the reciprocal square root of the row degree. -/
def dinv (x : FVec Ideal SX .f32) (i : Fin 8192) : EReal := Ideal.rsqrt (degRow x i)

/-- One graph convolution in the kernel's (row) form. -/
def convKer (x : FVec Ideal SX .f32) (Y : Fin 8192 → Fin 64 → EReal) (W : FVec Ideal SW .f32) (b : FVec Ideal SB .f32)
    (i : Fin 8192) (c : Fin 64) : EReal :=
  dinv x i * ((∑ j : Fin 8192, adj x i j * (dinv x j * lin Y W j c)) + dinv x i * lin Y W i c) + b (ix1 c)

/-- The hidden layer in the kernel's form: the first convolution of the flattened input, clamped below at zero. -/
def hidKer (x : FVec Ideal SX .f32) (W1 : FVec Ideal SW .f32) (b1 : FVec Ideal SB .f32) (i : Fin 8192) (c : Fin 64) : EReal :=
  max (convKer x (flat x) W1 b1 i c) 0

/-- The kernel's result: the flattened input plus one half of the second convolution of the hidden layer, read back at
    four coordinates. -/
def Gker (x : FVec Ideal SX .f32) (W1 : FVec Ideal SW .f32) (b1 : FVec Ideal SB .f32) (W2 : FVec Ideal SW .f32)
    (b2 : FVec Ideal SB .f32) : FVec Ideal SX .f32 :=
  fun i => flat x (rowOf i) (colOf i) + half * convKer x (hidKer x W1 b1) W2 b2 (rowOf i) (colOf i)

end Cert.GraphConv

end
-- ==== Proof.Bridge.lean ====
/-
  The reference's arrangement and the kernel's arrangement are one function.

  The similarity matrix is symmetric because the product of extended reals commutes, so its 0/1 threshold adj is
  symmetric too. Hence the column sums of adj plus the identity are the row sums of adj plus one: a real that is at
  least one, where the guarded power with exponent minus one half is the reciprocal square root — the two normalisers
  agree, and each is a positive real. With that, one convolution in column form equals the row form by the row law
  (distributivity only over the nonnegative 0/1 entries and over the positive real normaliser, so nothing is asked of
  the convolved matrix, which may hold infinities). The two layers and the final read-back follow.
-/
import proofs.«135952_g51264729645358_cont_sun_m_1122_19_alg».proof.Proof.LibGraphConvRow
import proofs.«135952_g51264729645358_cont_sun_m_1122_19_alg».proof.Proof.RefSpec
import proofs.«135952_g51264729645358_cont_sun_m_1122_19_alg».proof.Proof.KerSpec

noncomputable section

namespace Cert.GraphConv

open scoped BigOperators
open Idealize.ShloMosaic Idealize.ShloMosaic.ValueIdx

variable (x : FVec Ideal SX .f32)

/-- The Gram matrix is symmetric: each summand is a product of two extended reals, which commutes. -/
theorem sim_symm (i j : Fin 8192) : sim x i j = sim x j i :=
  Finset.sum_congr rfl fun k _ => mul_comm _ _

/-- The thresholded graph is symmetric. -/
theorem adj_symm (i j : Fin 8192) : adj x i j = adj x j i := by
  unfold adj; rw [sim_symm]

/-- Every entry of the thresholded graph is 0 or 1. -/
theorem adj_zero_or_one (i j : Fin 8192) : adj x i j = 0 ∨ adj x i j = 1 := by
  unfold adj
  split_ifs
  · exact Or.inr rfl
  · exact Or.inl rfl

/-- The reference's column degree is the kernel's row degree. -/
theorem degCol_eq_degRow (j : Fin 8192) : degCol x j = degRow x j :=
  col_sum_add_eye (adj x) (adj_symm x) j

/-- The degree is a real that is at least one. -/
theorem degRow_eq_coe (i : Fin 8192) : ∃ r : ℝ, 1 ≤ r ∧ degRow x i = (r : EReal) :=
  row_sum_add_one_eq_coe (adj x) (adj_zero_or_one x) i

/-- The two normalisers agree: at a degree that is a real at least one, the guard holds and the power with exponent
    minus one half is the reciprocal square root. -/
theorem disRef_eq_dinv (j : Fin 8192) : disRef x j = dinv x j := by
  obtain ⟨r, hr, e⟩ := degRow_eq_coe x j
  unfold disRef dinv
  rw [degCol_eq_degRow, e, ofBits_neg_half_f32]
  exact guarded_pow_neg_half_eq_rsqrt hr

/-- The normaliser is a positive real. -/
theorem dinv_eq_coe_pos (i : Fin 8192) : ∃ q : ℝ, 0 < q ∧ dinv x i = (q : EReal) := by
  obtain ⟨r, hr, e⟩ := degRow_eq_coe x i
  unfold dinv
  rw [e]
  exact rsqrt_coe_pos hr

/-- One convolution: the column form is the row form. -/
theorem convRef_eq_convKer (Y : Fin 8192 → Fin 64 → EReal) (W : FVec Ideal SW .f32) (b : FVec Ideal SB .f32)
    (i : Fin 8192) (c : Fin 64) : convRef x Y W b i c = convKer x Y W b i c := by
  unfold convRef convKer
  simp only [disRef_eq_dinv]
  exact congrArg (· + b (ix1 c))
    (row_law (adj x) (adj_zero_or_one x) (adj_symm x) (dinv x) (dinv_eq_coe_pos x) (fun j => lin Y W j c) i)

/-- The hidden layers agree. -/
theorem hidRef_eq_hidKer (W1 : FVec Ideal SW .f32) (b1 : FVec Ideal SB .f32) : hidRef x W1 b1 = hidKer x W1 b1 := by
  funext i c
  unfold hidRef hidKer
  rw [convRef_eq_convKer]

/-- The reference's function is the kernel's function. -/
theorem Gref_eq_Gker (W1 : FVec Ideal SW .f32) (b1 : FVec Ideal SB .f32) (W2 : FVec Ideal SW .f32)
    (b2 : FVec Ideal SB .f32) : Gref x W1 b1 W2 b2 = Gker x W1 b1 W2 b2 := by
  funext i
  unfold Gref Gker
  rw [hidRef_eq_hidKer, convRef_eq_convKer]
  unfold flat
  rw [flatIdx_rowOf_colOf]

end Cert.GraphConv

end
-- ==== Proof.KIValue.lean ====
/-
  The kernel's result as a function of the launch memory.

  The run is three reshapes, the three passes, and one reshape. Before the passes the input is flattened to 8192 rows
  (row n, column k is the input at the row-major digits of n * 64 + k) and each bias vector becomes a one-row matrix.
  Each pass leaves its result arrays at what its grid points wrote back and touches no other array, so the arrays a later
  pass finds are named by the earlier passes' results. After the passes the flat result is read back at four coordinates
  (i lands on row rowOf i, column colOf i).
-/
import proofs.«135952_g51264729645358_cont_sun_m_1122_19_alg».proof.Proof.KIRun
import proofs.«135952_g51264729645358_cont_sun_m_1122_19_alg».proof.Proof.KIFinal
import proofs.«135952_g51264729645358_cont_sun_m_1122_19_alg».proof.Proof.KIRegionVal
import proofs.«135952_g51264729645358_cont_sun_m_1122_19_alg».proof.Proof.Bridge
import Idealize.ShloMosaic.Lib.Pipeline.Value
import Idealize.ShloMosaic.Lib.ValueIdx
import Idealize.ShloMosaic.Lib.StableHlo.Run
import Idealize.ShloMosaic.Lib.IdealHost

set_option maxRecDepth 16384

noncomputable section

namespace Cert.KernelIdeal.Hand

open Cert.KernelIdeal Cert.KernelIdeal.Gen Cert.KernelIdeal.Pay Cert.GraphConv
open scoped BigOperators
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ)

/-! ## The reshapes -/

/-- The result, at four coordinates, is the flat result at the row and column they land on. -/
theorem W5_v0_apply (c : Dev nD) (i : S8x32x32x64.Idx) :
    (W5 m c (Proc.devRef .tc main_v0) : S8x32x32x64.Idx → EReal) i
      = (V4 m c main_call0_v5 : S8192x64.Idx → EReal) (ix2 (rowOf i) (colOf i)) := by
  have e : (W5 m c (Proc.devRef .tc main_v0) : S8x32x32x64.Idx → EReal)
      = shapeCast S8x32x32x64 (V4 m c main_call0_v5 : S8192x64.Idx → EReal) shapeCasts_S8192x64_S8x32x32x64 := by
    show StableHlo.after hostOps3 _ (Proc.devRef .tc main_v0) = _
    after_results
    rfl
  rw [e]
  exact shapeCast_apply _ shapeCasts_S8192x64_S8x32x32x64 i (ix2 (rowOf i) (colOf i)) (by
    rewrite [Shape.rowMajor_val_two, Shape.rowMajor_val_four]
    have h0 : (i 0).val < 8 := (i 0).isLt
    have h1 : (i 1).val < 32 := (i 1).isLt
    have h2 : (i 2).val < 32 := (i 2).isLt
    have h3 : (i 3).val < 64 := (i 3).isLt
    show ((((i 0).val * 32 + (i 1).val) * 32 + (i 2).val) * 64 + (i 3).val) / 64 * 64
        + ((((i 0).val * 32 + (i 1).val) * 32 + (i 2).val) * 64 + (i 3).val) % 64
      = (((i 0).val * 32 + (i 1).val) * 32 + (i 2).val) * 64 + (i 3).val
    omega)

/-- The flattened input at (n, k) is the input at the row-major digits of `n * 64 + k`. -/
theorem V1_v0_apply (c : Dev nD) (n : Fin 8192) (k : Fin 64) :
    (V1 m c main_call0_v0 : S8192x64.Idx → EReal) (ix2 n k) = flat (m ((c : Thread nD τ).loc main_arg0)) n k := by
  have e : (V1 m c main_call0_v0 : S8192x64.Idx → EReal)
      = shapeCast S8192x64 (m ((c : Thread nD τ).loc main_arg0) : S8x32x32x64.Idx → EReal) shapeCasts_S8x32x32x64_S8192x64 := by
    show StableHlo.after hostOps0 _ (Proc.devRef .tc main_call0_v0) = _
    after_results
    rfl
  rw [e]
  exact shapeCast_apply _ shapeCasts_S8x32x32x64_S8192x64 (ix2 n k) (flatIdx n k) (by
    rewrite [Shape.rowMajor_val_four, Shape.rowMajor_val_two]
    have h0 : n.val < 8192 := n.isLt
    have h1 : k.val < 64 := k.isLt
    show ((((n.val * 64 + k.val) / 65536 * 32 + (n.val * 64 + k.val) / 2048 % 32) * 32 + (n.val * 64 + k.val) / 64 % 32) * 64
        + (n.val * 64 + k.val) % 64) = n.val * 64 + k.val
    omega)

/-- The first bias as a one-row matrix. -/
theorem V1_v1_apply (c : Dev nD) (z : Fin 1) (k : Fin 64) :
    (V1 m c main_call0_v1 : S1x64.Idx → EReal) (ix2 z k) = (m ((c : Thread nD τ).loc main_arg2) : S64.Idx → EReal) (ix1 k) := by
  have e : (V1 m c main_call0_v1 : S1x64.Idx → EReal)
      = shapeCast S1x64 (m ((c : Thread nD τ).loc main_arg2) : S64.Idx → EReal) shapeCasts_S64_S1x64 := by
    show StableHlo.after hostOps0 _ (Proc.devRef .tc main_call0_v1) = _
    after_results
    rfl
  rw [e]
  exact shapeCast_apply _ shapeCasts_S64_S1x64 (ix2 z k) (ix1 k) (by
    rewrite [Shape.rowMajor_val_one, Shape.rowMajor_val_two]
    have hz : z.val < 1 := z.isLt
    show k.val = z.val * 64 + k.val
    omega)

/-- The second bias as a one-row matrix. -/
theorem V1_v2_apply (c : Dev nD) (z : Fin 1) (k : Fin 64) :
    (V1 m c main_call0_v2 : S1x64.Idx → EReal) (ix2 z k) = (m ((c : Thread nD τ).loc main_arg4) : S64.Idx → EReal) (ix1 k) := by
  have e : (V1 m c main_call0_v2 : S1x64.Idx → EReal)
      = shapeCast S1x64 (m ((c : Thread nD τ).loc main_arg4) : S64.Idx → EReal) shapeCasts_S64_S1x64 := by
    show StableHlo.after hostOps0 _ (Proc.devRef .tc main_call0_v2) = _
    after_results
    rfl
  rw [e]
  exact shapeCast_apply _ shapeCasts_S64_S1x64 (ix2 z k) (ix1 k) (by
    rewrite [Shape.rowMajor_val_one, Shape.rowMajor_val_two]
    have hz : z.val < 1 := z.isLt
    show k.val = z.val * 64 + k.val
    omega)

/-- The two weight matrices are never written: every pass finds them as launched. -/
theorem V1_arg1 (c : Dev nD) : V1 m c main_arg1 = m ((c : Thread nD τ).loc main_arg1) :=
  W1_of_ne m c main_arg1 (by decide)
theorem V1_arg3 (c : Dev nD) : V1 m c main_arg3 = m ((c : Thread nD τ).loc main_arg3) :=
  W1_of_ne m c main_arg3 (by decide)
theorem V2_arg3 (c : Dev nD) : V2 m c main_arg3 = m ((c : Thread nD τ).loc main_arg3) :=
  (W2_of_ne m c main_arg3 (by decide)).trans (V1_arg3 m c)

/-! ## What each pass finds -/

/-- The degree pass leaves the normalised rows, the degrees and the first-layer features. -/
theorem V2_v3_0 (c : Dev nD) : V2 m c main_call0_v3_0 = O2 (V1 m) c := ((hF0 m c 2).symm).trans (final0_2 (V1 m) c)
theorem V2_v3_1 (c : Dev nD) : V2 m c main_call0_v3_1 = D0 (V1 m) c := ((hF0 m c 3).symm).trans (final0_3 (V1 m) c)
theorem V2_v3_2 (c : Dev nD) : V2 m c main_call0_v3_2 = O4 (V1 m) c := ((hF0 m c 4).symm).trans (final0_4 (V1 m) c)
/-- It leaves the bias rows as the reshapes made them. -/
theorem V2_v1 (c : Dev nD) : V2 m c main_call0_v1 = V1 m c main_call0_v1 := W2_of_ne m c main_call0_v1 (by decide)
theorem V2_v2 (c : Dev nD) : V2 m c main_call0_v2 = V1 m c main_call0_v2 := W2_of_ne m c main_call0_v2 (by decide)
theorem V2_v0 (c : Dev nD) : V2 m c main_call0_v0 = V1 m c main_call0_v0 :=
  ((W2_arr m c 0).trans (((dat0 (V1 m) c).arrAt_in 0 rfl _).trans (A_eq0 (V1 m) c 0)))

/-- The first convolution pass leaves the scaled second-layer features and nothing else changed. -/
theorem V3_v4_eq (c : Dev nD) : V3 m c main_call0_v4 = Y1 (V2 m) c := (V3_v4 m c).trans (final1_8 (V2 m) c)
theorem V3_v3_0 (c : Dev nD) : V3 m c main_call0_v3_0 = V2 m c main_call0_v3_0 := V3_of_ne m c _ (by decide)
theorem V3_v3_1 (c : Dev nD) : V3 m c main_call0_v3_1 = V2 m c main_call0_v3_1 := V3_of_ne m c _ (by decide)
theorem V3_v0 (c : Dev nD) : V3 m c main_call0_v0 = V2 m c main_call0_v0 := V3_of_ne m c _ (by decide)
theorem V3_v2 (c : Dev nD) : V3 m c main_call0_v2 = V2 m c main_call0_v2 := V3_of_ne m c _ (by decide)

/-- The second convolution pass leaves the flat result. -/
theorem V4_v5_eq (c : Dev nD) : V4 m c main_call0_v5 = R2 (V3 m) c := (V4_v5 m c).trans (final2_7 (V3 m) c)

/-! ## The arrays between the passes, as functions of the launched arguments

Each array a pass finds or leaves is named as one function of the five launched arrays: the flattened input, the two
bias rows, the normalised rows, the degrees, the first-layer features, the scaled second-layer features and the flat
result. The kernel's arithmetic at an index is then the specification's, definition by definition; the one constant
that is evaluated is the degree's self loop, the word of 1.0. -/

section Arrays
variable (x : FVec Ideal SX .f32) (W1 : FVec Ideal SW .f32) (b1 : FVec Ideal SB .f32) (W2 : FVec Ideal SW .f32)
  (b2 : FVec Ideal SB .f32)

/-- The flattened input as an array. -/
def flatA : S8192x64.Idx → EReal := fun i => flat x (i 0) (i 1)
/-- A bias vector as a one-row matrix. -/
def biasA (b : FVec Ideal SB .f32) : S1x64.Idx → EReal := fun i => b (ix1 (i 1))
/-- The normalised rows as an array. -/
def xnA : S8192x64.Idx → EReal := fun i => xn x (i 0) (i 1)
/-- The degrees as a one-column array. -/
def degA : S8192x1.Idx → EReal := fun i => degRow x (i 0)
/-- The first-layer features (the flattened input times the first weight matrix) as an array. -/
def xw1A : S8192x64.Idx → EReal := fun i => lin (flat x) W1 (i 0) (i 1)
/-- The scaled second-layer features as an array: each row of the hidden layer times the second weight matrix,
    scaled by the row's normaliser. -/
def y2A : S8192x64.Idx → EReal := fun i => dinv x (i 0) * lin (hidKer x W1 b1) W2 (i 0) (i 1)

end Arrays

/-- The five launched arguments on core `c`, by name. -/
abbrev aX (c : Dev nD) : FVec Ideal SX .f32 := m ((c : Thread nD τ).loc main_arg0)
abbrev aW1 (c : Dev nD) : FVec Ideal SW .f32 := m ((c : Thread nD τ).loc main_arg1)
abbrev aB1 (c : Dev nD) : FVec Ideal SB .f32 := m ((c : Thread nD τ).loc main_arg2)
abbrev aW2 (c : Dev nD) : FVec Ideal SW .f32 := m ((c : Thread nD τ).loc main_arg3)
abbrev aB2 (c : Dev nD) : FVec Ideal SB .f32 := m ((c : Thread nD τ).loc main_arg4)

/-- The reshapes leave the flattened input and the two bias rows. -/
theorem V1_v0_eq (c : Dev nD) : V1 m c main_call0_v0 = flatA (aX m c) := by
  funext i
  obtain ⟨n, k, rfl⟩ : ∃ (n : Fin 8192) (k : Fin 64), i = ix2 n k := ⟨i 0, i 1, eq_ix2 i⟩
  exact V1_v0_apply m c n k
theorem V1_v1_eq (c : Dev nD) : V1 m c main_call0_v1 = biasA (aB1 m c) := by
  funext i
  obtain ⟨z, k, rfl⟩ : ∃ (z : Fin 1) (k : Fin 64), i = ix2 z k := ⟨i 0, i 1, eq_ix2 i⟩
  exact V1_v1_apply m c z k
theorem V1_v2_eq (c : Dev nD) : V1 m c main_call0_v2 = biasA (aB2 m c) := by
  funext i
  obtain ⟨z, k, rfl⟩ : ∃ (z : Fin 1) (k : Fin 64), i = ix2 z k := ⟨i 0, i 1, eq_ix2 i⟩
  exact V1_v2_apply m c z k

/-- The degree pass's two entry arrays. -/
theorem inX0_eq (c : Dev nD) : inX0 (V1 m) c = flatA (aX m c) := V1_v0_eq m c
theorem inW0_eq (c : Dev nD) : inW0 (V1 m) c = (aW1 m c) := V1_arg1 m c

/-- The degree pass leaves the normalised rows, -/
theorem V2_v3_0_eq (c : Dev nD) : V2 m c main_call0_v3_0 = xnA (aX m c) := by
  funext i
  obtain ⟨n, q, rfl⟩ : ∃ (n : Fin 8192) (q : Fin 64), i = ix2 n q := ⟨i 0, i 1, eq_ix2 i⟩
  rw [show V2 m c main_call0_v3_0 = (dat0 (V1 m) c).arrAt 2 cfg0.N from (hF0 m c 2).symm, val0_2, inX0_eq]
  rfl

/-- the first-layer features, -/
theorem V2_v3_2_eq (c : Dev nD) : V2 m c main_call0_v3_2 = xw1A (aX m c) (aW1 m c) := by
  funext i
  obtain ⟨n, q, rfl⟩ : ∃ (n : Fin 8192) (q : Fin 64), i = ix2 n q := ⟨i 0, i 1, eq_ix2 i⟩
  rw [show V2 m c main_call0_v3_2 = (dat0 (V1 m) c).arrAt 4 cfg0.N from (hF0 m c 4).symm, val0_4, inX0_eq, inW0_eq]
  rfl

/-- and the degrees: the row sums of the thresholded graph plus the self loop's one. -/
theorem V2_v3_1_eq (c : Dev nD) : V2 m c main_call0_v3_1 = degA (aX m c) := by
  funext i
  obtain ⟨n, z, rfl⟩ : ∃ (n : Fin 8192) (z : Fin 1), i = ix2 n z := ⟨i 0, i 1, eq_ix2 i⟩
  rw [show V2 m c main_call0_v3_1 = (dat0 (V1 m) c).arrAt 3 cfg0.N from (hF0 m c 3).symm, val0_3, inX0_eq]
  show (∑ j : Fin 8192, adj (aX m c) n j) + Ideal.ofBits .f32 0x3F800000#32 = degRow (aX m c) n
  rw [Ideal.ofBits_one_f32]
  rfl

/-- The first convolution pass's entry arrays. -/
theorem inXn1_eq (c : Dev nD) : inXn1 (V2 m) c = xnA (aX m c) := V2_v3_0_eq m c
theorem inXw1_eq (c : Dev nD) : inXw1 (V2 m) c = xw1A (aX m c) (aW1 m c) := V2_v3_2_eq m c
theorem inDeg1_eq (c : Dev nD) : inDeg1 (V2 m) c = degA (aX m c) := V2_v3_1_eq m c
theorem inB1_eq (c : Dev nD) : inB1 (V2 m) c = biasA (aB1 m c) := (V2_v1 m c).trans (V1_v1_eq m c)
theorem inW1_eq (c : Dev nD) : inW1 (V2 m) c = (aW2 m c) := V2_arg3 m c

/-- The first convolution pass leaves the scaled second-layer features. -/
theorem V3_v4_arr (c : Dev nD) : V3 m c main_call0_v4 = y2A (aX m c) (aW1 m c) (aB1 m c) (aW2 m c) := by
  funext i
  obtain ⟨n, q, rfl⟩ : ∃ (n : Fin 8192) (q : Fin 64), i = ix2 n q := ⟨i 0, i 1, eq_ix2 i⟩
  rw [V3_v4, val1_8, inXn1_eq, inXw1_eq, inDeg1_eq, inB1_eq, inW1_eq]
  rfl

/-- The second convolution pass's entry arrays. -/
theorem inXn2_eq (c : Dev nD) : inXn2 (V3 m) c = xnA (aX m c) := (V3_v3_0 m c).trans (V2_v3_0_eq m c)
theorem inY2_eq (c : Dev nD) : inY2 (V3 m) c = y2A (aX m c) (aW1 m c) (aB1 m c) (aW2 m c) := V3_v4_arr m c
theorem inDeg2_eq (c : Dev nD) : inDeg2 (V3 m) c = degA (aX m c) := (V3_v3_1 m c).trans (V2_v3_1_eq m c)
theorem inX2_eq (c : Dev nD) : inX2 (V3 m) c = flatA (aX m c) := (V3_v0 m c).trans ((V2_v0 m c).trans (V1_v0_eq m c))
theorem inB2_eq (c : Dev nD) : inB2 (V3 m) c = biasA (aB2 m c) := (V3_v2 m c).trans ((V2_v2 m c).trans (V1_v2_eq m c))

/-- The second convolution pass leaves the flat result: the flattened input plus one half of the second convolution
    of the hidden layer. -/
theorem V4_v5_apply (c : Dev nD) (n : Fin 8192) (q : Fin 64) :
    (V4 m c main_call0_v5 : S8192x64.Idx → EReal) (ix2 n q)
      = flat (aX m c) n q + half * convKer (aX m c) (hidKer (aX m c) (aW1 m c) (aB1 m c)) (aW2 m c) (aB2 m c) n q := by
  rw [V4_v5, val2_7, inXn2_eq, inY2_eq, inDeg2_eq, inX2_eq, inB2_eq]
  rfl

/-! ## The kernel's value -/

/-- The kernel's result array is the specification's function, in the kernel's arrangement, of the five launched
    arrays. -/
theorem value_eq (c : Dev nD) :
    W5 m c (Proc.devRef .tc main_v0)
      = Gker (m ((c : Thread nD τ).loc main_arg0)) (m ((c : Thread nD τ).loc main_arg1))
          (m ((c : Thread nD τ).loc main_arg2)) (m ((c : Thread nD τ).loc main_arg3))
          (m ((c : Thread nD τ).loc main_arg4)) := by
  funext i
  rw [W5_v0_apply, V4_v5_apply]
  rfl

end Cert.KernelIdeal.Hand

end
-- ==== Proof.RefFrame.lean ====
/-
  The reference program runs to the end on every weakly fair execution, faults nowhere, and leaves its five
  argument arrays as it found them. The reference is a host program with no kernel launch: its run, read back
  as the composed pure term of its operations, already states what every array holds at the end; the frame is
  that statement with the result's value dropped and the unchanged arguments kept.
-/
import proofs.«135952_g51264729645358_cont_sun_m_1122_19_alg».proof.Defs
import proofs.«135952_g51264729645358_cont_sun_m_1122_19_alg».proof.Proof.Gen.ReferenceIdeal
import proofs.«135952_g51264729645358_cont_sun_m_1122_19_alg».proof.Proof.Gen.Pre_finite_inputs
import proofs.«135952_g51264729645358_cont_sun_m_1122_19_alg».proof.Proof.RefRunP

noncomputable section

namespace Cert.Proof.RefFrame

open Idealize.ShloMosaic Idealize.SL.Sem

/-- The reference terminates without fault and its arguments end unchanged: the second half of each device's
    conjunct of the reference's run. -/
theorem frame_ri : Cert.frame_ReferenceIdeal := fun m ρ _ =>
  (θ_run Cert.ReferenceIdeal.defs _ _).mono (fun _ h c => (h c).2)
    (Cert.ReferenceIdeal.ValueP.run (F := Ideal) m ρ)

end Cert.Proof.RefFrame

end
-- ==== Proof.RefIsSpec.lean ====
/-
  The reference, read one stage at a time at an index, is the specification's function of the five argument arrays.

  Each stage of the reference is read at coordinates: a layout stage moves the index (the moved index is computed
  once per stage, as an equation between index functions), a pointwise stage applies its operation, a contraction or
  a sum becomes a finite sum over the contracted coordinate. Read in program order — the flattened input, the floored
  row norm, the normalised rows, their Gram matrix, its 0/1 threshold, the identity matrix from two coordinate
  counters, the column degree, the guarded power, the scaled graph, the product with the weights, the aggregation and
  the bias, the clamp at zero, the same again for the second layer, and the read-back at four coordinates — the last
  stage is `Gref`. The two 8192 x 8192 identity matrices and every other large stage stay symbolic: they are only
  ever read at one symbolic index.
-/
import proofs.«135952_g51264729645358_cont_sun_m_1122_19_alg».proof.Proof.RefReadP
import proofs.«135952_g51264729645358_cont_sun_m_1122_19_alg».proof.Proof.LibGraphConvRow
import proofs.«135952_g51264729645358_cont_sun_m_1122_19_alg».proof.Proof.RefSpec

noncomputable section

namespace Cert.ReferenceIdeal.RefValue

open scoped BigOperators
open Cert.ReferenceIdeal Cert.ReferenceIdeal.ReadP Cert.GraphConv Idealize.ShloMosaic Idealize.ShloMosaic.ValueIdx
  Idealize.ShloMosaic.TcCoe Idealize.SL.Sem

/-- Two index functions of rank one agree when their coordinate agrees by computation. -/
local macro "idx_eq1" : tactic =>
  `(tactic| exact funext fun a => Fin.ext (by match a with | ⟨0, _⟩ => rfl))
/-- Two index functions of rank two agree when their two coordinates agree by computation. -/
local macro "idx_eq2" : tactic =>
  `(tactic| exact funext fun a => Fin.ext (by match a with | ⟨0, _⟩ => rfl | ⟨1, _⟩ => rfl))

variable (x : FVec Ideal SX .f32) (W1 : FVec Ideal SW .f32) (b1 : FVec Ideal SB .f32)
  (W2 : FVec Ideal SW .f32) (b2 : FVec Ideal SB .f32)

/-! ### The normalised rows and their thresholded Gram matrix -/

/-- The flattened input at (n, k) is the input at the row-major digits of `n * 64 + k`. -/
theorem v0_at (n : Fin 8192) (k : Fin 64) : val_main_v0 (F := Ideal) x (ix2 n k) = flat x n k := by
  rw [val_main_v0_apply]
  exact congrArg x (funext fun a => Fin.ext (by
    match a with | ⟨0, _⟩ => rfl | ⟨1, _⟩ => rfl | ⟨2, _⟩ => rfl | ⟨3, _⟩ => rfl))

/-- The floored row norm: the square root of the row's sum of squares (from the initial value zero), floored. -/
theorem v3_at (n : Fin 8192) (z : Fin 1) : val_main_v3 (F := Ideal) x (ix2 n z) = nrm x n := by
  have e1 : idx_main_call0_v2 (ix2 n z) = ix1 n := by idx_eq1
  have e2 : ∀ k : Fin 64, idx_main_call0_v1 (ix1 n) k = ix2 n k := fun k => by idx_eq2
  rw [val_main_v3_apply, val_main_v1_apply, val_main_call0_v2_apply, e1, val_main_call0_v1_apply, val_main_v2_apply,
    val_main_cst_apply, val_main_call0_cst_apply]
  simp only [e2, val_main_call0_v0_apply, v0_at, Ideal.maximumf_def, Ideal.hostUnary_sqrt_def, Ideal.ofBits_def,
    Ideal.ofBits_zero_f32, zero_add, Ideal.mulf_def]
  rfl

/-- A row divided by its floored norm. -/
theorem v5_at (n : Fin 8192) (k : Fin 64) : val_main_v5 (F := Ideal) x (ix2 n k) = xn x n k := by
  have e : idx_main_v4 (ix2 n k) = ix2 n (0 : Fin 1) := by idx_eq2
  rw [val_main_v5_apply, val_main_v4_apply, e, v0_at, v3_at]
  rfl

/-- The Gram matrix: the contraction of the normalised rows with their transpose. -/
theorem v7_at (i j : Fin 8192) : val_main_v7 (F := Ideal) x (ix2 i j) = sim x i j := by
  have el : ∀ k : Fin 64, lidx_main_v7 (ix2 i j) k = ix2 i k := fun k => by idx_eq2
  have er : ∀ k : Fin 64, idx_main_v6 (ridx_main_v7 (ix2 i j) k) = ix2 j k := fun k => by idx_eq2
  rw [val_main_v7_apply]
  simp only [val_main_v6_apply, el, er, v5_at]
  rfl

/-- The thresholded graph: the comparison's bit read as the real 0 or 1. -/
theorem v10_at (i j : Fin 8192) : val_main_v10 (F := Ideal) x (ix2 i j) = adj x i j := by
  rw [val_main_v10_apply, val_main_v9_apply, v7_at, val_main_v8_apply, val_main_cst_0_apply]
  show ((((BitVec.ofBool (decide (Ideal.ofBits .f32 0x3F59999A#32 < sim x i j))).toNat : ℕ) : ℝ) : EReal) = _
  rw [coe_toNat_ofBool]
  unfold adj thr
  simp only [decide_eq_true_eq]

/-! ### The first layer's graph: self loops, degree, normaliser, scaling -/

/-- The identity matrix: the two coordinate counters, as 32-bit words, compare equal exactly on the diagonal. -/
theorem v16_at (i j : Fin 8192) :
    val_main_v16 (F := Ideal) (ix2 i j) = if i = j then (1 : EReal) else 0 := by
  rw [val_main_v16_apply, val_main_v15_apply, val_main_v14_apply, val_main_v11_apply, val_main_v12_apply,
    val_main_v13_apply, val_main_c_apply]
  show ((((IntOp.cmpi .eq (IntOp.addi (BitVec.ofNat 32 i.val) 0#32) (BitVec.ofNat 32 j.val)).toNat : ℕ) : ℝ) : EReal) = _
  rw [cmpi_eq_ofNat i.val j.val (by have := i.isLt; omega) (by have := j.isLt; omega), coe_toNat_ofBool]
  simp only [decide_eq_true_eq, Fin.ext_iff]

/-- The graph with its self loops: adj plus the identity. -/
theorem v17_at (i j : Fin 8192) :
    val_main_v17 (F := Ideal) x (ix2 i j) = adj x i j + (if i = j then (1 : EReal) else 0) := by
  rw [val_main_v17_apply, v10_at, v16_at]
  rfl

/-- The degree: the sum down column `j`, from the initial value zero. -/
theorem v18_at (j : Fin 8192) : val_main_v18 (F := Ideal) x (ix1 j) = degCol x j := by
  have e : ∀ k : Fin 8192, idx_main_v18 (ix1 j) k = ix2 k j := fun k => by idx_eq2
  rw [val_main_v18_apply, val_main_cst_1_apply]
  simp only [e, v17_at, Ideal.ofBits_def, Ideal.ofBits_zero_f32, zero_add]
  rfl

/-- The normaliser: the guarded power, the guard read off the comparison's bit. -/
theorem v23_at (j : Fin 8192) : val_main_v23 (F := Ideal) x (ix1 j) = disRef x j := by
  rw [val_main_v23_apply, val_main_v20_apply, val_main_v22_apply, v18_at, val_main_v19_apply,
    val_main_cst_2_apply, val_main_v21_apply, val_main_cst_3_apply, val_main_call1_v1_apply,
    val_main_call1_v0_apply, val_main_cst_4_apply]
  simp only [Ideal.ofBits_def, Ideal.ofBits_zero_f32, Ideal.hostPowf_def]
  unfold disRef
  show Scalar.select (BitVec.ofBool (decide ((0 : EReal) < degCol x j))) _ _ = _
  by_cases h : (0 : EReal) < degCol x j
  · rw [if_pos h, decide_eq_true h]; exact select_one _ _
  · rw [if_neg h, decide_eq_false h]; exact select_zero _ _

/-- The scaled graph: entry (i, j) of adj plus the identity times the two normalisers. -/
theorem v29_at (i j : Fin 8192) :
    val_main_v29 (F := Ideal) x (ix2 i j)
      = (adj x i j + (if i = j then (1 : EReal) else 0)) * (disRef x i * disRef x j) := by
  have e1 : idx_main_v24 (idx_main_v26 (ix2 i j)) = ix1 i := by idx_eq1
  have e2 : idx_main_v25 (idx_main_v27 (ix2 i j)) = ix1 j := by idx_eq1
  rw [val_main_v29_apply, v17_at, val_main_v28_apply, val_main_v26_apply, val_main_v24_apply, e1,
    val_main_v27_apply, val_main_v25_apply, e2, v23_at, v23_at]
  rfl

/-! ### The first layer -/

/-- The flattened input times the first weight matrix. -/
theorem v30_at (j : Fin 8192) (c : Fin 64) : val_main_v30 (F := Ideal) x W1 (ix2 j c) = lin (flat x) W1 j c := by
  have el : ∀ k : Fin 64, lidx_main_v30 (ix2 j c) k = ix2 j k := fun k => by idx_eq2
  have er : ∀ k : Fin 64, ridx_main_v30 (ix2 j c) k = ix2 k c := fun k => by idx_eq2
  rw [val_main_v30_apply]
  simp only [el, er, v0_at]
  rfl

/-- The aggregation: the transposed scaled graph contracted with the product. -/
theorem v32_at (i : Fin 8192) (c : Fin 64) :
    val_main_v32 (F := Ideal) x W1 (ix2 i c)
      = ∑ j : Fin 8192, ((adj x j i + (if j = i then (1 : EReal) else 0)) * (disRef x j * disRef x i)) * lin (flat x) W1 j c := by
  have el : ∀ k : Fin 8192, idx_main_v31 (lidx_main_v32 (ix2 i c) k) = ix2 k i := fun k => by idx_eq2
  have er : ∀ k : Fin 8192, ridx_main_v32 (ix2 i c) k = ix2 k c := fun k => by idx_eq2
  rw [val_main_v32_apply]
  simp only [val_main_v31_apply, el, er, v29_at, v30_at]

/-- The first convolution: the aggregation plus the bias. -/
theorem v35_at (i : Fin 8192) (c : Fin 64) :
    val_main_v35 (F := Ideal) x W1 b1 (ix2 i c) = convRef x (flat x) W1 b1 i c := by
  have e : idx_main_v33 (idx_main_v34 (ix2 i c)) = ix1 c := by idx_eq1
  rw [val_main_v35_apply, v32_at, val_main_v34_apply, val_main_v33_apply, e]
  rfl

/-- The hidden layer: the first convolution clamped below at zero. -/
theorem v36_at (i : Fin 8192) (c : Fin 64) : val_main_v36 (F := Ideal) x W1 b1 (ix2 i c) = hidRef x W1 b1 i c := by
  rw [val_main_v36_apply, v35_at, val_main_call2_v0_apply, val_main_call2_cst_apply]
  simp only [Ideal.maximumf_def, Ideal.ofBits_def, Ideal.ofBits_zero_f32]
  rfl

/-! ### The second layer's graph: the same stages again -/

/-- The identity matrix: the two coordinate counters, as 32-bit words, compare equal exactly on the diagonal. -/
theorem v42_at (i j : Fin 8192) :
    val_main_v42 (F := Ideal) (ix2 i j) = if i = j then (1 : EReal) else 0 := by
  rw [val_main_v42_apply, val_main_v41_apply, val_main_v40_apply, val_main_v37_apply, val_main_v38_apply,
    val_main_v39_apply, val_main_c_5_apply]
  show ((((IntOp.cmpi .eq (IntOp.addi (BitVec.ofNat 32 i.val) 0#32) (BitVec.ofNat 32 j.val)).toNat : ℕ) : ℝ) : EReal) = _
  rw [cmpi_eq_ofNat i.val j.val (by have := i.isLt; omega) (by have := j.isLt; omega), coe_toNat_ofBool]
  simp only [decide_eq_true_eq, Fin.ext_iff]

/-- The graph with its self loops: adj plus the identity. -/
theorem v43_at (i j : Fin 8192) :
    val_main_v43 (F := Ideal) x (ix2 i j) = adj x i j + (if i = j then (1 : EReal) else 0) := by
  rw [val_main_v43_apply, v10_at, v42_at]
  rfl

/-- The degree: the sum down column `j`, from the initial value zero. -/
theorem v44_at (j : Fin 8192) : val_main_v44 (F := Ideal) x (ix1 j) = degCol x j := by
  have e : ∀ k : Fin 8192, idx_main_v44 (ix1 j) k = ix2 k j := fun k => by idx_eq2
  rw [val_main_v44_apply, val_main_cst_6_apply]
  simp only [e, v43_at, Ideal.ofBits_def, Ideal.ofBits_zero_f32, zero_add]
  rfl

/-- The normaliser: the guarded power, the guard read off the comparison's bit. -/
theorem v49_at (j : Fin 8192) : val_main_v49 (F := Ideal) x (ix1 j) = disRef x j := by
  rw [val_main_v49_apply, val_main_v46_apply, val_main_v48_apply, v44_at, val_main_v45_apply,
    val_main_cst_7_apply, val_main_v47_apply, val_main_cst_8_apply, val_main_call3_v1_apply,
    val_main_call3_v0_apply, val_main_cst_9_apply]
  simp only [Ideal.ofBits_def, Ideal.ofBits_zero_f32, Ideal.hostPowf_def]
  unfold disRef
  show Scalar.select (BitVec.ofBool (decide ((0 : EReal) < degCol x j))) _ _ = _
  by_cases h : (0 : EReal) < degCol x j
  · rw [if_pos h, decide_eq_true h]; exact select_one _ _
  · rw [if_neg h, decide_eq_false h]; exact select_zero _ _

/-- The scaled graph: entry (i, j) of adj plus the identity times the two normalisers. -/
theorem v55_at (i j : Fin 8192) :
    val_main_v55 (F := Ideal) x (ix2 i j)
      = (adj x i j + (if i = j then (1 : EReal) else 0)) * (disRef x i * disRef x j) := by
  have e1 : idx_main_v50 (idx_main_v52 (ix2 i j)) = ix1 i := by idx_eq1
  have e2 : idx_main_v51 (idx_main_v53 (ix2 i j)) = ix1 j := by idx_eq1
  rw [val_main_v55_apply, v43_at, val_main_v54_apply, val_main_v52_apply, val_main_v50_apply, e1,
    val_main_v53_apply, val_main_v51_apply, e2, v49_at, v49_at]
  rfl

/-! ### The second layer and the result -/

/-- The hidden layer times the second weight matrix. -/
theorem v56_at (j : Fin 8192) (c : Fin 64) :
    val_main_v56 (F := Ideal) x W1 b1 W2 (ix2 j c) = lin (hidRef x W1 b1) W2 j c := by
  have el : ∀ k : Fin 64, lidx_main_v56 (ix2 j c) k = ix2 j k := fun k => by idx_eq2
  have er : ∀ k : Fin 64, ridx_main_v56 (ix2 j c) k = ix2 k c := fun k => by idx_eq2
  rw [val_main_v56_apply]
  simp only [el, er, v36_at]
  rfl

/-- The second aggregation. -/
theorem v58_at (i : Fin 8192) (c : Fin 64) :
    val_main_v58 (F := Ideal) x W1 b1 W2 (ix2 i c)
      = ∑ j : Fin 8192, ((adj x j i + (if j = i then (1 : EReal) else 0)) * (disRef x j * disRef x i))
          * lin (hidRef x W1 b1) W2 j c := by
  have el : ∀ k : Fin 8192, idx_main_v57 (lidx_main_v58 (ix2 i c) k) = ix2 k i := fun k => by idx_eq2
  have er : ∀ k : Fin 8192, ridx_main_v58 (ix2 i c) k = ix2 k c := fun k => by idx_eq2
  rw [val_main_v58_apply]
  simp only [val_main_v57_apply, el, er, v55_at, v56_at]

/-- The second convolution. -/
theorem v61_at (i : Fin 8192) (c : Fin 64) :
    val_main_v61 (F := Ideal) x W1 b1 W2 b2 (ix2 i c) = convRef x (hidRef x W1 b1) W2 b2 i c := by
  have e : idx_main_v59 (idx_main_v60 (ix2 i c)) = ix1 c := by idx_eq1
  rw [val_main_v61_apply, v58_at, val_main_v60_apply, val_main_v59_apply, e]
  rfl

/-- The reference's last stage is the specification. -/
theorem val_eq_Gref : val_main_v65 (F := Ideal) x W1 b1 W2 b2 = Gref x W1 b1 W2 b2 := by
  funext i
  have e : idx_main_v62 i = ix2 (rowOf i) (colOf i) := by idx_eq2
  rw [val_main_v65_apply, val_main_v64_apply, val_main_v63_apply, val_main_cst_10_apply, val_main_v62_apply, e, v61_at]
  rfl

/-- The reference run's result, on each device, is the specification of the five argument arrays as the run finds
    them: the run's composed term is the last stage, and the last stage is `Gref`. -/
theorem res_eq_Gref (m : (ℓ : Loc nD τ sig) → Buf (Elt Ideal) ℓ) (c : Dev nD) :
    Cert.ReferenceIdeal.ValueP.res_main_v65 (F := Ideal) m c
      = Gref (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) :=
  (val_main_v65_eq m c).trans (val_eq_Gref _ _ _ _ _)

end Cert.ReferenceIdeal.RefValue

end
-- ==== Proof.RefRunSpec.lean ====
/-
  The reference's run with its result named: on every device, every weakly fair execution of the reference terminates
  with the result array at the kernel's arrangement `Gker` of the five argument arrays as the run found them, and the
  arguments unchanged. Three steps: the run ends at its operations' composed term; that term is the specification in
  the reference's arrangement; and the reference's arrangement equals the kernel's.
-/
import proofs.«135952_g51264729645358_cont_sun_m_1122_19_alg».proof.Proof.RefIsSpec
import proofs.«135952_g51264729645358_cont_sun_m_1122_19_alg».proof.Proof.Bridge

noncomputable section

namespace Cert.ReferenceIdeal.RefValue

open Cert.ReferenceIdeal Cert.GraphConv Idealize.ShloMosaic Idealize.ShloMosaic.TcCoe Idealize.SL.Sem

/-- The reference ends at `Gker` of its arguments, which it leaves unchanged. -/
theorem run_Gker (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v65)
          = Gker (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨(h c).1.trans ((res_eq_Gref m c).trans (Gref_eq_Gker _ _ _ _ _)), (h c).2⟩)
    (Cert.ReferenceIdeal.ValueP.run (F := Ideal) m ρ)

end Cert.ReferenceIdeal.RefValue

end
-- ==== Proof.lean ====
/-
  The certificate of a two-layer graph convolution over a thresholded cosine-similarity graph.

  For x : [8, 32, 32, 64], read as a matrix X : [8192, 64], both programs compute
      out = x + (1/2) * conv(max(conv(X, W1, b1), 0), W2, b2),
  where the graph joins rows i and j when the inner product of their normalised rows exceeds a threshold, and one
  convolution of Y is  D^(-1/2) (A + I) D^(-1/2) (Y W) + b  with D the degrees of A + I.
  The reference forms the 8192 x 8192 matrices: the COLUMN sums of A + I as degrees, the degree to the power -1/2
  where it is positive, the scaled matrix transposed against Y W. The kernel never forms them: three passes over blocks
  of 512 rows recompute each block of A from the normalised rows, take its ROW sums plus one as degrees, the
  reciprocal square root as the normaliser, pre-scale the neighbours' rows, add the self loop as its own term and pull
  the row's normaliser out of the sum.
  On the extended reals the two arrangements are one function: A is symmetric because the product commutes; every
  entry of A is the real 0 or 1, so a degree is a real not below 1, where the power -1/2 is the reciprocal square root
  and the guard is true; the self loop splits off and the row's normaliser factors out of the sum because the factors
  involved are nonnegative reals — no finiteness of the features is needed, and the precondition is never opened.

  The word-level kernel and its idealization are the same text (no rewrite was applied), so `preserves` is trivial and
  the two kernel frames are one proof read at two instances: @main is a stretch of reshapes, three kernel regions and a
  last reshape; each region's record gives what every output window's buffer holds after each grid point — the first
  pass fills a scratch with the normalised rows at its first point and reads it at every later one, and writes two of
  its results back once after the last point; the second pass keeps the scaled first-layer features the same way —,
  and the windows of the second and third pass that read one array twice hold one half of it each.
  The kernel's result array is then read back pass by pass to the kernel's arrangement, and the reference's run stage by
  stage to its own.
-/
import proofs.«135952_g51264729645358_cont_sun_m_1122_19_alg».proof.Defs
import proofs.«135952_g51264729645358_cont_sun_m_1122_19_alg».proof.Proof.Gen.Kernel
import proofs.«135952_g51264729645358_cont_sun_m_1122_19_alg».proof.Proof.Gen.KernelIdeal
import proofs.«135952_g51264729645358_cont_sun_m_1122_19_alg».proof.Proof.Gen.ReferenceIdeal
import proofs.«135952_g51264729645358_cont_sun_m_1122_19_alg».proof.Proof.Gen.Pre_finite_inputs
import proofs.«135952_g51264729645358_cont_sun_m_1122_19_alg».proof.Proof.KRun
import proofs.«135952_g51264729645358_cont_sun_m_1122_19_alg».proof.Proof.KIRun
import proofs.«135952_g51264729645358_cont_sun_m_1122_19_alg».proof.Proof.KIValue
import proofs.«135952_g51264729645358_cont_sun_m_1122_19_alg».proof.Proof.RefFrame
import proofs.«135952_g51264729645358_cont_sun_m_1122_19_alg».proof.Proof.RefRunSpec
import Idealize.ShloMosaic.Adequacy
import Idealize.ShloMosaic.Init

noncomputable section

namespace Cert.Proof

open Idealize.ShloMosaic Idealize.SL.Sem

/-- The word-level kernel runs to the end and leaves its five arguments as launched. -/
theorem frame_k : Cert.frame_Kernel := fun m ρ _ => Cert.Kernel.Hand.frame (F := Bits) m ρ

/-- So does its reading on the extended reals. -/
theorem frame_ki : Cert.frame_KernelIdeal := fun m ρ _ => Cert.KernelIdeal.Hand.frame (F := Ideal) m ρ

/-- No operation of the kernel was rewritten for the reading on the extended reals. -/
theorem preserves : Cert.preserves_Kernel_KernelIdeal := trivial

/-- From memories that agree on the five arguments both programs end with the kernel's arrangement of the result:
    the kernel by its passes read back, the reference by its stages and the equality of the two arrangements. -/
theorem algebraic : Cert.algebraic_KernelIdeal_ReferenceIdeal := by
  intro m ρ m' ρ' _ hagree
  refine ⟨fun c => Cert.GraphConv.Gker (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Hand.value_eq m c), (h c).2⟩)
      (Cert.KernelIdeal.Hand.run_value (F := Ideal) m ρ)
  · refine (θ_run Cert.ReferenceIdeal.defs _ _).mono (fun r h c => ⟨?_, (h c).2⟩)
      (Cert.ReferenceIdeal.RefValue.run_Gker m' ρ')
    rw [(h c).1, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, Cert.Proof.RefFrame.frame_ri, preserves, algebraic⟩

end Cert.Proof

end
